-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v159)) (v1 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_v160) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v218) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000 : Shape := ⟨1, ![300000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S1 .f32) (main_v63 : IVec S_ 1) (main_v67 : IVec S_ 1) : IVec S_ 1 :=
  let main_v68 : IVec S_ 1 := andi main_v63 main_v67
  let main_v69 : FVec F S1 .f32 := Host.absf main_arg17
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg14 : FVec F S512x256 .f32) (main_arg15 : FVec F S256 .f32) (main_arg16 : FVec F S256x1 .f32) (main_arg17 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S512x256 .f32 := Host.absf main_arg14
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg16
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg17 main_v63 main_v67

def fn_part2 {F : FTy → Type} [FloatOps F] (main_arg10 : FVec F S256 .f32) (main_arg11 : FVec F S256 .f32) (main_arg12 : FVec F S256 .f32) (main_arg13 : FVec F S256 .f32) (main_arg14 : FVec F S512x256 .f32) (main_arg15 : FVec F S256 .f32) (main_arg16 : FVec F S256x1 .f32) (main_arg17 : FVec F S1 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg14 main_arg15 main_arg16 main_arg17 main_v48 main_v49 main_v50

def fn_part1 {F : FTy → Type} [FloatOps F] (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S512x256 .f32) (main_arg15 : FVec F S256 .f32) (main_arg16 : FVec F S256x1 .f32) (main_arg17 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_arg15 main_arg16 main_arg17 main_v33

def fn {F : FTy → Type} [FloatOps F] (main_arg0 : FVec F S100000x256 .f32) (main_arg1 : IVec S300000 32) (main_arg2 : IVec S300000 32) (main_arg3 : IVec S300000 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256 .f32) (main_arg11 : FVec F S256 .f32) (main_arg12 : FVec F S256 .f32) (main_arg13 : FVec F S256 .f32) (main_arg14 : FVec F S512x256 .f32) (main_arg15 : FVec F S256 .f32) (main_arg16 : FVec F S256x1 .f32) (main_arg17 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_arg9 main_arg10 main_arg11 main_arg12 main_arg13 main_arg14 main_arg15 main_arg16 main_arg17 main_v13 main_v16
-- ==== Kernel.lean ====
abbrev S100000x256 : Shape := ⟨2, ![100000, 256]⟩
abbrev S300000 : Shape := ⟨1, ![300000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S100000 : Shape := ⟨1, ![100000]⟩
abbrev S400000 : Shape := ⟨1, ![400000]⟩
abbrev S_ : Shape := ⟨0, ![]⟩
abbrev S400000x1 : Shape := ⟨2, ![400000, 1]⟩
abbrev S5000x256 : Shape := ⟨2, ![5000, 256]⟩
abbrev S400000x256 : Shape := ⟨2, ![400000, 256]⟩
abbrev S1x256 : Shape := ⟨2, ![1, 256]⟩
abbrev S300000x1 : Shape := ⟨2, ![300000, 1]⟩
abbrev S300000x256 : Shape := ⟨2, ![300000, 256]⟩
abbrev S2000x256 : Shape := ⟨2, ![2000, 256]⟩
abbrev S2000x1 : Shape := ⟨2, ![2000, 1]⟩
abbrev S1x1 : Shape := ⟨2, ![1, 1]⟩

abbrev nBuf : Space → Nat
  | .hbm => 219
  | .vmem => 30
  | .smem => 0
  | _ => 0

abbrev hbmTy0_0 (i : Nat) : BufTy := match i % 128 with
  | 0 => ⟨S100000x256, .f32⟩
  | 1 => ⟨S300000, .i32⟩
  | 2 => ⟨S300000, .i32⟩
  | 3 => ⟨S300000, .i32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S512x256, .f32⟩
  | 15 => ⟨S256, .f32⟩
  | 16 => ⟨S256x1, .f32⟩
  | 17 => ⟨S1, .f32⟩
  | 18 => ⟨S100000, .i32⟩
  | 19 => ⟨S400000, .i32⟩
  | 20 => ⟨S400000, .i32⟩
  | 21 => ⟨S_, .f32⟩
  | 22 => ⟨S400000, .f32⟩
  | 23 => ⟨S_, .f32⟩
  | 24 => ⟨S100000, .f32⟩
  | 25 => ⟨S400000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000, .f32⟩
  | 53 => ⟨S400000, .f32⟩
  | 54 => ⟨S100000x256, .bf16⟩
  | 55 => ⟨S400000x1, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x256, .bf16⟩
  | 65 => ⟨S400000x256, .f32⟩
  | 66 => ⟨S400000x256, .f32⟩
  | 67 => ⟨S400000x256, .f32⟩
  | 68 => ⟨S_, .f32⟩
  | 69 => ⟨S100000x256, .f32⟩
  | 70 => ⟨S400000x1, .i32⟩
  | 71 => ⟨S100000x256, .f32⟩
  | 72 => ⟨S1x256, .f32⟩
  | 73 => ⟨S100000x256, .f32⟩
  | 74 => ⟨S100000x256, .f32⟩
  | 75 => ⟨S_, .f32⟩
  | 76 => ⟨S256, .f32⟩
  | 77 => ⟨S_, .f32⟩
  | 78 => ⟨S256, .f32⟩
  | 79 => ⟨S256, .f32⟩
  | 80 => ⟨S1x256, .f32⟩
  | 81 => ⟨S100000x256, .f32⟩
  | 82 => ⟨S100000x256, .f32⟩
  | 83 => ⟨S100000x256, .f32⟩
  | 84 => ⟨S_, .f32⟩
  | 85 => ⟨S256, .f32⟩
  | 86 => ⟨S_, .f32⟩
  | 87 => ⟨S256, .f32⟩
  | 88 => ⟨S256, .f32⟩
  | 89 => ⟨S1x256, .f32⟩
  | 90 => ⟨S100000x256, .f32⟩
  | 91 => ⟨S100000x256, .f32⟩
  | 92 => ⟨S_, .f32⟩
  | 93 => ⟨S256, .f32⟩
  | 94 => ⟨S256, .f32⟩
  | 95 => ⟨S256, .f32⟩
  | 96 => ⟨S1x256, .f32⟩
  | 97 => ⟨S100000x256, .f32⟩
  | 98 => ⟨S100000x256, .f32⟩
  | 99 => ⟨S1x256, .f32⟩
  | 100 => ⟨S100000x256, .f32⟩
  | 101 => ⟨S100000x256, .f32⟩
  | 102 => ⟨S1x256, .f32⟩
  | 103 => ⟨S100000x256, .f32⟩
  | 104 => ⟨S100000x256, .f32⟩
  | 105 => ⟨S_, .f32⟩
  | 106 => ⟨S100000x256, .f32⟩
  | 107 => ⟨S100000x256, .f32⟩
  | 108 => ⟨S100000x256, .bf16⟩
  | 109 => ⟨S100000x256, .bf16⟩
  | 110 => ⟨S400000x1, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x256, .bf16⟩
  | 120 => ⟨S400000x256, .f32⟩
  | 121 => ⟨S400000x256, .f32⟩
  | 122 => ⟨S400000x256, .f32⟩
  | 123 => ⟨S_, .f32⟩
  | 124 => ⟨S100000x256, .f32⟩
  | 125 => ⟨S400000x1, .i32⟩
  | 126 => ⟨S100000x256, .f32⟩
  | 127 => ⟨S1x256, .f32⟩
  | _ => ⟨S100000x256, .f32⟩

abbrev hbmTy0_1 (i : Nat) : BufTy := match i % 128 with
  | 0 => ⟨S100000x256, .f32⟩
  | 1 => ⟨S100000x256, .f32⟩
  | 2 => ⟨S_, .f32⟩
  | 3 => ⟨S256, .f32⟩
  | 4 => ⟨S_, .f32⟩
  | 5 => ⟨S256, .f32⟩
  | 6 => ⟨S256, .f32⟩
  | 7 => ⟨S1x256, .f32⟩
  | 8 => ⟨S100000x256, .f32⟩
  | 9 => ⟨S100000x256, .f32⟩
  | 10 => ⟨S100000x256, .f32⟩
  | 11 => ⟨S_, .f32⟩
  | 12 => ⟨S256, .f32⟩
  | 13 => ⟨S_, .f32⟩
  | 14 => ⟨S256, .f32⟩
  | 15 => ⟨S256, .f32⟩
  | 16 => ⟨S1x256, .f32⟩
  | 17 => ⟨S100000x256, .f32⟩
  | 18 => ⟨S100000x256, .f32⟩
  | 19 => ⟨S_, .f32⟩
  | 20 => ⟨S256, .f32⟩
  | 21 => ⟨S256, .f32⟩
  | 22 => ⟨S256, .f32⟩
  | 23 => ⟨S1x256, .f32⟩
  | 24 => ⟨S100000x256, .f32⟩
  | 25 => ⟨S100000x256, .f32⟩
  | 26 => ⟨S1x256, .f32⟩
  | 27 => ⟨S100000x256, .f32⟩
  | 28 => ⟨S100000x256, .f32⟩
  | 29 => ⟨S1x256, .f32⟩
  | 30 => ⟨S100000x256, .f32⟩
  | 31 => ⟨S100000x256, .f32⟩
  | 32 => ⟨S_, .f32⟩
  | 33 => ⟨S100000x256, .f32⟩
  | 34 => ⟨S100000x256, .f32⟩
  | 35 => ⟨S100000x256, .bf16⟩
  | 36 => ⟨S100000x256, .bf16⟩
  | 37 => ⟨S400000x1, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000x256, .bf16⟩
  | 47 => ⟨S400000x256, .f32⟩
  | 48 => ⟨S400000x256, .f32⟩
  | 49 => ⟨S400000x256, .f32⟩
  | 50 => ⟨S_, .f32⟩
  | 51 => ⟨S100000x256, .f32⟩
  | 52 => ⟨S400000x1, .i32⟩
  | 53 => ⟨S100000x256, .f32⟩
  | 54 => ⟨S1x256, .f32⟩
  | 55 => ⟨S100000x256, .f32⟩
  | 56 => ⟨S100000x256, .f32⟩
  | 57 => ⟨S100000x256, .bf16⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .bf16⟩
  | 67 => ⟨S_, .i32⟩
  | 68 => ⟨S300000, .i32⟩
  | 69 => ⟨S300000, .i1⟩
  | 70 => ⟨S_, .i32⟩
  | 71 => ⟨S300000, .i32⟩
  | 72 => ⟨S300000, .i32⟩
  | 73 => ⟨S300000, .i32⟩
  | 74 => ⟨S300000x1, .i32⟩
  | 75 => ⟨S300000x256, .bf16⟩
  | 76 => ⟨S_, .i32⟩
  | 77 => ⟨S300000, .i32⟩
  | 78 => ⟨S300000, .i1⟩
  | 79 => ⟨S_, .i32⟩
  | 80 => ⟨S300000, .i32⟩
  | 81 => ⟨S300000, .i32⟩
  | 82 => ⟨S300000, .i32⟩
  | 83 => ⟨S300000x1, .i32⟩
  | 84 => ⟨S300000x256, .bf16⟩
  | 85 => ⟨S256x256, .f32⟩
  | 86 => ⟨S256x256, .f32⟩
  | 87 => ⟨S300000x1, .f32⟩
  | 88 => ⟨S300000x1, .f32⟩
  | 89 => ⟨S300000, .f32⟩
  | 90 => ⟨S300000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .bf16⟩
  | .local _ .vmem, ⟨4, _⟩ => ⟨S5000x256, .bf16⟩
  | .local _ .vmem, ⟨5, _⟩ => ⟨S5000x256, .bf16⟩
  | .local _ .vmem, ⟨6, _⟩ => ⟨S5000x256, .bf16⟩
  | .local _ .vmem, ⟨7, _⟩ => ⟨S256x256, .f32⟩
  | .local _ .vmem, ⟨8, _⟩ => ⟨S5000x256, .bf16⟩
  | .local _ .vmem, ⟨9, _⟩ => ⟨S5000x256, .bf16⟩
  | .local _ .vmem, ⟨10, _⟩ => ⟨S5000x256, .bf16⟩
  | .local _ .vmem, ⟨11, _⟩ => ⟨S5000x256, .bf16⟩
  | .local _ .vmem, ⟨12, _⟩ => ⟨S256x256, .f32⟩
  | .local _ .vmem, ⟨13, _⟩ => ⟨S5000x256, .bf16⟩
  | .local _ .vmem, ⟨14, _⟩ => ⟨S5000x256, .bf16⟩
  | .local _ .vmem, ⟨15, _⟩ => ⟨S2000x256, .bf16⟩
  | .local _ .vmem, ⟨16, _⟩ => ⟨S2000x256, .bf16⟩
  | .local _ .vmem, ⟨17, _⟩ => ⟨S2000x256, .bf16⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S256x256, .f32⟩
  | .local _ .vmem, ⟨22, _⟩ => ⟨S256x256, .f32⟩
  | .local _ .vmem, ⟨23, _⟩ => ⟨S256, .f32⟩
  | .local _ .vmem, ⟨24, _⟩ => ⟨S256x1, .f32⟩
  | .local _ .vmem, ⟨25, _⟩ => ⟨S1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_4 : Ref sig .tc := ⟨.hbm, 44, rfl⟩
abbrev main_v18 : Ref sig .tc := ⟨.hbm, 45, rfl⟩
abbrev main_v19 : Ref sig .tc := ⟨.hbm, 46, rfl⟩
abbrev main_c_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_11 : Ref sig .tc := ⟨.hbm, 84, rfl⟩
abbrev main_v51 : Ref sig .tc := ⟨.hbm, 85, rfl⟩
abbrev main_cst_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call1_cst : Ref sig .tc := ⟨.hbm, 105, rfl⟩
abbrev main_call1_v0 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_14 : Ref sig .tc := ⟨.hbm, 111, rfl⟩
abbrev main_v73 : Ref sig .tc := ⟨.hbm, 112, rfl⟩
abbrev main_v74 : Ref sig .tc := ⟨.hbm, 113, rfl⟩
abbrev main_c_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_cst_18 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_19 : Ref sig .tc := ⟨.hbm, 139, rfl⟩
abbrev main_v96 : Ref sig .tc := ⟨.hbm, 140, rfl⟩
abbrev main_cst_20 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_call2_cst : Ref sig .tc := ⟨.hbm, 160, rfl⟩
abbrev main_call2_v0 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_22 : Ref sig .tc := ⟨.hbm, 166, rfl⟩
abbrev main_v118 : Ref sig .tc := ⟨.hbm, 167, rfl⟩
abbrev main_v119 : Ref sig .tc := ⟨.hbm, 168, rfl⟩
abbrev main_c_23 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_24 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_25 : Ref sig .tc := ⟨.hbm, 186, rfl⟩
abbrev main_v135 : Ref sig .tc := ⟨.hbm, 187, rfl⟩
abbrev main_v136 : Ref sig .tc := ⟨.hbm, 188, rfl⟩
abbrev main_c_26 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_c_27 : Ref sig .tc := ⟨.hbm, 195, rfl⟩
abbrev main_v142 : Ref sig .tc := ⟨.hbm, 196, rfl⟩
abbrev main_v143 : Ref sig .tc := ⟨.hbm, 197, rfl⟩
abbrev main_c_28 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_c_29 : Ref sig .tc := ⟨.hbm, 204, rfl⟩
abbrev main_v149 : Ref sig .tc := ⟨.hbm, 205, rfl⟩
abbrev main_v150 : Ref sig .tc := ⟨.hbm, 206, rfl⟩
abbrev main_c_30 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158_0 : Ref sig .tc := ⟨.hbm, 215, rfl⟩
abbrev main_v158_1 : Ref sig .tc := ⟨.hbm, 216, rfl⟩
abbrev main_v159 : Ref sig .tc := ⟨.hbm, 217, rfl⟩
abbrev main_v160 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg8_1 : Ref sig .tc := ⟨.vmem, 27, rfl⟩
abbrev cc3_stg9_0 : Ref sig .tc := ⟨.vmem, 28, rfl⟩
abbrev cc3_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27
abbrev cc3_sem9_0 : DmaSem sig := 28
abbrev cc3_sem9_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S2000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S5000x256_S5000x256_0_0 : (Rect.unit (s := S5000x256) ![0, 0] S5000x256.size inb_S5000x256_S5000x256_0_0).PackedRows (EltTy.packing .bf16)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  shapeCasts_S5000x256_S5000x256 : S5000x256.ShapeCasts S5000x256
  bcast_S_S300000 : S_.BroadcastsInDim S300000 (![] : Fin 0 → Fin S300000.rank)
  bcast_S300000_S300000x1_0 : S300000.BroadcastsInDim S300000x1 (![0] : Fin 1 → Fin S300000x1.rank)
  slices_S512x256_S256x256_0_0 : S512x256.Slices ![0, 0] S256x256
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S300000x1_S300000 : S300000x1.ShapeCasts S300000
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S5000x256_S256x256_S5000x256_1_0_0_1_n_n_wf : DotDims.WF S5000x256 S256x256 S5000x256 [1] [0] [0] [1] [] []
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  gather_S100000x256_S300000x1_S300000x256_1_0_n_n_0_1_1256_wf : GatherDims.WF S100000x256 S300000x1 S300000x256 [1] [0] [] [0] [] 1 ![1, 256]
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .bf16 = 32 ∨ (Rect.block (s := S100000x256) S5000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .bf16 = 32 ∨ (Rect.block (s := S100000x256) S5000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S100000x256.size a
  hwx1_2 : ∀ i : grid1.Coords, EltTy.bits .bf16 = 32 ∨ (Rect.block (s := S100000x256) S5000x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S100000x256.size a
  hwx2_0 : ∀ i : grid2.Coords, EltTy.bits .bf16 = 32 ∨ (Rect.block (s := S100000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .bf16 = 32 ∨ (Rect.block (s := S100000x256) S5000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S300000x256.size a
  hwx3_0 : ∀ i : grid3.Coords, EltTy.bits .bf16 = 32 ∨ (Rect.block (s := S300000x256) S2000x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S300000x256.size a
  hwx3_1 : ∀ i : grid3.Coords, EltTy.bits .bf16 = 32 ∨ (Rect.block (s := S300000x256) S2000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S300000x256.size a
  hwx3_2 : ∀ i : grid3.Coords, EltTy.bits .bf16 = 32 ∨ (Rect.block (s := S300000x256) S2000x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256.size a ≤ S256.size a
  hwx3_5 : ∀ i : grid3.Coords, EltTy.bits .f32 = 32 ∨ (Rect.block (s := S256) S256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1.size a ≤ S256x1.size a
  hwx3_6 : ∀ i : grid3.Coords, EltTy.bits .f32 = 32 ∨ (Rect.block (s := S256x1) S256x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1.size a ≤ S1.size a
  hwx3_7 : ∀ i : grid3.Coords, EltTy.bits .f32 = 32 ∨ (Rect.block (s := S1) S1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x1.size a ≤ S300000x1.size a
  hwx3_8 : ∀ i : grid3.Coords, EltTy.bits .f32 = 32 ∨ (Rect.block (s := S300000x1) S2000x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x1.size a ≤ S300000x1.size a
  hwx3_9 : ∀ i : grid3.Coords, EltTy.bits .f32 = 32 ∨ (Rect.block (s := S300000x1) S2000x1.size (cc3_transform_9 i) (hinb3_9 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v70) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v115) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v116) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v141) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v148) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v155) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v156) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v157) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S256x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg17) S1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v158_0) S2000x1.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v158_1) S2000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x256 : Shape := ⟨2, ![100000, 256]⟩
abbrev S300000 : Shape := ⟨1, ![300000]⟩
abbrev S256x256 : Shape := ⟨2, ![256, 256]⟩
abbrev S256 : Shape := ⟨1, ![256]⟩
abbrev S512x256 : Shape := ⟨2, ![512, 256]⟩
abbrev S256x1 : Shape := ⟨2, ![256, 1]⟩
abbrev S1 : Shape := ⟨1, ![1]⟩
abbrev S100000 : Shape := ⟨1, ![100000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S300000x1 : Shape := ⟨2, ![300000, 1]⟩
abbrev S300000x256 : Shape := ⟨2, ![300000, 256]⟩
abbrev S300000x512 : Shape := ⟨2, ![300000, 512]⟩
abbrev S1x1 : Shape := ⟨2, ![1, 1]⟩

abbrev nBuf : Space → Nat
  | .hbm => 321
  | .vmem => 0
  | .smem => 0
  | _ => 0

abbrev hbmTy0_0 (i : Nat) : BufTy := match i % 128 with
  | 0 => ⟨S100000x256, .f32⟩
  | 1 => ⟨S300000, .i32⟩
  | 2 => ⟨S300000, .i32⟩
  | 3 => ⟨S300000, .i32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256, .f32⟩
  | 11 => ⟨S256, .f32⟩
  | 12 => ⟨S256, .f32⟩
  | 13 => ⟨S256, .f32⟩
  | 14 => ⟨S512x256, .f32⟩
  | 15 => ⟨S256, .f32⟩
  | 16 => ⟨S256x1, .f32⟩
  | 17 => ⟨S1, .f32⟩
  | 18 => ⟨S100000x256, .f32⟩
  | 19 => ⟨S100000, .i32⟩
  | 20 => ⟨S400000, .i32⟩
  | 21 => ⟨S400000, .i32⟩
  | 22 => ⟨S_, .f32⟩
  | 23 => ⟨S400000, .f32⟩
  | 24 => ⟨S_, .f32⟩
  | 25 => ⟨S100000, .f32⟩
  | 26 => ⟨S400000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000, .f32⟩
  | 45 => ⟨S_, .i32⟩
  | 46 => ⟨S400000, .i32⟩
  | 47 => ⟨S400000, .i1⟩
  | 48 => ⟨S_, .i32⟩
  | 49 => ⟨S400000, .i32⟩
  | 50 => ⟨S400000, .i32⟩
  | 51 => ⟨S400000, .i32⟩
  | 52 => ⟨S400000x1, .i32⟩
  | 53 => ⟨S400000, .f32⟩
  | 54 => ⟨S400000, .f32⟩
  | 55 => ⟨S400000x1, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x256, .f32⟩
  | 65 => ⟨S400000x256, .f32⟩
  | 66 => ⟨S400000x256, .f32⟩
  | 67 => ⟨S_, .f32⟩
  | 68 => ⟨S100000x256, .f32⟩
  | 69 => ⟨S400000x1, .i32⟩
  | 70 => ⟨S100000x256, .f32⟩
  | 71 => ⟨S1x256, .f32⟩
  | 72 => ⟨S100000x256, .f32⟩
  | 73 => ⟨S100000x256, .f32⟩
  | 74 => ⟨S_, .f32⟩
  | 75 => ⟨S256, .f32⟩
  | 76 => ⟨S_, .f32⟩
  | 77 => ⟨S256, .f32⟩
  | 78 => ⟨S256, .f32⟩
  | 79 => ⟨S1x256, .f32⟩
  | 80 => ⟨S100000x256, .f32⟩
  | 81 => ⟨S100000x256, .f32⟩
  | 82 => ⟨S100000x256, .f32⟩
  | 83 => ⟨S_, .f32⟩
  | 84 => ⟨S256, .f32⟩
  | 85 => ⟨S_, .f32⟩
  | 86 => ⟨S256, .f32⟩
  | 87 => ⟨S256, .f32⟩
  | 88 => ⟨S1x256, .f32⟩
  | 89 => ⟨S100000x256, .f32⟩
  | 90 => ⟨S100000x256, .f32⟩
  | 91 => ⟨S_, .f32⟩
  | 92 => ⟨S256, .f32⟩
  | 93 => ⟨S256, .f32⟩
  | 94 => ⟨S256, .f32⟩
  | 95 => ⟨S1x256, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S1x256, .f32⟩
  | 102 => ⟨S100000x256, .f32⟩
  | 103 => ⟨S100000x256, .f32⟩
  | 104 => ⟨S_, .f32⟩
  | 105 => ⟨S100000x256, .f32⟩
  | 106 => ⟨S100000x256, .f32⟩
  | 107 => ⟨S100000x256, .f32⟩
  | 108 => ⟨S100000, .i32⟩
  | 109 => ⟨S400000, .i32⟩
  | 110 => ⟨S400000, .i32⟩
  | 111 => ⟨S_, .f32⟩
  | 112 => ⟨S400000, .f32⟩
  | 113 => ⟨S_, .f32⟩
  | 114 => ⟨S100000, .f32⟩
  | 115 => ⟨S400000x1, .i32⟩
  | 116 => ⟨S100000, .f32⟩
  | 117 => ⟨S_, .f32⟩
  | 118 => ⟨S100000, .f32⟩
  | 119 => ⟨S100000, .i1⟩
  | 120 => ⟨S100000, .f32⟩
  | 121 => ⟨S_, .f32⟩
  | 122 => ⟨S_, .f32⟩
  | 123 => ⟨S100000, .f32⟩
  | 124 => ⟨S100000, .f32⟩
  | 125 => ⟨S_, .i32⟩
  | 126 => ⟨S400000, .i32⟩
  | 127 => ⟨S400000, .i1⟩
  | _ => ⟨S100000x256, .f32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000, .f32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000, .f32⟩
  | 15 => ⟨S400000, .f32⟩
  | 16 => ⟨S400000x1, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x256, .f32⟩
  | 26 => ⟨S400000x256, .f32⟩
  | 27 => ⟨S400000x256, .f32⟩
  | 28 => ⟨S_, .f32⟩
  | 29 => ⟨S100000x256, .f32⟩
  | 30 => ⟨S400000x1, .i32⟩
  | 31 => ⟨S100000x256, .f32⟩
  | 32 => ⟨S1x256, .f32⟩
  | 33 => ⟨S100000x256, .f32⟩
  | 34 => ⟨S100000x256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S100000x256, .f32⟩
  | 42 => ⟨S100000x256, .f32⟩
  | 43 => ⟨S100000x256, .f32⟩
  | 44 => ⟨S_, .f32⟩
  | 45 => ⟨S256, .f32⟩
  | 46 => ⟨S_, .f32⟩
  | 47 => ⟨S256, .f32⟩
  | 48 => ⟨S256, .f32⟩
  | 49 => ⟨S1x256, .f32⟩
  | 50 => ⟨S100000x256, .f32⟩
  | 51 => ⟨S100000x256, .f32⟩
  | 52 => ⟨S_, .f32⟩
  | 53 => ⟨S256, .f32⟩
  | 54 => ⟨S256, .f32⟩
  | 55 => ⟨S256, .f32⟩
  | 56 => ⟨S1x256, .f32⟩
  | 57 => ⟨S100000x256, .f32⟩
  | 58 => ⟨S100000x256, .f32⟩
  | 59 => ⟨S1x256, .f32⟩
  | 60 => ⟨S100000x256, .f32⟩
  | 61 => ⟨S100000x256, .f32⟩
  | 62 => ⟨S1x256, .f32⟩
  | 63 => ⟨S100000x256, .f32⟩
  | 64 => ⟨S100000x256, .f32⟩
  | 65 => ⟨S_, .f32⟩
  | 66 => ⟨S100000x256, .f32⟩
  | 67 => ⟨S100000x256, .f32⟩
  | 68 => ⟨S100000x256, .f32⟩
  | 69 => ⟨S100000, .i32⟩
  | 70 => ⟨S400000, .i32⟩
  | 71 => ⟨S400000, .i32⟩
  | 72 => ⟨S_, .f32⟩
  | 73 => ⟨S400000, .f32⟩
  | 74 => ⟨S_, .f32⟩
  | 75 => ⟨S100000, .f32⟩
  | 76 => ⟨S400000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000, .f32⟩
  | 104 => ⟨S400000, .f32⟩
  | 105 => ⟨S400000x1, .f32⟩
  | 106 => ⟨S_, .i32⟩
  | 107 => ⟨S400000, .i32⟩
  | 108 => ⟨S400000, .i1⟩
  | 109 => ⟨S_, .i32⟩
  | 110 => ⟨S400000, .i32⟩
  | 111 => ⟨S400000, .i32⟩
  | 112 => ⟨S400000, .i32⟩
  | 113 => ⟨S400000x1, .i32⟩
  | 114 => ⟨S400000x256, .f32⟩
  | 115 => ⟨S400000x256, .f32⟩
  | 116 => ⟨S400000x256, .f32⟩
  | 117 => ⟨S_, .f32⟩
  | 118 => ⟨S100000x256, .f32⟩
  | 119 => ⟨S400000x1, .i32⟩
  | 120 => ⟨S100000x256, .f32⟩
  | 121 => ⟨S1x256, .f32⟩
  | 122 => ⟨S100000x256, .f32⟩
  | 123 => ⟨S100000x256, .f32⟩
  | 124 => ⟨S_, .i32⟩
  | 125 => ⟨S300000, .i32⟩
  | 126 => ⟨S300000, .i1⟩
  | 127 => ⟨S_, .i32⟩
  | _ => ⟨S100000x256, .f32⟩

abbrev hbmTy0_2 (i : Nat) : BufTy := match i % 128 with
  | 0 => ⟨S300000, .i32⟩
  | 1 => ⟨S300000, .i32⟩
  | 2 => ⟨S300000, .i32⟩
  | 3 => ⟨S300000x1, .i32⟩
  | 4 => ⟨S300000x256, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x256, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S300000x256, .f32⟩
  | 23 => ⟨S300000x512, .f32⟩
  | 24 => ⟨S300000x256, .f32⟩
  | 25 => ⟨S1x256, .f32⟩
  | 26 => ⟨S300000x256, .f32⟩
  | 27 => ⟨S300000x256, .f32⟩
  | 28 => ⟨S_, .f32⟩
  | 29 => ⟨S300000x256, .f32⟩
  | 30 => ⟨S300000x256, .f32⟩
  | 31 => ⟨S300000x1, .f32⟩
  | 32 => ⟨S1x1, .f32⟩
  | 33 => ⟨S300000x1, .f32⟩
  | 34 => ⟨S300000x1, .f32⟩
  | 35 => ⟨S300000x1, .f32⟩
  | 36 => ⟨S300000x1, .f32⟩
  | 37 => ⟨S_, .f32⟩
  | 38 => ⟨S300000x1, .f32⟩
  | 39 => ⟨S300000x1, .f32⟩
  | 40 => ⟨S_, .f32⟩
  | 41 => ⟨S300000x1, .f32⟩
  | 42 => ⟨S300000x1, .f32⟩
  | 43 => ⟨S300000, .f32⟩
  | 44 => ⟨S300000x512, .f32⟩
  | 45 => ⟨S300000x256, .f32⟩
  | 46 => ⟨S1x256, .f32⟩
  | 47 => ⟨S300000x256, .f32⟩
  | 48 => ⟨S300000x256, .f32⟩
  | 49 => ⟨S_, .f32⟩
  | 50 => ⟨S300000x256, .f32⟩
  | 51 => ⟨S300000x256, .f32⟩
  | 52 => ⟨S300000x1, .f32⟩
  | 53 => ⟨S1x1, .f32⟩
  | 54 => ⟨S300000x1, .f32⟩
  | 55 => ⟨S300000x1, .f32⟩
  | 56 => ⟨S300000x1, .f32⟩
  | 57 => ⟨S300000x1, .f32⟩
  | 58 => ⟨S_, .f32⟩
  | 59 => ⟨S300000x1, .f32⟩
  | 60 => ⟨S300000x1, .f32⟩
  | 61 => ⟨S_, .f32⟩
  | 62 => ⟨S300000x1, .f32⟩
  | 63 => ⟨S300000x1, .f32⟩
  | 64 => ⟨S300000, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_c_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call1_cst : Ref sig .tc := ⟨.hbm, 104, rfl⟩
abbrev main_call1_v0 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_cst_15 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_17 : Ref sig .tc := ⟨.hbm, 121, rfl⟩
abbrev main_call2_v0 : Ref sig .tc := ⟨.hbm, 122, rfl⟩
abbrev main_call2_v1 : Ref sig .tc := ⟨.hbm, 123, rfl⟩
abbrev main_v80 : Ref sig .tc := ⟨.hbm, 124, rfl⟩
abbrev main_c_18 : Ref sig .tc := ⟨.hbm, 125, rfl⟩
abbrev main_v81 : Ref sig .tc := ⟨.hbm, 126, rfl⟩
abbrev main_v82 : Ref sig .tc := ⟨.hbm, 127, rfl⟩
abbrev main_c_19 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_v89 : Ref sig .tc := ⟨.hbm, 136, rfl⟩
abbrev main_c_21 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_22 : Ref sig .tc := ⟨.hbm, 145, rfl⟩
abbrev main_v97 : Ref sig .tc := ⟨.hbm, 146, rfl⟩
abbrev main_v98 : Ref sig .tc := ⟨.hbm, 147, rfl⟩
abbrev main_c_23 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_25 : Ref sig .tc := ⟨.hbm, 163, rfl⟩
abbrev main_v112 : Ref sig .tc := ⟨.hbm, 164, rfl⟩
abbrev main_cst_26 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_27 : Ref sig .tc := ⟨.hbm, 172, rfl⟩
abbrev main_v119 : Ref sig .tc := ⟨.hbm, 173, rfl⟩
abbrev main_cst_28 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_29 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call3_cst : Ref sig .tc := ⟨.hbm, 193, rfl⟩
abbrev main_call3_v0 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_30 : Ref sig .tc := ⟨.hbm, 200, rfl⟩
abbrev main_v142 : Ref sig .tc := ⟨.hbm, 201, rfl⟩
abbrev main_cst_31 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_cst_32 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_33 : Ref sig .tc := ⟨.hbm, 210, rfl⟩
abbrev main_call4_v0 : Ref sig .tc := ⟨.hbm, 211, rfl⟩
abbrev main_call4_v1 : Ref sig .tc := ⟨.hbm, 212, rfl⟩
abbrev main_v149 : Ref sig .tc := ⟨.hbm, 213, rfl⟩
abbrev main_c_34 : Ref sig .tc := ⟨.hbm, 214, rfl⟩
abbrev main_v150 : Ref sig .tc := ⟨.hbm, 215, rfl⟩
abbrev main_v151 : Ref sig .tc := ⟨.hbm, 216, rfl⟩
abbrev main_c_35 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_c_36 : Ref sig .tc := ⟨.hbm, 223, rfl⟩
abbrev main_v157 : Ref sig .tc := ⟨.hbm, 224, rfl⟩
abbrev main_v158 : Ref sig .tc := ⟨.hbm, 225, rfl⟩
abbrev main_c_37 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_c_38 : Ref sig .tc := ⟨.hbm, 234, rfl⟩
abbrev main_v166 : Ref sig .tc := ⟨.hbm, 235, rfl⟩
abbrev main_v167 : Ref sig .tc := ⟨.hbm, 236, rfl⟩
abbrev main_c_39 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_40 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_c_41 : Ref sig .tc := ⟨.hbm, 252, rfl⟩
abbrev main_v181 : Ref sig .tc := ⟨.hbm, 253, rfl⟩
abbrev main_v182 : Ref sig .tc := ⟨.hbm, 254, rfl⟩
abbrev main_c_42 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_c_43 : Ref sig .tc := ⟨.hbm, 261, rfl⟩
abbrev main_v188 : Ref sig .tc := ⟨.hbm, 262, rfl⟩
abbrev main_v189 : Ref sig .tc := ⟨.hbm, 263, rfl⟩
abbrev main_c_44 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_c_45 : Ref sig .tc := ⟨.hbm, 270, rfl⟩
abbrev main_v195 : Ref sig .tc := ⟨.hbm, 271, rfl⟩
abbrev main_v196 : Ref sig .tc := ⟨.hbm, 272, rfl⟩
abbrev main_c_46 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_call5_cst : Ref sig .tc := ⟨.hbm, 284, rfl⟩
abbrev main_call5_v0 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_cst_47 : Ref sig .tc := ⟨.hbm, 293, rfl⟩
abbrev main_v214 : Ref sig .tc := ⟨.hbm, 294, rfl⟩
abbrev main_v215 : Ref sig .tc := ⟨.hbm, 295, rfl⟩
abbrev main_cst_48 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_call6_cst : Ref sig .tc := ⟨.hbm, 305, rfl⟩
abbrev main_call6_v0 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_cst_49 : Ref sig .tc := ⟨.hbm, 314, rfl⟩
abbrev main_v231 : Ref sig .tc := ⟨.hbm, 315, rfl⟩
abbrev main_v232 : Ref sig .tc := ⟨.hbm, 316, rfl⟩
abbrev main_cst_50 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩

abbrev nD : Nat := 1
abbrev τ : Topo := Topo.v7x

variable {F : FTy → Type} [FloatOps F]

class Facts₀ : Prop where
  concatenates_S300000_S100000_S400000_d0 : Shape.Concatenates [S300000, S100000] S400000 0
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S300000 : S_.BroadcastsInDim S300000 (![] : Fin 0 → Fin S300000.rank)
  bcast_S300000_S300000x1_0 : S300000.BroadcastsInDim S300000x1 (![0] : Fin 1 → Fin S300000x1.rank)
  concatenates_S300000x256_S300000x256_S300000x512_d1 : Shape.Concatenates [S300000x256, S300000x256] S300000x512 1
  bcast_S1x256_S300000x256_0_1 : S1x256.BroadcastsInDim S300000x256 (![0, 1] : Fin 2 → Fin S300000x256.rank)
  bcast_S_S300000x256 : S_.BroadcastsInDim S300000x256 (![] : Fin 0 → Fin S300000x256.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S_S300000x1 : S_.BroadcastsInDim S300000x1 (![] : Fin 0 → Fin S300000x1.rank)
  shapeCasts_S300000x1_S300000 : S300000x1.ShapeCasts S300000
  dot_S100000x256_S256x256_S100000x256_1_0_0_1_n_n_wf : DotDims.WF S100000x256 S256x256 S100000x256 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x256_S400000x1_S400000x256_1_0_n_n_0_1_1256_wf : GatherDims.WF S100000x256 S400000x1 S400000x256 [1] [0] [] [0] [] 1 ![1, 256]
  scatter_S100000x256_S400000x1_S400000x256_1_0_0_1_wf : ScatterDims.WF S100000x256 S400000x1 S400000x256 [1] [0] [0] 1
  gather_S100000x256_S300000x1_S300000x256_1_0_n_n_0_1_1256_wf : GatherDims.WF S100000x256 S300000x1 S300000x256 [1] [0] [] [0] [] 1 ![1, 256]
  dot_S300000x512_S512x256_S300000x256_1_0_0_1_n_n_wf : DotDims.WF S300000x512 S512x256 S300000x256 [1] [0] [0] [1] [] []
  dot_S300000x256_S256x1_S300000x1_1_0_0_1_n_n_wf : DotDims.WF S300000x256 S256x1 S300000x1 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S100000x256_S400000x1_S400000x256_1_0_0_1 : ScatterDims S100000x256 S400000x1 S400000x256 where
  updateWindowDims := [1]
  insertedWindowDims := [0]
  scatterDimsToOperandDims := [0]
  indexVectorDim := 1
  wf := scatter_S100000x256_S400000x1_S400000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x512_S512x256_S300000x256_1_0_0_1_n_n : DotDims S300000x512 S512x256 S300000x256 where
  lhsContracting := [1]
  rhsContracting := [0]
  lhsNonContracting := [0]
  rhsNonContracting := [1]
  lhsBatch := []
  rhsBatch := []
  wf := dot_S300000x512_S512x256_S300000x256_1_0_0_1_n_n_wf
def dot_S300000x256_S256x1_S300000x1_1_0_0_1_n_n : DotDims S300000x256 S256x1 S300000x1 where
  lhsContracting := [1]
  rhsContracting := [0]
  lhsNonContracting := [0]
  rhsNonContracting := [1]
  lhsBatch := []
  rhsBatch := []
  wf := dot_S300000x256_S256x1_S300000x1_1_0_0_1_n_n_wf

class Facts : Prop extends Facts₀ where

variable [Facts]
-- ==== Proof.KerRun.lean ====
/- The kernel program's run, read with its results: from any memory with zero counters every weakly fair execution of
   the four regions among their stretches of host operations terminates, and in every final state the two result buffers
   hold what the last boundary's contents say (the fold of every stretch and every region's write-backs from the launch
   memory), the arguments what they were launched with. -/
import proofs.«148771_j31576599560908_2_alg».proof.Proof.Gen.KernelIdeal.Frame

set_option maxRecDepth 16384

noncomputable section

namespace Cert.KernelIdeal.RunValues

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch to the return, the last thread state (every unscoped buffer at the last
    boundary's contents) read against the final state at the two results and at each argument. -/
theorem run : θ_run defs (onTc (τ := τ) (main (F := F))) ⟨m, fun _ => 0, ρ⟩ (fun r => ∀ c : Dev nD,
      r.2.mem ((c.tc : Thread nD τ).loc main_v159) = W15 m ρ c (Proc.devRef .tc main_v159)
      ∧ r.2.mem ((c.tc : Thread nD τ).loc main_v160) = W15 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v159 (by decide)),
       h c _ (mem_uc main_v160 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c)⟩)

end Cert.KernelIdeal.RunValues

end
-- ==== Proof.Stages.lean ====
/- The host-side stages of the graph network, each ONE function of whole arrays, for any float instance: the edge lists with
   the self loops appended, the wrap of a negative node index, the symmetric degree normalisation of the edges, one
   aggregation (rows scaled per edge, summed into their destination nodes, plus a bias row), the batch normalisation over the
   nodes followed by the rectifier, and the reference's edge scorer. Both programs apply exactly these functions; they
   differ in how the rows that enter them are produced. -/
import proofs.«148771_j31576599560908_2_alg».proof.ReferenceIdeal

noncomputable section

namespace Cert.Stages

open Idealize.ShloMosaic Idealize.SL.Sem Cert.ReferenceIdeal

variable {F : FTy → Type} [FloatOps F] [Cert.ReferenceIdeal.Facts]

open Cert.ReferenceIdeal.Facts₀ Cert.ReferenceIdeal.Facts

/-- A whole array of 32-bit integers of shape `s`. -/
abbrev IArr (F : FTy → Type) (s : Shape) : Type := (⟨s, .i32⟩ : BufTy).Contents (Elt F)
/-- A whole array of single-precision floats of shape `s`, at the instance `F`. -/
abbrev FArr (F : FTy → Type) (s : Shape) : Type := (⟨s, .f32⟩ : BufTy).Contents (Elt F)

/-- An edge list of 300000 node indices followed by the 100000 self loops `0, 1, …, 99999`. -/
def withLoops (a : IArr F S300000) : IArr F S400000 :=
  concatenate S400000 0 [⟨S300000, a⟩, ⟨S100000, iotaInDim S100000 32 0⟩] concatenates_S300000_S100000_S400000_d0

/-- A node index made non-negative the way array indexing does it (a negative index has the table's 100000 rows added),
    as a column of start indices: over the 400000 edges with self loops. -/
def wrapLoops (i : IArr F S400000) : IArr F S400000x1 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 100000#32))) i)

/-- The same wrap over the 300000 scored edges. -/
def wrapEdges (i : IArr F S300000) : IArr F S300000x1 :=
  broadcastInDim S300000x1 ![0] bcast_S300000_S300000x1_0
    (select (cmpi .slt i (broadcastInDim S300000 ![] bcast_S_S300000 (constantI S_ 32 0#32)))
      (addi i (broadcastInDim S300000 ![] bcast_S_S300000 (constantI S_ 32 100000#32))) i)

/-- A node's degree: the number of edges (self loops included) that end in it, as a sum of ones. -/
def degree (dl : IArr F S400000) : FArr F S100000 :=
  Host.scatterAdd scatter_S100000_S400000x1_S400000_n_0_0_1
    (broadcastInDim S100000 ![] bcast_S_S100000 (constant S_ .f32 0x00000000#32))
    (broadcastInDim S400000x1 ![0] bcast_S400000_S400000x1_0 dl)
    (broadcastInDim S400000 ![] bcast_S_S400000 (constant S_ .f32 0x3F800000#32))

/-- `degree^(-1/2)` where the degree is positive, zero elsewhere. -/
def degInvSqrt (dl : IArr F S400000) : FArr F S100000 :=
  select (cmpf .ogt (degree dl) (broadcastInDim S100000 ![] bcast_S_S100000 (constant S_ .f32 0x00000000#32)))
    (Host.rsqrt (degree dl))
    (broadcastInDim S100000 ![] bcast_S_S100000 (id (constant S_ .f32 0x00000000#32)))

/-- The weight of an edge: `degree^(-1/2)` at its source times `degree^(-1/2)` at its destination. -/
def edgeNorm (sl dl : IArr F S400000) : FArr F S400000 :=
  mulf (Host.gather gather_S100000_S400000x1_S400000_n_0_n_n_0_1_1 (degInvSqrt dl) (wrapLoops sl))
    (Host.gather gather_S100000_S400000x1_S400000_n_0_n_n_0_1_1 (degInvSqrt dl) (wrapLoops dl))

/-- A length-256 vector as the row every one of the 100000 nodes gets. -/
def nodeRow (v : FArr F S256) : FArr F S100000x256 :=
  broadcastInDim S100000x256 ![0, 1] bcast_S1x256_S100000x256_0_1 (broadcastInDim S1x256 ![1] bcast_S256_S1x256_1 v)

/-- One aggregation: each edge's row scaled by the edge's weight, the scaled rows summed into their destination nodes,
    the bias row added. -/
def aggregate (rows : FArr F S400000x256) (nrm : FArr F S400000) (dl : IArr F S400000) (b : FArr F S256) : FArr F S100000x256 :=
  addf
    (Host.scatterAdd scatter_S100000x256_S400000x1_S400000x256_1_0_0_1
      (broadcastInDim S100000x256 ![] bcast_S_S100000x256 (constant S_ .f32 0x00000000#32))
      (broadcastInDim S400000x1 ![0] bcast_S400000_S400000x1_0 dl)
      (mulf (broadcastInDim S400000x256 ![0, 1] bcast_S400000x1_S400000x256_0_1
          (broadcastInDim S400000x1 ![0] bcast_S400000_S400000x1_0 nrm)) rows))
    (nodeRow b)

/-- The mean over the 100000 nodes of each of the 256 columns. -/
def colMean (x : FArr F S100000x256) : FArr F S256 :=
  Host.divf (Host.reduceAdd x (constant S_ .f32 0x00000000#32) reducesTo_S100000x256_S256_d0 h_S_)
    (broadcastInDim S256 ![] bcast_S_S256 (constant S_ .f32 0x47C35000#32))

/-- Batch normalisation over the nodes (biased variance, the constant `ε` under the root), scale and shift, then the
    rectifier. -/
def normRelu (x : FArr F S100000x256) (g be : FArr F S256) : FArr F S100000x256 :=
  maximumf
    (addf
      (mulf
        (mulf (subf x (nodeRow (colMean x)))
          (nodeRow (Host.rsqrt (addf (colMean (mulf (subf x (nodeRow (colMean x))) (subf x (nodeRow (colMean x)))))
            (broadcastInDim S256 ![] bcast_S_S256 (constant S_ .f32 0x3727C5AC#32))))))
        (nodeRow g))
      (nodeRow be))
    (broadcastInDim S100000x256 ![] bcast_S_S100000x256 (constant S_ .f32 0x00000000#32))

/-- The reference's edge scorer over whole arrays: the two endpoint embeddings side by side times the first weight matrix,
    plus its bias, rectified, times the second weight matrix, plus its bias, the logistic function spelt by negation,
    exponential, sum and quotient, and the column flattened. -/
def scoreRef (za zb : FArr F S300000x256) (w1 : FArr F S512x256) (c1 : FArr F S256) (w2 : FArr F S256x1) (c2 : FArr F S1) : FArr F S300000 :=
  shapeCast S300000
    (Host.divf (broadcastInDim S300000x1 ![] bcast_S_S300000x1 (constant S_ .f32 0x3F800000#32))
      (addf (broadcastInDim S300000x1 ![] bcast_S_S300000x1 (constant S_ .f32 0x3F800000#32))
        (Host.exp (Host.negf
          (addf
            (Host.dotGeneral dot_S300000x256_S256x1_S300000x1_1_0_0_1_n_n none
              (maximumf
                (addf
                  (Host.dotGeneral dot_S300000x512_S512x256_S300000x256_1_0_0_1_n_n none
                    (concatenate S300000x512 1 [⟨S300000x256, za⟩, ⟨S300000x256, zb⟩] concatenates_S300000x256_S300000x256_S300000x512_d1) w1)
                  (broadcastInDim S300000x256 ![0, 1] bcast_S1x256_S300000x256_0_1 (broadcastInDim S1x256 ![1] bcast_S256_S1x256_1 c1)))
                (broadcastInDim S300000x256 ![] bcast_S_S300000x256 (constant S_ .f32 0x00000000#32)))
              w2)
            (broadcastInDim S300000x1 ![0, 1] bcast_S1x1_S300000x1_0_1 (broadcastInDim S1x1 ![1] bcast_S1_S1x1_1 c2)))))))
    shapeCasts_S300000x1_S300000

end Cert.Stages

end
-- ==== Proof.KerStages.lean ====
/- What each stretch of the kernel program's host operations leaves, for any contents `V` it starts from and any float
   instance: the edge lists with self loops and the edge weights (first stretch); a layer's activations from the previous
   region's product table — rows gathered from the half-precision table and widened, aggregated, normalised, rectified,
   narrowed (second and third stretch); the last layer's embeddings narrowed, their rows at the three edge endpoints and the
   two halves of the scorer's first weight matrix (fourth stretch); the two score columns flattened (last stretch). And which
   buffers each stretch leaves alone. -/
import proofs.«148771_j31576599560908_2_alg».proof.Proof.Gen.KernelIdeal.Launch
import proofs.«148771_j31576599560908_2_alg».proof.Proof.Gen.ReferenceIdeal
import proofs.«148771_j31576599560908_2_alg».proof.Proof.Stages
import Idealize.ShloMosaic.Lib.StableHlo.Run

set_option maxRecDepth 16384

noncomputable section

namespace Cert.KernelIdeal.HostStages

open Idealize.ShloMosaic Idealize.ShloMosaic.TcCoe Idealize.SL.Sem Idealize.ShloMosaic.StableHlo
open Cert.KernelIdeal Cert.KernelIdeal.Gen Cert.Stages

variable {F : FTy → Type} [FloatOps F]

/-- The eighteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The edge rows of a half-precision node table: row `sl e` (wrapped) for each of the 400000 edges, widened. -/
def edgeRows (tbl : (⟨S100000x256, .bf16⟩ : BufTy).Contents (Elt F)) (sl : IArr F S400000) : FArr F S400000x256 :=
  extf .f32 (Host.gather gather_S100000x256_S400000x1_S400000x256_1_0_n_n_0_1_1256 tbl (wrapLoops sl)) bitsLt_bf16_f32

/-- A hidden layer from the product table: aggregate, normalise, rectify, narrow. -/
def hiddenLayer (tbl : (⟨S100000x256, .bf16⟩ : BufTy).Contents (Elt F)) (sl dl : IArr F S400000) (nrm : FArr F S400000)
    (b g be : FArr F S256) : (⟨S100000x256, .bf16⟩ : BufTy).Contents (Elt F) :=
  truncf .bf16 (normRelu (aggregate (edgeRows tbl sl) nrm dl b) g be) bitsLt_bf16_f32

/-- The last layer from the product table: aggregate, narrow. -/
def lastLayer (tbl : (⟨S100000x256, .bf16⟩ : BufTy).Contents (Elt F)) (sl dl : IArr F S400000) (nrm : FArr F S400000)
    (b : FArr F S256) : (⟨S100000x256, .bf16⟩ : BufTy).Contents (Elt F) :=
  truncf .bf16 (aggregate (edgeRows tbl sl) nrm dl b) bitsLt_bf16_f32

/-- The embedding rows at one endpoint of each of the 300000 scored edges. -/
def endpointRows (z : (⟨S100000x256, .bf16⟩ : BufTy).Contents (Elt F)) (e : IArr F S300000) :
    (⟨S300000x256, .bf16⟩ : BufTy).Contents (Elt F) :=
  Host.gather gather_S100000x256_S300000x1_S300000x256_1_0_n_n_0_1_1256 z (wrapEdges e)

variable (V : Valuation τ sig (Elt F))

/-! ## The first stretch: edge lists and weights -/

theorem first_src : (after hostOps0_2 (after hostOps0_1 (after hostOps0 V))) (Proc.devRef .tc main_v1) = withLoops (V (Proc.devRef .tc main_arg1)) := by
  after_results_simp <;> rfl
theorem first_dst : (after hostOps0_2 (after hostOps0_1 (after hostOps0 V))) (Proc.devRef .tc main_v2) = withLoops (V (Proc.devRef .tc main_arg2)) := by
  after_results_simp <;> rfl
theorem first_norm : (after hostOps0_2 (after hostOps0_1 (after hostOps0 V))) (Proc.devRef .tc main_v25)
    = edgeNorm (withLoops (V (Proc.devRef .tc main_arg1))) (withLoops (V (Proc.devRef .tc main_arg2))) := by
  after_results_simp <;> rfl
set_option maxHeartbeats 8000000 in
theorem first_keeps : ∀ r ∈ (argRefs : List (Ref sig .tc)), (after hostOps0_2 (after hostOps0_1 (after hostOps0 V))) (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl <;> (after_results_simp <;> rfl)

/-! ## The second and third stretch: a hidden layer -/

theorem second_out : (after hostOps1_2 (after hostOps1_1 (after hostOps1 V))) (Proc.devRef .tc main_v70)
    = hiddenLayer (V (Proc.devRef .tc main_v26)) (V (Proc.devRef .tc main_v1)) (V (Proc.devRef .tc main_v2)) (V (Proc.devRef .tc main_v25))
        (V (Proc.devRef .tc main_arg5)) (V (Proc.devRef .tc main_arg10)) (V (Proc.devRef .tc main_arg11)) := by
  after_results_simp <;> rfl
set_option maxHeartbeats 8000000 in
theorem second_keeps : ∀ r ∈ (main_v1 :: main_v2 :: main_v25 :: argRefs : List (Ref sig .tc)),
    (after hostOps1_2 (after hostOps1_1 (after hostOps1 V))) (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl | rfl | rfl | rfl <;> (after_results_simp <;> rfl)

theorem third_out : (after hostOps2_2 (after hostOps2_1 (after hostOps2 V))) (Proc.devRef .tc main_v115)
    = hiddenLayer (V (Proc.devRef .tc main_v71)) (V (Proc.devRef .tc main_v1)) (V (Proc.devRef .tc main_v2)) (V (Proc.devRef .tc main_v25))
        (V (Proc.devRef .tc main_arg7)) (V (Proc.devRef .tc main_arg12)) (V (Proc.devRef .tc main_arg13)) := by
  after_results_simp <;> rfl
set_option maxHeartbeats 8000000 in
theorem third_keeps : ∀ r ∈ (main_v1 :: main_v2 :: main_v25 :: argRefs : List (Ref sig .tc)),
    (after hostOps2_2 (after hostOps2_1 (after hostOps2 V))) (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl | rfl | rfl | rfl <;> (after_results_simp <;> rfl)

/-! ## The fourth stretch: the embeddings, their rows at the edge endpoints, the halves of the weight matrix -/

/-- The last layer's embeddings as the fourth stretch computes them from the contents it starts from. -/
abbrev embedOf : (⟨S100000x256, .bf16⟩ : BufTy).Contents (Elt F) :=
  lastLayer (V (Proc.devRef .tc main_v116)) (V (Proc.devRef .tc main_v1)) (V (Proc.devRef .tc main_v2)) (V (Proc.devRef .tc main_v25)) (V (Proc.devRef .tc main_arg9))

theorem fourth_src : (after hostOps3 V) (Proc.devRef .tc main_v141) = endpointRows (embedOf V) (V (Proc.devRef .tc main_arg1)) := by
  after_results_simp <;> rfl
theorem fourth_dst : (after hostOps3 V) (Proc.devRef .tc main_v148) = endpointRows (embedOf V) (V (Proc.devRef .tc main_arg2)) := by
  after_results_simp <;> rfl
theorem fourth_neg : (after hostOps3 V) (Proc.devRef .tc main_v155) = endpointRows (embedOf V) (V (Proc.devRef .tc main_arg3)) := by
  after_results_simp <;> rfl
theorem fourth_top : (after hostOps3 V) (Proc.devRef .tc main_v156)
    = extractStridedSlice S256x256 ![0, 0] (V (Proc.devRef .tc main_arg14)) slices_S512x256_S256x256_0_0 := by
  after_results_simp <;> rfl
theorem fourth_bot : (after hostOps3 V) (Proc.devRef .tc main_v157)
    = extractStridedSlice S256x256 ![256, 0] (V (Proc.devRef .tc main_arg14)) slices_S512x256_S256x256_256_0 := by
  after_results_simp <;> rfl
set_option maxHeartbeats 8000000 in
theorem fourth_keeps : ∀ r ∈ (argRefs : List (Ref sig .tc)), (after hostOps3 V) (Proc.devRef .tc r) = V (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl <;> (after_results_simp <;> rfl)

/-! ## The last stretch: the score columns flattened -/

theorem last_pos : (after hostOps4 V) (Proc.devRef .tc main_v159)
    = shapeCast S300000 (V (Proc.devRef .tc main_v158_0)) shapeCasts_S300000x1_S300000 := by
  after_results_simp <;> rfl
theorem last_neg : (after hostOps4 V) (Proc.devRef .tc main_v160)
    = shapeCast S300000 (V (Proc.devRef .tc main_v158_1)) shapeCasts_S300000x1_S300000 := by
  after_results_simp <;> rfl

end Cert.KernelIdeal.HostStages

end
-- ==== Proof.KerChain.lean ====
/- The kernel program's boundary contents followed from the launch to the return, for any float instance: the argument
   arrays and the three shared arrays (the two edge lists with self loops and the edge weights) carried unchanged across
   every stretch and region that does not write them; each hidden layer's activations, the embeddings' rows and the
   flattened scores as the stage functions of the previous region's output array. -/
import proofs.«148771_j31576599560908_2_alg».proof.Proof.Gen.KernelIdeal.Frame
import proofs.«148771_j31576599560908_2_alg».proof.Proof.KerStages

set_option maxRecDepth 16384

noncomputable section

namespace Cert.KernelIdeal.Chain

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.HostStages Cert.Stages

variable {F : FTy → Type} [FloatOps F]
variable (m : (ℓ : Loc nD τ sig) → Buf (Elt F) ℓ) (ρ : Dev nD → PrngReg) (c : Dev nD)

/-- The buffers every later stage reads and no stage after the first writes: the two edge lists with self loops, the
    edge weights, the arguments. -/
abbrev carried : List (Ref sig .tc) := main_v1 :: main_v2 :: main_v25 :: argRefs

theorem carried_of_arg {r : Ref sig .tc} (h : r ∈ (argRefs : List (Ref sig .tc))) : r ∈ (carried : List (Ref sig .tc)) :=
  List.mem_cons_of_mem _ (List.mem_cons_of_mem _ (List.mem_cons_of_mem _ h))

/-! ## Carried across each boundary -/

theorem to3 : ∀ r ∈ (argRefs : List (Ref sig .tc)), W3 m ρ c (Proc.devRef .tc r) = W0 m ρ c (Proc.devRef .tc r) :=
  first_keeps (W0 m ρ c)
theorem to4 : ∀ r ∈ (carried : List (Ref sig .tc)), W4 m ρ c (Proc.devRef .tc r) = W3 m ρ c (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
theorem to7 : ∀ r ∈ (carried : List (Ref sig .tc)), W7 m ρ c (Proc.devRef .tc r) = W4 m ρ c (Proc.devRef .tc r) :=
  second_keeps (W4 m ρ c)
theorem to8 : ∀ r ∈ (carried : List (Ref sig .tc)), W8 m ρ c (Proc.devRef .tc r) = W7 m ρ c (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl | rfl | rfl | rfl
  all_goals first
    | exact W8_of_ne m ρ c _ (by decide)
    | exact (W8_arr m ρ c 1).trans (((dat1 (V7 m ρ) c).arrAt_in 1 rfl _).trans (A_eq1 (V7 m ρ) c 1))
theorem to11 : ∀ r ∈ (carried : List (Ref sig .tc)), W11 m ρ c (Proc.devRef .tc r) = W8 m ρ c (Proc.devRef .tc r) :=
  third_keeps (W8 m ρ c)
theorem to12 : ∀ r ∈ (carried : List (Ref sig .tc)), W12 m ρ c (Proc.devRef .tc r) = W11 m ρ c (Proc.devRef .tc r) := by
  intro r hr
  simp only [List.mem_cons, List.not_mem_nil, or_false] at hr
  rcases hr with rfl | rfl | rfl | rfl | rfl | rfl | rfl | rfl | rfl | rfl | rfl | rfl | rfl | rfl | rfl | rfl | rfl | rfl | rfl | rfl | rfl
  all_goals first
    | exact W12_of_ne m ρ c _ (by decide)
    | exact (W12_arr m ρ c 1).trans (((dat2 (V11 m ρ) c).arrAt_in 1 rfl _).trans (A_eq2 (V11 m ρ) c 1))
theorem to13 : ∀ r ∈ (argRefs : List (Ref sig .tc)), W13 m ρ c (Proc.devRef .tc r) = W12 m ρ c (Proc.devRef .tc r) :=
  fourth_keeps (W12 m ρ c)

/-- An argument array at each boundary up to the last region's entry is the launch memory's. -/
theorem arg3 {r : Ref sig .tc} (h : r ∈ (argRefs : List (Ref sig .tc))) : W3 m ρ c (Proc.devRef .tc r) = W0 m ρ c (Proc.devRef .tc r) := to3 m ρ c r h
theorem arg4 {r : Ref sig .tc} (h : r ∈ (argRefs : List (Ref sig .tc))) : W4 m ρ c (Proc.devRef .tc r) = W0 m ρ c (Proc.devRef .tc r) :=
  (to4 m ρ c r (carried_of_arg h)).trans (arg3 m ρ c h)
theorem arg7 {r : Ref sig .tc} (h : r ∈ (argRefs : List (Ref sig .tc))) : W7 m ρ c (Proc.devRef .tc r) = W0 m ρ c (Proc.devRef .tc r) :=
  (to7 m ρ c r (carried_of_arg h)).trans (arg4 m ρ c h)
theorem arg8 {r : Ref sig .tc} (h : r ∈ (argRefs : List (Ref sig .tc))) : W8 m ρ c (Proc.devRef .tc r) = W0 m ρ c (Proc.devRef .tc r) :=
  (to8 m ρ c r (carried_of_arg h)).trans (arg7 m ρ c h)
theorem arg11 {r : Ref sig .tc} (h : r ∈ (argRefs : List (Ref sig .tc))) : W11 m ρ c (Proc.devRef .tc r) = W0 m ρ c (Proc.devRef .tc r) :=
  (to11 m ρ c r (carried_of_arg h)).trans (arg8 m ρ c h)
theorem arg12 {r : Ref sig .tc} (h : r ∈ (argRefs : List (Ref sig .tc))) : W12 m ρ c (Proc.devRef .tc r) = W0 m ρ c (Proc.devRef .tc r) :=
  (to12 m ρ c r (carried_of_arg h)).trans (arg11 m ρ c h)
theorem arg13 {r : Ref sig .tc} (h : r ∈ (argRefs : List (Ref sig .tc))) : W13 m ρ c (Proc.devRef .tc r) = W0 m ρ c (Proc.devRef .tc r) :=
  (to13 m ρ c r h).trans (arg12 m ρ c h)

/-- A shared array at each boundary from the first region's entry to the last stretch is what the first stretch left. -/
theorem shared12 {r : Ref sig .tc} (h : r ∈ (carried : List (Ref sig .tc))) : W12 m ρ c (Proc.devRef .tc r) = W3 m ρ c (Proc.devRef .tc r) :=
  (to12 m ρ c r h).trans ((to11 m ρ c r h).trans ((to8 m ρ c r h).trans ((to7 m ρ c r h).trans (to4 m ρ c r h))))
theorem shared8 {r : Ref sig .tc} (h : r ∈ (carried : List (Ref sig .tc))) : W8 m ρ c (Proc.devRef .tc r) = W3 m ρ c (Proc.devRef .tc r) :=
  (to8 m ρ c r h).trans ((to7 m ρ c r h).trans (to4 m ρ c r h))

/-! ## The stages' values at the boundaries -/

theorem src3 : W3 m ρ c (Proc.devRef .tc main_v1) = withLoops (W0 m ρ c (Proc.devRef .tc main_arg1)) := first_src (W0 m ρ c)
theorem dst3 : W3 m ρ c (Proc.devRef .tc main_v2) = withLoops (W0 m ρ c (Proc.devRef .tc main_arg2)) := first_dst (W0 m ρ c)
theorem nrm3 : W3 m ρ c (Proc.devRef .tc main_v25)
    = edgeNorm (withLoops (W0 m ρ c (Proc.devRef .tc main_arg1))) (withLoops (W0 m ρ c (Proc.devRef .tc main_arg2))) := first_norm (W0 m ρ c)

theorem table1 : W4 m ρ c (Proc.devRef .tc main_v26) = (dat0 (V3 m ρ) c).arrAt 2 cfg0.N := W4_arr m ρ c 2
theorem hidden1 : W7 m ρ c (Proc.devRef .tc main_v70)
    = hiddenLayer (W4 m ρ c (Proc.devRef .tc main_v26)) (W4 m ρ c (Proc.devRef .tc main_v1)) (W4 m ρ c (Proc.devRef .tc main_v2)) (W4 m ρ c (Proc.devRef .tc main_v25))
        (W4 m ρ c (Proc.devRef .tc main_arg5)) (W4 m ρ c (Proc.devRef .tc main_arg10)) (W4 m ρ c (Proc.devRef .tc main_arg11)) := second_out (W4 m ρ c)
theorem table2 : W8 m ρ c (Proc.devRef .tc main_v71) = (dat1 (V7 m ρ) c).arrAt 2 cfg1.N := W8_arr m ρ c 2
theorem hidden2 : W11 m ρ c (Proc.devRef .tc main_v115)
    = hiddenLayer (W8 m ρ c (Proc.devRef .tc main_v71)) (W8 m ρ c (Proc.devRef .tc main_v1)) (W8 m ρ c (Proc.devRef .tc main_v2)) (W8 m ρ c (Proc.devRef .tc main_v25))
        (W8 m ρ c (Proc.devRef .tc main_arg7)) (W8 m ρ c (Proc.devRef .tc main_arg12)) (W8 m ρ c (Proc.devRef .tc main_arg13)) := third_out (W8 m ρ c)
theorem table3 : W12 m ρ c (Proc.devRef .tc main_v116) = (dat2 (V11 m ρ) c).arrAt 2 cfg2.N := W12_arr m ρ c 2

theorem rowsSrc : W13 m ρ c (Proc.devRef .tc main_v141) = endpointRows (embedOf (W12 m ρ c)) (W12 m ρ c (Proc.devRef .tc main_arg1)) := fourth_src (W12 m ρ c)
theorem rowsDst : W13 m ρ c (Proc.devRef .tc main_v148) = endpointRows (embedOf (W12 m ρ c)) (W12 m ρ c (Proc.devRef .tc main_arg2)) := fourth_dst (W12 m ρ c)
theorem rowsNeg : W13 m ρ c (Proc.devRef .tc main_v155) = endpointRows (embedOf (W12 m ρ c)) (W12 m ρ c (Proc.devRef .tc main_arg3)) := fourth_neg (W12 m ρ c)
theorem halfTop : W13 m ρ c (Proc.devRef .tc main_v156)
    = extractStridedSlice S256x256 ![0, 0] (W12 m ρ c (Proc.devRef .tc main_arg14)) slices_S512x256_S256x256_0_0 := fourth_top (W12 m ρ c)
theorem halfBot : W13 m ρ c (Proc.devRef .tc main_v157)
    = extractStridedSlice S256x256 ![256, 0] (W12 m ρ c (Proc.devRef .tc main_arg14)) slices_S512x256_S256x256_256_0 := fourth_bot (W12 m ρ c)

theorem scoresPos : W14 m ρ c (Proc.devRef .tc main_v158_0) = (dat3 (V13 m ρ) c).arrAt 8 cfg3.N := W14_arr m ρ c 8
theorem scoresNeg : W14 m ρ c (Proc.devRef .tc main_v158_1) = (dat3 (V13 m ρ) c).arrAt 9 cfg3.N := W14_arr m ρ c 9
theorem flatPos : W15 m ρ c (Proc.devRef .tc main_v159)
    = shapeCast S300000 (W14 m ρ c (Proc.devRef .tc main_v158_0)) shapeCasts_S300000x1_S300000 := last_pos (W14 m ρ c)
theorem flatNeg : W15 m ρ c (Proc.devRef .tc main_v160)
    = shapeCast S300000 (W14 m ρ c (Proc.devRef .tc main_v158_1)) shapeCasts_S300000x1_S300000 := last_neg (W14 m ρ c)

end Cert.KernelIdeal.Chain

end
-- ==== Proof.SumSpec.lean ====
/- The two index-level functions the kernel's regions and the reference's matrix products are both read as, on the extended
   reals: a matrix product as the sum over the contracted coordinate, and the two-layer edge scorer built from it
   (a hidden layer of 256 units over two concatenated 256-vectors with a rectifier, one output unit, the logistic function). -/
import Idealize.ShloMosaic.PureOps.Ideal
import Idealize.ShloMosaic.Lib.ValueIdx

noncomputable section

namespace Cert.SumSpec

open Idealize.ShloMosaic Idealize.ShloMosaic.ValueIdx

/-- The product of `x : [n, d]` and `w : [d, e]` at `(r, q)`: the sum over `k` of `x (r, k) · w (k, q)`. -/
def mm {n d e : Nat} (x : (⟨2, ![n, d]⟩ : Shape).Idx → EReal) (w : (⟨2, ![d, e]⟩ : Shape).Idx → EReal) :
    (⟨2, ![n, e]⟩ : Shape).Idx → EReal :=
  fun i => ∑ k : Fin d, x (ix2 (i 0) k) * w (ix2 k (i 1))

theorem mm_apply {n d e : Nat} (x : (⟨2, ![n, d]⟩ : Shape).Idx → EReal) (w : (⟨2, ![d, e]⟩ : Shape).Idx → EReal)
    (r : Fin n) (q : Fin e) : mm x w (ix2 r q) = ∑ k : Fin d, x (ix2 r k) * w (ix2 k q) := rfl

/-- The edge scorer at row `r`: with `h j = max (Σₖ za (r,k)·wt (k,j) + Σₖ zb (r,k)·wb (k,j) + b1 j) 0` over the 256 hidden units,
    the logistic function of `Σⱼ h j · w2 (j,0) + b2 0`. -/
def scorer {n : Nat} (za zb : (⟨2, ![n, 256]⟩ : Shape).Idx → EReal) (wt wb : (⟨2, ![256, 256]⟩ : Shape).Idx → EReal)
    (b1 : (⟨1, ![256]⟩ : Shape).Idx → EReal) (w2 : (⟨2, ![256, 1]⟩ : Shape).Idx → EReal) (b2 : (⟨1, ![1]⟩ : Shape).Idx → EReal) :
    (⟨2, ![n, 1]⟩ : Shape).Idx → EReal :=
  fun i => Ideal.logistic
    ((∑ j : Fin 256, max ((mm za wt (ix2 (i 0) j) + mm zb wb (ix2 (i 0) j)) + b1 (ix1 j)) 0 * w2 (ix2 j (0 : Fin 1)))
      + b2 (ix1 (0 : Fin 1)))

theorem scorer_apply {n : Nat} (za zb : (⟨2, ![n, 256]⟩ : Shape).Idx → EReal) (wt wb : (⟨2, ![256, 256]⟩ : Shape).Idx → EReal)
    (b1 : (⟨1, ![256]⟩ : Shape).Idx → EReal) (w2 : (⟨2, ![256, 1]⟩ : Shape).Idx → EReal) (b2 : (⟨1, ![1]⟩ : Shape).Idx → EReal)
    (r : Fin n) (z : Fin 1) :
    scorer za zb wt wb b1 w2 b2 (ix2 r z) = Ideal.logistic
      ((∑ j : Fin 256, max ((mm za wt (ix2 r j) + mm zb wb (ix2 r j)) + b1 (ix1 j)) 0 * w2 (ix2 j (0 : Fin 1)))
        + b2 (ix1 (0 : Fin 1))) := rfl

end Cert.SumSpec

end
-- ==== Proof.LinearValue0.lean ====
/- The first linear region as a matrix product. The region multiplies its input array x : [100000, 256] by the
   weight W : [256, 256], 5000 rows at a time: grid point t reads rows 5000·t … 5000·t + 4999 of x and the whole of W,
   and writes the same rows of the result. On the extended reals every change of float format is the identity and a
   product accumulated into zero is the plain sum over the contracted coordinate, so what point t writes back is block t
   of the one function (r, q) ↦ Σₖ x (r, k) · W (k, q) of the two arrays as the region finds them; the twenty row blocks
   cover the result, which therefore ends holding that function. -/
import proofs.«148771_j31576599560908_2_alg».proof.Proof.Gen.KernelIdeal.Frame
import proofs.«148771_j31576599560908_2_alg».proof.Proof.SumSpec
import Idealize.ShloMosaic.Lib.Pipeline.Value
import Idealize.ShloMosaic.Lib.ValueIdx
import Idealize.ShloMosaic.PureOps.Ideal.Laws

noncomputable section

namespace Cert.KernelIdeal.LinearValue0

open Cert.KernelIdeal Idealize.ShloMosaic Idealize.ShloMosaic.TcCoe Idealize.SL.Sem Idealize.ShloMosaic.ValueIdx
open Idealize.ShloMosaic.Pipeline (Dat)

/-! ## The body's product at an index -/

/-- The left operand is read at the result's row … -/
theorem lhs_row (i : S5000x256.Idx) (κ : dot_S5000x256_S256x256_S5000x256_1_0_0_1_n_n.contr.Idx) :
    (dot_S5000x256_S256x256_S5000x256_1_0_0_1_n_n.lhsIdx i κ 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- … and the contracted coordinate, -/
theorem lhs_contr (i : S5000x256.Idx) (κ : dot_S5000x256_S256x256_S5000x256_1_0_0_1_n_n.contr.Idx) :
    (dot_S5000x256_S256x256_S5000x256_1_0_0_1_n_n.lhsIdx i κ 1).val = (κ ⟨0, by decide⟩).val :=
  dot_S5000x256_S256x256_S5000x256_1_0_0_1_n_n.lhsIdx_val_of_single rfl i κ
/-- the right operand at the contracted coordinate … -/
theorem rhs_contr (i : S5000x256.Idx) (κ : dot_S5000x256_S256x256_S5000x256_1_0_0_1_n_n.contr.Idx) :
    (dot_S5000x256_S256x256_S5000x256_1_0_0_1_n_n.rhsIdx i κ 0).val = (κ ⟨0, by decide⟩).val :=
  dot_S5000x256_S256x256_S5000x256_1_0_0_1_n_n.rhsIdx_val_of_single rfl i κ
/-- … and the result's column. -/
theorem rhs_col (i : S5000x256.Idx) (κ : dot_S5000x256_S256x256_S5000x256_1_0_0_1_n_n.contr.Idx) :
    (dot_S5000x256_S256x256_S5000x256_1_0_0_1_n_n.rhsIdx i κ 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The product of a [5000, 256] block and a [256, 256] block accumulated into zero, at (p, q): the sum over the
    contracted coordinate k of left (p, k) · right (k, q). -/
theorem product_apply (l : FVec Ideal S5000x256 .bf16) (r : FVec Ideal S256x256 .bf16) (p : Fin 5000) (q : Fin 256) :
    FloatOps.matmul dot_S5000x256_S256x256_S5000x256_1_0_0_1_n_n none l r (constant (F := Ideal) S5000x256 .f32 0x00000000#32) (ix2 p q)
      = ∑ k : Fin 256, l (ix2 p k) * r (ix2 k q) := by
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_contr _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_contr _ _).trans hk
      | ⟨1, _⟩ => exact rhs_col _ _)
  rw [el, er]

/-- What the body stores, at (p, q) of its block: both operands and the result only change float format, so it is the
    sum over k of (block of x) (p, k) · (block of W) (k, q). -/
theorem stored_apply (x0 : Vec Ideal S5000x256 .f32) (x1 : Vec Ideal S256x256 .f32) (p : Fin 5000) (q : Fin 256) :
    Gen.k0_pay1 (F := Ideal) x0 x1 (ix2 p q) = ∑ k : Fin 256, x0 (ix2 p k) * x1 (ix2 k q) :=
  product_apply x0 x1 p q

/-- Over blocks that are row block b of an array A and the whole of an array W, the body stores row block b of the
    product of A and W. -/
theorem stored_eq_product (A : S100000x256.Idx → EReal) (W : S256x256.Idx → EReal)
    (x0 : Vec Ideal S5000x256 .f32) (x1 : Vec Ideal S256x256 .f32) (b : Nat)
    (h0 : ∀ (p : Fin 5000) (k : Fin 256) (r : Fin 100000), r.val = b * 5000 + p.val → x0 (ix2 p k) = A (ix2 r k))
    (h1 : ∀ (k q : Fin 256), x1 (ix2 k q) = W (ix2 k q))
    (p : Fin 5000) (q : Fin 256) (r : Fin 100000) (hr : r.val = b * 5000 + p.val) :
    Gen.k0_pay1 (F := Ideal) x0 x1 (ix2 p q) = Cert.SumSpec.mm (n := 100000) (d := 256) (e := 256) A W (ix2 r q) := by
  rw [stored_apply, Cert.SumSpec.mm_apply]
  exact Finset.sum_congr rfl fun k _ => by rw [h0 p k r hr, h1]

/-! ## The row blocks -/

theorem zero_offsets : (![0, 0] : Fin 2 → Nat) = fun _ => 0 := funext fun a => by fin_cases a <;> rfl

/-- The index maps over the grid: at point t the blocks of x and of the result are row block t, the block of W is
    the whole of W. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The block of x at point t is rows 5000·t … 5000·t + 4999 of x. -/
theorem x_block (c : Dev nD) (t : Fin cfg0.N) (p : Fin 5000) (k : Fin 256) (r : Fin 100000)
    (hr : r.val = t.val * 5000 + p.val) :
    (Gen.iblk0 (F := Ideal) V c 0 t : S5000x256.Idx → EReal) (ix2 p k)
      = (V c main_arg0 : S100000x256.Idx → EReal) (ix2 r k) := by
  obtain ⟨e0, e1, -⟩ := block_indices t
  unfold Gen.iblk0
  rw [View.read_apply]
  show (V c main_arg0 : S100000x256.Idx → EReal) _ = _
  refine congrArg (V c main_arg0 : S100000x256.Idx → EReal) ?_
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The block of W at every point is W. -/
theorem w_block (c : Dev nD) (t : Fin cfg0.N) (k q : Fin 256) :
    (Gen.iblk0 (F := Ideal) V c 1 t : S256x256.Idx → EReal) (ix2 k q)
      = (V c main_arg4 : S256x256.Idx → EReal) (ix2 k q) := by
  obtain ⟨-, -, e0, e1, -⟩ := block_indices t
  unfold Gen.iblk0
  rw [View.read_apply]
  show (V c main_arg4 : S256x256.Idx → EReal) _ = _
  refine congrArg (V c main_arg4 : S256x256.Idx → EReal) ?_
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-! ## From the row blocks to the array -/

/-- What point t writes back is row block t of the product of the two arrays as the region finds them. -/
theorem flushed_eq (c : Dev nD) (t : Fin cfg0.N) :
    (Gen.dat0 (F := Ideal) V c).flushed 2 t = ((cfg0.win 2).blk t).view.read (Elt Ideal)
      (Cert.SumSpec.mm (n := 100000) (d := 256) (e := 256) (V c main_arg0) (V c main_arg4)) := by
  have hN : grid0.N = 20 := Gen.N_0
  have ht : t.val < 20 := by have h : t.val < grid0.N := t.isLt; omega
  obtain ⟨-, -, -, -, e0, e1⟩ := block_indices t
  show (cfg0.win 2).cut (grid0.coords t) ((Gen.dat0 V c).after 2 t) = _
  rw [Gen.after0_2]
  unfold Gen.out0_2
  rw [View.canon_unit_zero zero_offsets]
  simp only [View.ld_unit_zero (S := S5000x256) zero_offsets, View.ld_unit_zero (S := S256x256) zero_offsets]
  funext j
  have hp : (j 0).val < 5000 := (j 0).isLt
  have hq : (j 1).val < 256 := (j 1).isLt
  have hsrc : (cfg0.win 2).xinj (grid0.coords t) j = ix2 (⟨(j 0).val, hp⟩ : Fin 5000) (⟨(j 1).val, hq⟩ : Fin 256) :=
    funext fun a => by match a with | ⟨0, _⟩ => rfl | ⟨1, _⟩ => rfl
  have hdst : ((cfg0.win 2).blk t).view.emb j
      = ix2 (⟨t.val * 5000 + (j 0).val, by omega⟩ : Fin 100000) (⟨(j 1).val, hq⟩ : Fin 256) :=
    funext fun a => Fin.ext (by
      match a with
      | ⟨0, _⟩ => show win0_2.index t (0 : Fin 2) * 5000 + 1 * (j 0).val = t.val * 5000 + (j 0).val; rw [e0]; omega
      | ⟨1, _⟩ => show win0_2.index t (1 : Fin 2) * 256 + 1 * (j 1).val = (j 1).val; rw [e1]; omega)
  show Gen.k0_pay1 (F := Ideal) (Gen.iblk0 V c 0 t) (Gen.iblk0 V c 1 t) ((cfg0.win 2).xinj (grid0.coords t) j)
    = Cert.SumSpec.mm (n := 100000) (d := 256) (e := 256) (V c main_arg0) (V c main_arg4) (((cfg0.win 2).blk t).view.emb j)
  rw [hsrc, hdst]
  exact stored_eq_product (V c main_arg0) (V c main_arg4) (Gen.iblk0 V c 0 t) (Gen.iblk0 V c 1 t) t.val
    (x_block V c t) (w_block V c t) _ _ _ rfl

/-- An index of the result is in point t's block iff its row is one of rows 5000·t … 5000·t + 4999. -/
theorem mem_row_block (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v26).slice (win0_2.rect t)).set ↔ _
  rw [View.set_slice_whole, Rect.mem_set_unit]
  exact Iff.rfl

/-- Row r of the result is covered by point r / 5000. -/
theorem cover (i : S100000x256.Idx) :
    ∃ t : Fin cfg0.N, (cfg0.win 2).flush t = true ∧ i ∈ ((cfg0.win 2).blk t).view.set := by
  have hN : grid0.N = 20 := Gen.N_0
  have hi0 : (i 0).val < 100000 := (i 0).isLt
  have hi1 : (i 1).val < 256 := (i 1).isLt
  have hlt : (i 0).val / 5000 < cfg0.N := by show (i 0).val / 5000 < grid0.N; omega
  obtain ⟨-, -, -, -, e0, e1⟩ := block_indices ⟨(i 0).val / 5000, hlt⟩
  refine ⟨⟨(i 0).val / 5000, hlt⟩, Gen.flush0_2 _, ?_⟩
  rw [mem_row_block]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, hlt⟩ (1 : Fin 2) * 256 ≤ (i 1).val
      ∧ (i 1).val < win0_2.index ⟨(i 0).val / 5000, hlt⟩ (1 : Fin 2) * 256 + 256
    rw [e1]
    omega

/-- The result array after the region: the product of x and W as the region found them. -/
theorem arr (c : Dev nD) :
    (Gen.dat0 (F := Ideal) V c).arrAt 2 cfg0.N
      = Cert.SumSpec.mm (n := 100000) (d := 256) (e := 256) (V c main_arg0) (V c main_arg4) :=
  (Gen.dat0 (F := Ideal) V c).arrAt_eq_of_cover 2
    (Cert.SumSpec.mm (n := 100000) (d := 256) (e := 256) (V c main_arg0) (V c main_arg4))
    (fun t _ => flushed_eq V c t) cover

end Cert.KernelIdeal.LinearValue0

end
-- ==== Proof.LinearValue1.lean ====
/- The second linear region as a matrix product. The region multiplies its input array x : [100000, 256] by the
   weight W : [256, 256], 5000 rows at a time: grid point t reads rows 5000·t … 5000·t + 4999 of x and the whole of W,
   and writes the same rows of the result. On the extended reals every change of float format is the identity and a
   product accumulated into zero is the plain sum over the contracted coordinate, so what point t writes back is block t
   of the one function (r, q) ↦ Σₖ x (r, k) · W (k, q) of the two arrays as the region finds them; the twenty row blocks
   cover the result, which therefore ends holding that function. -/
import proofs.«148771_j31576599560908_2_alg».proof.Proof.Gen.KernelIdeal.Frame
import proofs.«148771_j31576599560908_2_alg».proof.Proof.SumSpec
import Idealize.ShloMosaic.Lib.Pipeline.Value
import Idealize.ShloMosaic.Lib.ValueIdx
import Idealize.ShloMosaic.PureOps.Ideal.Laws

noncomputable section

namespace Cert.KernelIdeal.LinearValue1

open Cert.KernelIdeal Idealize.ShloMosaic Idealize.ShloMosaic.TcCoe Idealize.SL.Sem Idealize.ShloMosaic.ValueIdx
open Idealize.ShloMosaic.Pipeline (Dat)

/-! ## The body's product at an index -/

/-- The left operand is read at the result's row … -/
theorem lhs_row (i : S5000x256.Idx) (κ : dot_S5000x256_S256x256_S5000x256_1_0_0_1_n_n.contr.Idx) :
    (dot_S5000x256_S256x256_S5000x256_1_0_0_1_n_n.lhsIdx i κ 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- … and the contracted coordinate, -/
theorem lhs_contr (i : S5000x256.Idx) (κ : dot_S5000x256_S256x256_S5000x256_1_0_0_1_n_n.contr.Idx) :
    (dot_S5000x256_S256x256_S5000x256_1_0_0_1_n_n.lhsIdx i κ 1).val = (κ ⟨0, by decide⟩).val :=
  dot_S5000x256_S256x256_S5000x256_1_0_0_1_n_n.lhsIdx_val_of_single rfl i κ
/-- the right operand at the contracted coordinate … -/
theorem rhs_contr (i : S5000x256.Idx) (κ : dot_S5000x256_S256x256_S5000x256_1_0_0_1_n_n.contr.Idx) :
    (dot_S5000x256_S256x256_S5000x256_1_0_0_1_n_n.rhsIdx i κ 0).val = (κ ⟨0, by decide⟩).val :=
  dot_S5000x256_S256x256_S5000x256_1_0_0_1_n_n.rhsIdx_val_of_single rfl i κ
/-- … and the result's column. -/
theorem rhs_col (i : S5000x256.Idx) (κ : dot_S5000x256_S256x256_S5000x256_1_0_0_1_n_n.contr.Idx) :
    (dot_S5000x256_S256x256_S5000x256_1_0_0_1_n_n.rhsIdx i κ 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The product of a [5000, 256] block and a [256, 256] block accumulated into zero, at (p, q): the sum over the
    contracted coordinate k of left (p, k) · right (k, q). -/
theorem product_apply (l : FVec Ideal S5000x256 .bf16) (r : FVec Ideal S256x256 .bf16) (p : Fin 5000) (q : Fin 256) :
    FloatOps.matmul dot_S5000x256_S256x256_S5000x256_1_0_0_1_n_n none l r (constant (F := Ideal) S5000x256 .f32 0x00000000#32) (ix2 p q)
      = ∑ k : Fin 256, l (ix2 p k) * r (ix2 k q) := by
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_contr _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_contr _ _).trans hk
      | ⟨1, _⟩ => exact rhs_col _ _)
  rw [el, er]

/-- What the body stores, at (p, q) of its block: the left operand passes through a cast to its own shape, the right
    operand and the result only change float format, so it is the sum over k of (block of x) (p, k) · (block of W) (k, q). -/
theorem stored_apply (x0 : Vec Ideal S5000x256 .bf16) (x1 : Vec Ideal S256x256 .f32) (p : Fin 5000) (q : Fin 256) :
    Gen.k1_pay1 (F := Ideal) x0 x1 (ix2 p q) = ∑ k : Fin 256, x0 (ix2 p k) * x1 (ix2 k q) := by
  unfold Gen.k1_pay1
  refine (product_apply (shapeCast S5000x256 x0 Facts₀.shapeCasts_S5000x256_S5000x256) x1 p q).trans ?_
  rw [shapeCast_self]

/-- Over blocks that are row block b of an array A and the whole of an array W, the body stores row block b of the
    product of A and W. -/
theorem stored_eq_product (A : S100000x256.Idx → EReal) (W : S256x256.Idx → EReal)
    (x0 : Vec Ideal S5000x256 .bf16) (x1 : Vec Ideal S256x256 .f32) (b : Nat)
    (h0 : ∀ (p : Fin 5000) (k : Fin 256) (r : Fin 100000), r.val = b * 5000 + p.val → x0 (ix2 p k) = A (ix2 r k))
    (h1 : ∀ (k q : Fin 256), x1 (ix2 k q) = W (ix2 k q))
    (p : Fin 5000) (q : Fin 256) (r : Fin 100000) (hr : r.val = b * 5000 + p.val) :
    Gen.k1_pay1 (F := Ideal) x0 x1 (ix2 p q) = Cert.SumSpec.mm (n := 100000) (d := 256) (e := 256) A W (ix2 r q) := by
  rw [stored_apply, Cert.SumSpec.mm_apply]
  exact Finset.sum_congr rfl fun k _ => by rw [h0 p k r hr, h1]

/-! ## The row blocks -/

theorem zero_offsets : (![0, 0] : Fin 2 → Nat) = fun _ => 0 := funext fun a => by fin_cases a <;> rfl

/-- The index maps over the grid: at point t the blocks of x and of the result are row block t, the block of W is
    the whole of W. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The block of x at point t is rows 5000·t … 5000·t + 4999 of x. -/
theorem x_block (c : Dev nD) (t : Fin cfg1.N) (p : Fin 5000) (k : Fin 256) (r : Fin 100000)
    (hr : r.val = t.val * 5000 + p.val) :
    (Gen.iblk1 (F := Ideal) V c 0 t : S5000x256.Idx → EReal) (ix2 p k)
      = (V c main_v70 : S100000x256.Idx → EReal) (ix2 r k) := by
  obtain ⟨e0, e1, -⟩ := block_indices t
  unfold Gen.iblk1
  rw [View.read_apply]
  show (V c main_v70 : S100000x256.Idx → EReal) _ = _
  refine congrArg (V c main_v70 : S100000x256.Idx → EReal) ?_
  funext a
  apply Fin.ext
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- The block of W at every point is W. -/
theorem w_block (c : Dev nD) (t : Fin cfg1.N) (k q : Fin 256) :
    (Gen.iblk1 (F := Ideal) V c 1 t : S256x256.Idx → EReal) (ix2 k q)
      = (V c main_arg6 : S256x256.Idx → EReal) (ix2 k q) := by
  obtain ⟨-, -, e0, e1, -⟩ := block_indices t
  unfold Gen.iblk1
  rw [View.read_apply]
  show (V c main_arg6 : S256x256.Idx → EReal) _ = _
  refine congrArg (V c main_arg6 : S256x256.Idx → EReal) ?_
  funext a
  apply Fin.ext
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-! ## From the row blocks to the array -/

/-- What point t writes back is row block t of the product of the two arrays as the region finds them. -/
theorem flushed_eq (c : Dev nD) (t : Fin cfg1.N) :
    (Gen.dat1 (F := Ideal) V c).flushed 2 t = ((cfg1.win 2).blk t).view.read (Elt Ideal)
      (Cert.SumSpec.mm (n := 100000) (d := 256) (e := 256) (V c main_v70) (V c main_arg6)) := by
  have hN : grid1.N = 20 := Gen.N_1
  have ht : t.val < 20 := by have h : t.val < grid1.N := t.isLt; omega
  obtain ⟨-, -, -, -, e0, e1⟩ := block_indices t
  show (cfg1.win 2).cut (grid1.coords t) ((Gen.dat1 V c).after 2 t) = _
  rw [Gen.after1_2]
  unfold Gen.out1_2
  rw [View.canon_unit_zero zero_offsets]
  simp only [View.ld_unit_zero (S := S5000x256) zero_offsets, View.ld_unit_zero (S := S256x256) zero_offsets]
  funext j
  have hp : (j 0).val < 5000 := (j 0).isLt
  have hq : (j 1).val < 256 := (j 1).isLt
  have hsrc : (cfg1.win 2).xinj (grid1.coords t) j = ix2 (⟨(j 0).val, hp⟩ : Fin 5000) (⟨(j 1).val, hq⟩ : Fin 256) :=
    funext fun a => by match a with | ⟨0, _⟩ => rfl | ⟨1, _⟩ => rfl
  have hdst : ((cfg1.win 2).blk t).view.emb j
      = ix2 (⟨t.val * 5000 + (j 0).val, by omega⟩ : Fin 100000) (⟨(j 1).val, hq⟩ : Fin 256) :=
    funext fun a => Fin.ext (by
      match a with
      | ⟨0, _⟩ => show win1_2.index t (0 : Fin 2) * 5000 + 1 * (j 0).val = t.val * 5000 + (j 0).val; rw [e0]; omega
      | ⟨1, _⟩ => show win1_2.index t (1 : Fin 2) * 256 + 1 * (j 1).val = (j 1).val; rw [e1]; omega)
  show Gen.k1_pay1 (F := Ideal) (Gen.iblk1 V c 0 t) (Gen.iblk1 V c 1 t) ((cfg1.win 2).xinj (grid1.coords t) j)
    = Cert.SumSpec.mm (n := 100000) (d := 256) (e := 256) (V c main_v70) (V c main_arg6) (((cfg1.win 2).blk t).view.emb j)
  rw [hsrc, hdst]
  exact stored_eq_product (V c main_v70) (V c main_arg6) (Gen.iblk1 V c 0 t) (Gen.iblk1 V c 1 t) t.val
    (x_block V c t) (w_block V c t) _ _ _ rfl

/-- An index of the result is in point t's block iff its row is one of rows 5000·t … 5000·t + 4999. -/
theorem mem_row_block (t : Fin cfg1.N) (i : S100000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v71).slice (win1_2.rect t)).set ↔ _
  rw [View.set_slice_whole, Rect.mem_set_unit]
  exact Iff.rfl

/-- Row r of the result is covered by point r / 5000. -/
theorem cover (i : S100000x256.Idx) :
    ∃ t : Fin cfg1.N, (cfg1.win 2).flush t = true ∧ i ∈ ((cfg1.win 2).blk t).view.set := by
  have hN : grid1.N = 20 := Gen.N_1
  have hi0 : (i 0).val < 100000 := (i 0).isLt
  have hi1 : (i 1).val < 256 := (i 1).isLt
  have hlt : (i 0).val / 5000 < cfg1.N := by show (i 0).val / 5000 < grid1.N; omega
  obtain ⟨-, -, -, -, e0, e1⟩ := block_indices ⟨(i 0).val / 5000, hlt⟩
  refine ⟨⟨(i 0).val / 5000, hlt⟩, Gen.flush1_2 _, ?_⟩
  rw [mem_row_block]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_2.index ⟨(i 0).val / 5000, hlt⟩ (1 : Fin 2) * 256 ≤ (i 1).val
      ∧ (i 1).val < win1_2.index ⟨(i 0).val / 5000, hlt⟩ (1 : Fin 2) * 256 + 256
    rw [e1]
    omega

/-- The result array after the region: the product of x and W as the region found them. -/
theorem arr (c : Dev nD) :
    (Gen.dat1 (F := Ideal) V c).arrAt 2 cfg1.N
      = Cert.SumSpec.mm (n := 100000) (d := 256) (e := 256) (V c main_v70) (V c main_arg6) :=
  (Gen.dat1 (F := Ideal) V c).arrAt_eq_of_cover 2
    (Cert.SumSpec.mm (n := 100000) (d := 256) (e := 256) (V c main_v70) (V c main_arg6))
    (fun t _ => flushed_eq V c t) cover

end Cert.KernelIdeal.LinearValue1

end
-- ==== Proof.LinearValue2.lean ====
/- The third linear region as a matrix product. The region multiplies its input array x : [100000, 256] by the
   weight W : [256, 256], 5000 rows at a time: grid point t reads rows 5000·t … 5000·t + 4999 of x and the whole of W,
   and writes the same rows of the result. On the extended reals every change of float format is the identity and a
   product accumulated into zero is the plain sum over the contracted coordinate, so what point t writes back is block t
   of the one function (r, q) ↦ Σₖ x (r, k) · W (k, q) of the two arrays as the region finds them; the twenty row blocks
   cover the result, which therefore ends holding that function. -/
import proofs.«148771_j31576599560908_2_alg».proof.Proof.Gen.KernelIdeal.Frame
import proofs.«148771_j31576599560908_2_alg».proof.Proof.SumSpec
import Idealize.ShloMosaic.Lib.Pipeline.Value
import Idealize.ShloMosaic.Lib.ValueIdx
import Idealize.ShloMosaic.PureOps.Ideal.Laws

noncomputable section

namespace Cert.KernelIdeal.LinearValue2

open Cert.KernelIdeal Idealize.ShloMosaic Idealize.ShloMosaic.TcCoe Idealize.SL.Sem Idealize.ShloMosaic.ValueIdx
open Idealize.ShloMosaic.Pipeline (Dat)

/-! ## The body's product at an index -/

/-- The left operand is read at the result's row … -/
theorem lhs_row (i : S5000x256.Idx) (κ : dot_S5000x256_S256x256_S5000x256_1_0_0_1_n_n.contr.Idx) :
    (dot_S5000x256_S256x256_S5000x256_1_0_0_1_n_n.lhsIdx i κ 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
/-- … and the contracted coordinate, -/
theorem lhs_contr (i : S5000x256.Idx) (κ : dot_S5000x256_S256x256_S5000x256_1_0_0_1_n_n.contr.Idx) :
    (dot_S5000x256_S256x256_S5000x256_1_0_0_1_n_n.lhsIdx i κ 1).val = (κ ⟨0, by decide⟩).val :=
  dot_S5000x256_S256x256_S5000x256_1_0_0_1_n_n.lhsIdx_val_of_single rfl i κ
/-- the right operand at the contracted coordinate … -/
theorem rhs_contr (i : S5000x256.Idx) (κ : dot_S5000x256_S256x256_S5000x256_1_0_0_1_n_n.contr.Idx) :
    (dot_S5000x256_S256x256_S5000x256_1_0_0_1_n_n.rhsIdx i κ 0).val = (κ ⟨0, by decide⟩).val :=
  dot_S5000x256_S256x256_S5000x256_1_0_0_1_n_n.rhsIdx_val_of_single rfl i κ
/-- … and the result's column. -/
theorem rhs_col (i : S5000x256.Idx) (κ : dot_S5000x256_S256x256_S5000x256_1_0_0_1_n_n.contr.Idx) :
    (dot_S5000x256_S256x256_S5000x256_1_0_0_1_n_n.rhsIdx i κ 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The product of a [5000, 256] block and a [256, 256] block accumulated into zero, at (p, q): the sum over the
    contracted coordinate k of left (p, k) · right (k, q). -/
theorem product_apply (l : FVec Ideal S5000x256 .bf16) (r : FVec Ideal S256x256 .bf16) (p : Fin 5000) (q : Fin 256) :
    FloatOps.matmul dot_S5000x256_S256x256_S5000x256_1_0_0_1_n_n none l r (constant (F := Ideal) S5000x256 .f32 0x00000000#32) (ix2 p q)
      = ∑ k : Fin 256, l (ix2 p k) * r (ix2 k q) := by
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_contr _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_contr _ _).trans hk
      | ⟨1, _⟩ => exact rhs_col _ _)
  rw [el, er]

/-- What the body stores, at (p, q) of its block: the left operand passes through a cast to its own shape, the right
    operand and the result only change float format, so it is the sum over k of (block of x) (p, k) · (block of W) (k, q). -/
theorem stored_apply (x0 : Vec Ideal S5000x256 .bf16) (x1 : Vec Ideal S256x256 .f32) (p : Fin 5000) (q : Fin 256) :
    Gen.k2_pay1 (F := Ideal) x0 x1 (ix2 p q) = ∑ k : Fin 256, x0 (ix2 p k) * x1 (ix2 k q) := by
  unfold Gen.k2_pay1
  refine (product_apply (shapeCast S5000x256 x0 Facts₀.shapeCasts_S5000x256_S5000x256) x1 p q).trans ?_
  rw [shapeCast_self]

/-- Over blocks that are row block b of an array A and the whole of an array W, the body stores row block b of the
    product of A and W. -/
theorem stored_eq_product (A : S100000x256.Idx → EReal) (W : S256x256.Idx → EReal)
    (x0 : Vec Ideal S5000x256 .bf16) (x1 : Vec Ideal S256x256 .f32) (b : Nat)
    (h0 : ∀ (p : Fin 5000) (k : Fin 256) (r : Fin 100000), r.val = b * 5000 + p.val → x0 (ix2 p k) = A (ix2 r k))
    (h1 : ∀ (k q : Fin 256), x1 (ix2 k q) = W (ix2 k q))
    (p : Fin 5000) (q : Fin 256) (r : Fin 100000) (hr : r.val = b * 5000 + p.val) :
    Gen.k2_pay1 (F := Ideal) x0 x1 (ix2 p q) = Cert.SumSpec.mm (n := 100000) (d := 256) (e := 256) A W (ix2 r q) := by
  rw [stored_apply, Cert.SumSpec.mm_apply]
  exact Finset.sum_congr rfl fun k _ => by rw [h0 p k r hr, h1]

/-! ## The row blocks -/

theorem zero_offsets : (![0, 0] : Fin 2 → Nat) = fun _ => 0 := funext fun a => by fin_cases a <;> rfl

/-- The index maps over the grid: at point t the blocks of x and of the result are row block t, the block of W is
    the whole of W. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The block of x at point t is rows 5000·t … 5000·t + 4999 of x. -/
theorem x_block (c : Dev nD) (t : Fin cfg2.N) (p : Fin 5000) (k : Fin 256) (r : Fin 100000)
    (hr : r.val = t.val * 5000 + p.val) :
    (Gen.iblk2 (F := Ideal) V c 0 t : S5000x256.Idx → EReal) (ix2 p k)
      = (V c main_v115 : S100000x256.Idx → EReal) (ix2 r k) := by
  obtain ⟨e0, e1, -⟩ := block_indices t
  unfold Gen.iblk2
  rw [View.read_apply]
  show (V c main_v115 : S100000x256.Idx → EReal) _ = _
  refine congrArg (V c main_v115 : S100000x256.Idx → EReal) ?_
  funext a
  apply Fin.ext
  match a with
  | ⟨0, _⟩ => show win2_0.index t (0 : Fin 2) * 5000 + 1 * p.val = r.val; rw [e0, hr]; omega
  | ⟨1, _⟩ => show win2_0.index t (1 : Fin 2) * 256 + 1 * k.val = k.val; rw [e1]; omega

/-- The block of W at every point is W. -/
theorem w_block (c : Dev nD) (t : Fin cfg2.N) (k q : Fin 256) :
    (Gen.iblk2 (F := Ideal) V c 1 t : S256x256.Idx → EReal) (ix2 k q)
      = (V c main_arg8 : S256x256.Idx → EReal) (ix2 k q) := by
  obtain ⟨-, -, e0, e1, -⟩ := block_indices t
  unfold Gen.iblk2
  rw [View.read_apply]
  show (V c main_arg8 : S256x256.Idx → EReal) _ = _
  refine congrArg (V c main_arg8 : S256x256.Idx → EReal) ?_
  funext a
  apply Fin.ext
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-! ## From the row blocks to the array -/

/-- What point t writes back is row block t of the product of the two arrays as the region finds them. -/
theorem flushed_eq (c : Dev nD) (t : Fin cfg2.N) :
    (Gen.dat2 (F := Ideal) V c).flushed 2 t = ((cfg2.win 2).blk t).view.read (Elt Ideal)
      (Cert.SumSpec.mm (n := 100000) (d := 256) (e := 256) (V c main_v115) (V c main_arg8)) := by
  have hN : grid2.N = 20 := Gen.N_2
  have ht : t.val < 20 := by have h : t.val < grid2.N := t.isLt; omega
  obtain ⟨-, -, -, -, e0, e1⟩ := block_indices t
  show (cfg2.win 2).cut (grid2.coords t) ((Gen.dat2 V c).after 2 t) = _
  rw [Gen.after2_2]
  unfold Gen.out2_2
  rw [View.canon_unit_zero zero_offsets]
  simp only [View.ld_unit_zero (S := S5000x256) zero_offsets, View.ld_unit_zero (S := S256x256) zero_offsets]
  funext j
  have hp : (j 0).val < 5000 := (j 0).isLt
  have hq : (j 1).val < 256 := (j 1).isLt
  have hsrc : (cfg2.win 2).xinj (grid2.coords t) j = ix2 (⟨(j 0).val, hp⟩ : Fin 5000) (⟨(j 1).val, hq⟩ : Fin 256) :=
    funext fun a => by match a with | ⟨0, _⟩ => rfl | ⟨1, _⟩ => rfl
  have hdst : ((cfg2.win 2).blk t).view.emb j
      = ix2 (⟨t.val * 5000 + (j 0).val, by omega⟩ : Fin 100000) (⟨(j 1).val, hq⟩ : Fin 256) :=
    funext fun a => Fin.ext (by
      match a with
      | ⟨0, _⟩ => show win2_2.index t (0 : Fin 2) * 5000 + 1 * (j 0).val = t.val * 5000 + (j 0).val; rw [e0]; omega
      | ⟨1, _⟩ => show win2_2.index t (1 : Fin 2) * 256 + 1 * (j 1).val = (j 1).val; rw [e1]; omega)
  show Gen.k2_pay1 (F := Ideal) (Gen.iblk2 V c 0 t) (Gen.iblk2 V c 1 t) ((cfg2.win 2).xinj (grid2.coords t) j)
    = Cert.SumSpec.mm (n := 100000) (d := 256) (e := 256) (V c main_v115) (V c main_arg8) (((cfg2.win 2).blk t).view.emb j)
  rw [hsrc, hdst]
  exact stored_eq_product (V c main_v115) (V c main_arg8) (Gen.iblk2 V c 0 t) (Gen.iblk2 V c 1 t) t.val
    (x_block V c t) (w_block V c t) _ _ _ rfl

/-- An index of the result is in point t's block iff its row is one of rows 5000·t … 5000·t + 4999. -/
theorem mem_row_block (t : Fin cfg2.N) (i : S100000x256.Idx) :
    i ∈ ((cfg2.win 2).blk t).view.set ↔ ∀ a : Fin 2, win2_2.index t a * S5000x256.size a ≤ (i a).val
      ∧ (i a).val < win2_2.index t a * S5000x256.size a + S5000x256.size a := by
  show i ∈ ((View.whole main_v116).slice (win2_2.rect t)).set ↔ _
  rw [View.set_slice_whole, Rect.mem_set_unit]
  exact Iff.rfl

/-- Row r of the result is covered by point r / 5000. -/
theorem cover (i : S100000x256.Idx) :
    ∃ t : Fin cfg2.N, (cfg2.win 2).flush t = true ∧ i ∈ ((cfg2.win 2).blk t).view.set := by
  have hN : grid2.N = 20 := Gen.N_2
  have hi0 : (i 0).val < 100000 := (i 0).isLt
  have hi1 : (i 1).val < 256 := (i 1).isLt
  have hlt : (i 0).val / 5000 < cfg2.N := by show (i 0).val / 5000 < grid2.N; omega
  obtain ⟨-, -, -, -, e0, e1⟩ := block_indices ⟨(i 0).val / 5000, hlt⟩
  refine ⟨⟨(i 0).val / 5000, hlt⟩, Gen.flush2_2 _, ?_⟩
  rw [mem_row_block]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_2.index ⟨(i 0).val / 5000, hlt⟩ (1 : Fin 2) * 256 ≤ (i 1).val
      ∧ (i 1).val < win2_2.index ⟨(i 0).val / 5000, hlt⟩ (1 : Fin 2) * 256 + 256
    rw [e1]
    omega

/-- The result array after the region: the product of x and W as the region found them. -/
theorem arr (c : Dev nD) :
    (Gen.dat2 (F := Ideal) V c).arrAt 2 cfg2.N
      = Cert.SumSpec.mm (n := 100000) (d := 256) (e := 256) (V c main_v115) (V c main_arg8) :=
  (Gen.dat2 (F := Ideal) V c).arrAt_eq_of_cover 2
    (Cert.SumSpec.mm (n := 100000) (d := 256) (e := 256) (V c main_v115) (V c main_arg8))
    (fun t _ => flushed_eq V c t) cover

end Cert.KernelIdeal.LinearValue2

end
-- ==== Proof.ScorerValue.lean ====
/- The link predictor region, read as a function of the arrays it finds: for every edge row r, the positive score is the
   logistic function of  Σⱼ max (Σₖ zs(r,k)·Wtop(k,j) + Σₖ zd(r,k)·Wbot(k,j) + b1 j) 0 · w2(j,0) + b2 0,  and the negative score the
   same with the negative sample's row in place of the destination's.
   First the two stored values at an index, in the entries of the loaded blocks: each product into the zero block is the
   sum over the contracted coordinate, the format changes and same-shape casts are the identity on extended reals, the bias
   row and the output bias are broadcast over the rows, the rectifier is the maximum with zero. Then the blocks: block row p
   of a row operand at grid point t is row 2000 t + p of its array, the five small operands' blocks are their whole arrays,
   so what point t writes back is block t of the scorer; row r is written back by point r / 2000, so the 150 blocks cover
   the 300000 rows and each result array ends holding the scorer of the arrays as the region finds them. -/
import proofs.«148771_j31576599560908_2_alg».proof.Proof.Gen.KernelIdeal.Frame
import proofs.«148771_j31576599560908_2_alg».proof.Proof.SumSpec
import Idealize.ShloMosaic.Lib.ValueLayout
import Idealize.ShloMosaic.Lib.Pipeline.Value
import Idealize.ShloMosaic.PureOps.Ideal.Laws

noncomputable section

namespace Cert.KernelIdeal.ScorerValue

open Idealize.ShloMosaic Idealize.ShloMosaic.TcCoe Idealize.SL.Sem Idealize.ShloMosaic.ValueIdx
open Idealize.ShloMosaic.Pipeline (Dat)
open Cert.KernelIdeal Cert.KernelIdeal.Gen

/-! The operand indices of the product of a [2000,256] block with a [256,256] matrix: at output index (p, q) and
    contraction coordinate k the left operand is read at (p, k) and the right one at (k, q). -/
theorem lhsH_row (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhsH_contr (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhsH_contr (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhsH_col (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Accumulated into the zero block, the product at (p, q) is the sum over the 256 contracted coordinates. -/
theorem matmulH_apply (x : FVec Ideal S2000x256 .bf16) (w : FVec Ideal S256x256 .bf16) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) := by
  show FloatOps.matmul dot_S2000x256_S256x256_S2000x256_1_0_0_1_n_n none x w (constant (F := Ideal) S2000x256 .f32 0x00000000#32) (ix2 p q) = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhsH_row _ _
    | ⟨1, _⟩ => exact (lhsH_contr _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhsH_contr _ _).trans hk
    | ⟨1, _⟩ => exact rhsH_col _ _)
  rw [el, er]

/-! The operand indices of the product of a [2000,256] block with a [256,1] matrix: at output index (p, q) and
    contraction coordinate k the left operand is read at (p, k) and the right one at (k, q). -/
theorem lhsO_row (i : S2000x1.Idx) (q : dot_S2000x256_S256x1_S2000x1_1_0_0_1_n_n.contr.Idx) : (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem lhsO_contr (i : S2000x1.Idx) (q : dot_S2000x256_S256x1_S2000x1_1_0_0_1_n_n.contr.Idx) : (dot_S2000x256_S256x1_S2000x1_1_0_0_1_n_n.lhsIdx i q 1).val = (q ⟨0, by decide⟩).val :=
  dot_S2000x256_S256x1_S2000x1_1_0_0_1_n_n.lhsIdx_val_of_single rfl i q
theorem rhsO_contr (i : S2000x1.Idx) (q : dot_S2000x256_S256x1_S2000x1_1_0_0_1_n_n.contr.Idx) : (dot_S2000x256_S256x1_S2000x1_1_0_0_1_n_n.rhsIdx i q 0).val = (q ⟨0, by decide⟩).val :=
  dot_S2000x256_S256x1_S2000x1_1_0_0_1_n_n.rhsIdx_val_of_single rfl i q
theorem rhsO_col (i : S2000x1.Idx) (q : dot_S2000x256_S256x1_S2000x1_1_0_0_1_n_n.contr.Idx) : (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- Accumulated into the zero block, the product at (p, q) is the sum over the 256 contracted coordinates. -/
theorem matmulO_apply (x : FVec Ideal S2000x256 .bf16) (w : FVec Ideal S256x1 .bf16) (p : Fin 2000) (q : Fin 1) :
    matmul dot_S2000x256_S256x1_S2000x1_1_0_0_1_n_n none x w (constant (F := Ideal) S2000x1 .f32 0x00000000#32) (ix2 p q)
      = ∑ k : Fin 256, x (ix2 p k) * w (ix2 k q) := by
  show FloatOps.matmul dot_S2000x256_S256x1_S2000x1_1_0_0_1_n_n none x w (constant (F := Ideal) S2000x1 .f32 0x00000000#32) (ix2 p q) = _
  rw [Ideal.matmul_constant_zero_apply, ← Equiv.sum_comp (contrEquiv1 dot_S2000x256_S256x1_S2000x1_1_0_0_1_n_n 256 rfl rfl).symm]
  refine Finset.sum_congr rfl fun k _ => ?_
  have hk := contrEquiv1_symm_val dot_S2000x256_S256x1_S2000x1_1_0_0_1_n_n 256 rfl rfl k
  have el : dot_S2000x256_S256x1_S2000x1_1_0_0_1_n_n.lhsIdx (ix2 p q) ((contrEquiv1 dot_S2000x256_S256x1_S2000x1_1_0_0_1_n_n 256 rfl rfl).symm k) = ix2 p k := funext fun a => Fin.ext (by
    match a with
    | ⟨0, _⟩ => exact lhsO_row _ _
    | ⟨1, _⟩ => exact (lhsO_contr _ _).trans hk)
  have er : dot_S2000x256_S256x1_S2000x1_1_0_0_1_n_n.rhsIdx (ix2 p q) ((contrEquiv1 dot_S2000x256_S256x1_S2000x1_1_0_0_1_n_n 256 rfl rfl).symm k) = ix2 k q := funext fun a => Fin.ext (by
    match a with
    | ⟨0, _⟩ => exact (rhsO_contr _ _).trans hk
    | ⟨1, _⟩ => exact rhsO_col _ _)
  rw [el, er]

/-! ## The two stored values at an index, in the entries of the loaded blocks -/

/-- The logistic function of a block, entry by entry. -/
theorem logistic_apply {s : Shape} {φ : FTy} (a : FVec Ideal s φ) (i : s.Idx) : logistic a i = Ideal.logistic (a i) := rfl

/-- The second weight matrix passes to the product unchanged. -/
theorem wbot_apply (v9 : FVec Ideal S256x256 .f32) (k j : Fin 256) : k3_pay2 (F := Ideal) v9 (ix2 k j) = v9 (ix2 k j) := by
  unfold k3_pay2
  simp only [truncf_apply, shapeCast_self]

/-- The output weights pass to the product unchanged. -/
theorem wout_apply (v30 : FVec Ideal S256x1 .f32) (j : Fin 256) (z : Fin 1) : k3_pay5 (F := Ideal) v30 (ix2 j z) = v30 (ix2 j z) := by
  unfold k3_pay5
  simp only [truncf_apply]

/-- The source rows times the first weight matrix: at (p, j) the sum over k of block (p, k) times weight (k, j). -/
theorem srcProduct_apply (v0 : FVec Ideal S2000x256 .bf16) (v6 : FVec Ideal S256x256 .f32) (p : Fin 2000) (j : Fin 256) :
    k3_pay3 (F := Ideal) v0 v6 (ix2 p j) = ∑ k : Fin 256, v0 (ix2 p k) * v6 (ix2 k j) := by
  unfold k3_pay3
  simp only [shapeCast_self]
  exact matmulH_apply v0 _ p j

/-- The hidden layer at (p, j): the rectifier of the two products' sum plus the bias' entry j. -/
theorem hidden_apply (v0 v4 : FVec Ideal S2000x256 .bf16) (v6 v9 : FVec Ideal S256x256 .f32) (v15 : FVec Ideal S256 .f32)
    (p : Fin 2000) (j : Fin 256) :
    k3_pay4 (F := Ideal) v0 v4 v6 v9 v15 (ix2 p j)
      = max (((∑ k : Fin 256, v0 (ix2 p k) * v6 (ix2 k j)) + ∑ k : Fin 256, v4 (ix2 p k) * v9 (ix2 k j)) + v15 (ix1 j)) 0 := by
  unfold k3_pay4
  simp only [truncf_apply, maximumf_apply, addf_apply, broadcast_apply, shapeCast_self]
  refine congrArg₂ max (congrArg₂ (· + ·) (congrArg₂ (· + ·) (srcProduct_apply v0 v6 p j) ?_) ?_) Ideal.ofBits_zero_f32
  · refine (matmulH_apply v4 _ p j).trans (Finset.sum_congr rfl fun k _ => ?_)
    exact congrArg (v4 (ix2 p k) * ·) (wbot_apply v9 k j)
  · exact (broadcastTo_1b_ab_apply _ _ p j).trans (shapeCast_a_1a_apply v15 _ 0 j)

/-- The output unit at row p: the logistic function of the hidden row times the output weights, plus the output bias. -/
theorem output_apply (h : FVec Ideal S2000x256 .bf16) (w : FVec Ideal S256x1 .bf16) (b2 : FVec Ideal S1 .f32) (p : Fin 2000) (z : Fin 1) :
    k3_pay1 (F := Ideal) h w b2 (ix2 p z)
      = Ideal.logistic ((∑ j : Fin 256, h (ix2 p j) * w (ix2 j z)) + b2 (ix1 z)) := by
  unfold k3_pay1
  simp only [logistic_apply, addf_apply]
  refine congrArg Ideal.logistic (congrArg₂ (· + ·) (matmulO_apply h w p z) ?_)
  exact (broadcastTo_1b_ab_apply _ _ p z).trans (shapeCast_a_1a_apply b2 _ 0 z)

/-- The positive score's stored value is the output unit applied to the hidden layer of the source and destination rows. -/
theorem pos_eq (v0 v2 : FVec Ideal S2000x256 .bf16) (v6 v9 : FVec Ideal S256x256 .f32) (v15 : FVec Ideal S256 .f32)
    (v30 : FVec Ideal S256x1 .f32) (v32 : FVec Ideal S1 .f32) :
    k3_pay6 (F := Ideal) v0 v2 v6 v9 v15 v30 v32 = k3_pay1 (F := Ideal) (k3_pay4 (F := Ideal) v0 v2 v6 v9 v15) (k3_pay5 (F := Ideal) v30) v32 := rfl

/-- The score at block row p: the scorer's expression in the blocks' entries. -/
theorem score_apply (v0 v2 : FVec Ideal S2000x256 .bf16) (v6 v9 : FVec Ideal S256x256 .f32) (v15 : FVec Ideal S256 .f32)
    (v30 : FVec Ideal S256x1 .f32) (v32 : FVec Ideal S1 .f32) (p : Fin 2000) (z : Fin 1) :
    k3_pay1 (F := Ideal) (k3_pay4 (F := Ideal) v0 v2 v6 v9 v15) (k3_pay5 (F := Ideal) v30) v32 (ix2 p z)
      = Ideal.logistic ((∑ j : Fin 256, max (((∑ k : Fin 256, v0 (ix2 p k) * v6 (ix2 k j)) + ∑ k : Fin 256, v2 (ix2 p k) * v9 (ix2 k j)) + v15 (ix1 j)) 0
          * v30 (ix2 j z)) + v32 (ix1 z)) := by
  refine (output_apply _ _ v32 p z).trans ?_
  refine congrArg Ideal.logistic (congrArg (· + v32 (ix1 z)) (Finset.sum_congr rfl fun j _ => ?_))
  exact congrArg₂ (· * ·) (hidden_apply v0 v2 v6 v9 v15 p j) (wout_apply v30 j z)

/-! ## From the blocks to the arrays -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices over the grid: at point t the three row operands and the two results are at row block t, column
    block 0; the five small operands are whole, at block 0 on every axis. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0
    ∧ win3_7.index t (0 : Fin 1) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

/-- Row p of the src block at point t is row 2000 t + p of its array. -/
theorem src_read (c : Dev nD) (t : Fin cfg3.N) (p : Fin 2000) (r : Fin 300000) (hr : r.val = t.val * 2000 + p.val) (k : Fin 256) :
    (iblk3 (F := Ideal) V c 0 t : FVec Ideal S2000x256 .bf16) (ix2 p k) = (V c main_v141 : S300000x256.Idx → EReal) (ix2 r k) := by
  have e := block_index t
  unfold iblk3
  rw [View.read_apply]
  refine congrArg (V c main_v141) (funext fun a => Fin.ext ?_)
  match a with
  | ⟨0, _⟩ => show win3_0.index t (0 : Fin 2) * 2000 + 1 * p.val = r.val; omega
  | ⟨1, _⟩ => show win3_0.index t (1 : Fin 2) * 256 + 1 * k.val = k.val; omega

/-- Row p of the dst block at point t is row 2000 t + p of its array. -/
theorem dst_read (c : Dev nD) (t : Fin cfg3.N) (p : Fin 2000) (r : Fin 300000) (hr : r.val = t.val * 2000 + p.val) (k : Fin 256) :
    (iblk3 (F := Ideal) V c 1 t : FVec Ideal S2000x256 .bf16) (ix2 p k) = (V c main_v148 : S300000x256.Idx → EReal) (ix2 r k) := by
  have e := block_index t
  unfold iblk3
  rw [View.read_apply]
  refine congrArg (V c main_v148) (funext fun a => Fin.ext ?_)
  match a with
  | ⟨0, _⟩ => show win3_1.index t (0 : Fin 2) * 2000 + 1 * p.val = r.val; omega
  | ⟨1, _⟩ => show win3_1.index t (1 : Fin 2) * 256 + 1 * k.val = k.val; omega

/-- Row p of the neg block at point t is row 2000 t + p of its array. -/
theorem neg_read (c : Dev nD) (t : Fin cfg3.N) (p : Fin 2000) (r : Fin 300000) (hr : r.val = t.val * 2000 + p.val) (k : Fin 256) :
    (iblk3 (F := Ideal) V c 2 t : FVec Ideal S2000x256 .bf16) (ix2 p k) = (V c main_v155 : S300000x256.Idx → EReal) (ix2 r k) := by
  have e := block_index t
  unfold iblk3
  rw [View.read_apply]
  refine congrArg (V c main_v155) (funext fun a => Fin.ext ?_)
  match a with
  | ⟨0, _⟩ => show win3_2.index t (0 : Fin 2) * 2000 + 1 * p.val = r.val; omega
  | ⟨1, _⟩ => show win3_2.index t (1 : Fin 2) * 256 + 1 * k.val = k.val; omega

/-- The wtop operand's block at every point is its whole array. -/
theorem wtop_read (c : Dev nD) (t : Fin cfg3.N) (a : Fin 256) (b : Fin 256) :
    (iblk3 (F := Ideal) V c 3 t : FVec Ideal S256x256 .f32) (ix2 a b) = (V c main_v156 : S256x256.Idx → EReal) (ix2 a b) := by
  have e := block_index t
  unfold iblk3
  rw [View.read_apply]
  refine congrArg (V c main_v156) (funext fun d => Fin.ext ?_)
  match d with
  | ⟨0, _⟩ => show win3_3.index t (0 : Fin 2) * 256 + 1 * a.val = a.val; omega
  | ⟨1, _⟩ => show win3_3.index t (1 : Fin 2) * 256 + 1 * b.val = b.val; omega

/-- The wbot operand's block at every point is its whole array. -/
theorem wbot_read (c : Dev nD) (t : Fin cfg3.N) (a : Fin 256) (b : Fin 256) :
    (iblk3 (F := Ideal) V c 4 t : FVec Ideal S256x256 .f32) (ix2 a b) = (V c main_v157 : S256x256.Idx → EReal) (ix2 a b) := by
  have e := block_index t
  unfold iblk3
  rw [View.read_apply]
  refine congrArg (V c main_v157) (funext fun d => Fin.ext ?_)
  match d with
  | ⟨0, _⟩ => show win3_4.index t (0 : Fin 2) * 256 + 1 * a.val = a.val; omega
  | ⟨1, _⟩ => show win3_4.index t (1 : Fin 2) * 256 + 1 * b.val = b.val; omega

/-- The bias1 operand's block at every point is its whole array. -/
theorem bias1_read (c : Dev nD) (t : Fin cfg3.N) (a : Fin 256) :
    (iblk3 (F := Ideal) V c 5 t : FVec Ideal S256 .f32) (ix1 a) = (V c main_arg15 : S256.Idx → EReal) (ix1 a) := by
  have e := block_index t
  unfold iblk3
  rw [View.read_apply]
  refine congrArg (V c main_arg15) (funext fun d => Fin.ext ?_)
  match d with
  | ⟨0, _⟩ => show win3_5.index t (0 : Fin 1) * 256 + 1 * a.val = a.val; omega

/-- The wout operand's block at every point is its whole array. -/
theorem wout_read (c : Dev nD) (t : Fin cfg3.N) (a : Fin 256) (b : Fin 1) :
    (iblk3 (F := Ideal) V c 6 t : FVec Ideal S256x1 .f32) (ix2 a b) = (V c main_arg16 : S256x1.Idx → EReal) (ix2 a b) := by
  have e := block_index t
  unfold iblk3
  rw [View.read_apply]
  refine congrArg (V c main_arg16) (funext fun d => Fin.ext ?_)
  match d with
  | ⟨0, _⟩ => show win3_6.index t (0 : Fin 2) * 256 + 1 * a.val = a.val; omega
  | ⟨1, _⟩ => show win3_6.index t (1 : Fin 2) * 1 + 1 * b.val = b.val; omega

/-- The bias2 operand's block at every point is its whole array. -/
theorem bias2_read (c : Dev nD) (t : Fin cfg3.N) (a : Fin 1) :
    (iblk3 (F := Ideal) V c 7 t : FVec Ideal S1 .f32) (ix1 a) = (V c main_arg17 : S1.Idx → EReal) (ix1 a) := by
  have e := block_index t
  unfold iblk3
  rw [View.read_apply]
  refine congrArg (V c main_arg17) (funext fun d => Fin.ext ?_)
  match d with
  | ⟨0, _⟩ => show win3_7.index t (0 : Fin 1) * 1 + 1 * a.val = a.val; omega

/-! ## One row of a block against the scorer -/

/-- If block row p of the two row operands is row r of their arrays and the five small blocks are their arrays, the
    stored score at block row p is the scorer at row r. -/
theorem score_row (x0 x1 : FVec Ideal S2000x256 .bf16) (x3 x4 : FVec Ideal S256x256 .f32) (x5 : FVec Ideal S256 .f32)
    (x6 : FVec Ideal S256x1 .f32) (x7 : FVec Ideal S1 .f32)
    (za zb : S300000x256.Idx → EReal) (wt wb : S256x256.Idx → EReal) (b1 : S256.Idx → EReal) (w2 : S256x1.Idx → EReal) (b2 : S1.Idx → EReal)
    (p : Fin 2000) (r : Fin 300000) (z : Fin 1)
    (h0 : ∀ k : Fin 256, x0 (ix2 p k) = za (ix2 r k)) (h1 : ∀ k : Fin 256, x1 (ix2 p k) = zb (ix2 r k))
    (h3 : ∀ a b : Fin 256, x3 (ix2 a b) = wt (ix2 a b)) (h4 : ∀ a b : Fin 256, x4 (ix2 a b) = wb (ix2 a b))
    (h5 : ∀ a : Fin 256, x5 (ix1 a) = b1 (ix1 a)) (h6 : ∀ (a : Fin 256) (b : Fin 1), x6 (ix2 a b) = w2 (ix2 a b))
    (h7 : ∀ a : Fin 1, x7 (ix1 a) = b2 (ix1 a)) :
    k3_pay1 (F := Ideal) (k3_pay4 (F := Ideal) x0 x1 x3 x4 x5) (k3_pay5 (F := Ideal) x6) x7 (ix2 p z)
      = Cert.SumSpec.scorer (n := 300000) za zb wt wb b1 w2 b2 (ix2 r z) := by
  obtain rfl : z = 0 := Subsingleton.elim _ _
  rw [score_apply, Cert.SumSpec.scorer_apply]
  simp only [Cert.SumSpec.mm_apply, h0, h1, h3, h4, h5, h6, h7]

/-- What point t writes back of the pos scores is block t of the scorer of the arrays as the region finds them. -/
theorem pos_flushed (c : Dev nD) (t : Fin cfg3.N) :
    (dat3 (F := Ideal) V c).flushed 8 t = ((cfg3.win 8).blk t).view.read (Elt Ideal)
      (Cert.SumSpec.scorer (n := 300000) (V c main_v141) (V c main_v148) (V c main_v156) (V c main_v157) (V c main_arg15) (V c main_arg16) (V c main_arg17)) := by
  show (cfg3.win 8).cut (grid3.coords t) ((dat3 (F := Ideal) V c).after 8 t) = _
  rw [after3_8]
  unfold out3_8
  rw [View.canon_unit_zero zero2]
  simp only [View.ld_unit_zero (S := S2000x256) zero2, View.ld_unit_zero (S := S256x256) zero2, View.ld_unit_zero (S := S256) zero1,
    View.ld_unit_zero (S := S256x1) zero2, View.ld_unit_zero (S := S1) zero1]
  have e := block_index t
  have ht : t.val < 150 := Nat.lt_of_lt_of_eq t.isLt (N_3 : cfg3.N = 150)
  refine funext fun (y : S2000x1.Idx) => ?_
  obtain ⟨p, z, rfl⟩ : ∃ (p : Fin 2000) (z : Fin 1), y = ix2 p z := ⟨y 0, y 1, eq_ix2 y⟩
  have hp : p.val < 2000 := p.isLt
  have hemb : ((cfg3.win 8).blk t).view.emb (ix2 p z) = (ix2 (⟨t.val * 2000 + p.val, by omega⟩ : Fin 300000) z : S300000x1.Idx) :=
    funext fun a => Fin.ext (by
      match a with
      | ⟨0, _⟩ => show win3_8.index t (0 : Fin 2) * 2000 + 1 * p.val = t.val * 2000 + p.val; omega
      | ⟨1, _⟩ => show win3_8.index t (1 : Fin 2) * 1 + 1 * z.val = z.val; omega)
  rw [View.read_apply, hemb]
  rw [pos_eq]
  exact score_row (iblk3 (F := Ideal) V c 0 t) (iblk3 (F := Ideal) V c 1 t) (iblk3 (F := Ideal) V c 3 t) (iblk3 (F := Ideal) V c 4 t)
    (iblk3 (F := Ideal) V c 5 t) (iblk3 (F := Ideal) V c 6 t) (iblk3 (F := Ideal) V c 7 t)
    (V c main_v141) (V c main_v148) (V c main_v156) (V c main_v157) (V c main_arg15) (V c main_arg16) (V c main_arg17)
    p ⟨t.val * 2000 + p.val, by omega⟩ z
    (fun k => src_read V c t p _ rfl k) (fun k => dst_read V c t p _ rfl k)
    (wtop_read V c t) (wbot_read V c t) (bias1_read V c t) (wout_read V c t) (bias2_read V c t)

/-- An index of the pos scores' array is in point t's block iff each coordinate is in the block's range. -/
theorem mem_pos_block (t : Fin cfg3.N) (i : S300000x1.Idx) :
    i ∈ ((cfg3.win 8).blk t).view.set ↔ ∀ a : Fin 2, win3_8.index t a * S2000x1.size a ≤ (i a).val ∧ (i a).val < win3_8.index t a * S2000x1.size a + S2000x1.size a := by
  show i ∈ ((View.whole main_v158_0).slice (win3_8.rect t)).set ↔ _
  rw [View.set_slice_whole, Rect.mem_set_unit]
  exact Iff.rfl

/-- Row r of the pos scores is written back by point r / 2000. -/
theorem pos_cover (i : S300000x1.Idx) : ∃ t : Fin cfg3.N, (cfg3.win 8).flush t = true ∧ i ∈ ((cfg3.win 8).blk t).view.set := by
  have hi0 : (i 0).val < 300000 := (i 0).isLt
  have hi1 : (i 1).val < 1 := (i 1).isLt
  obtain ⟨t, ht⟩ : ∃ t : Fin cfg3.N, t.val = (i 0).val / 2000 := ⟨⟨(i 0).val / 2000, by rw [show cfg3.N = 150 from N_3]; omega⟩, rfl⟩
  have e := block_index t
  refine ⟨t, flush3_8 t, ?_⟩
  rw [mem_pos_block]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 1 ≤ (i 1).val ∧ (i 1).val < win3_8.index t (1 : Fin 2) * 1 + 1; omega

/-- What point t writes back of the neg scores is block t of the scorer of the arrays as the region finds them. -/
theorem neg_flushed (c : Dev nD) (t : Fin cfg3.N) :
    (dat3 (F := Ideal) V c).flushed 9 t = ((cfg3.win 9).blk t).view.read (Elt Ideal)
      (Cert.SumSpec.scorer (n := 300000) (V c main_v141) (V c main_v155) (V c main_v156) (V c main_v157) (V c main_arg15) (V c main_arg16) (V c main_arg17)) := by
  show (cfg3.win 9).cut (grid3.coords t) ((dat3 (F := Ideal) V c).after 9 t) = _
  rw [after3_9]
  unfold out3_9
  rw [View.canon_unit_zero zero2]
  simp only [View.ld_unit_zero (S := S2000x256) zero2, View.ld_unit_zero (S := S256x256) zero2, View.ld_unit_zero (S := S256) zero1,
    View.ld_unit_zero (S := S256x1) zero2, View.ld_unit_zero (S := S1) zero1]
  have e := block_index t
  have ht : t.val < 150 := Nat.lt_of_lt_of_eq t.isLt (N_3 : cfg3.N = 150)
  refine funext fun (y : S2000x1.Idx) => ?_
  obtain ⟨p, z, rfl⟩ : ∃ (p : Fin 2000) (z : Fin 1), y = ix2 p z := ⟨y 0, y 1, eq_ix2 y⟩
  have hp : p.val < 2000 := p.isLt
  have hemb : ((cfg3.win 9).blk t).view.emb (ix2 p z) = (ix2 (⟨t.val * 2000 + p.val, by omega⟩ : Fin 300000) z : S300000x1.Idx) :=
    funext fun a => Fin.ext (by
      match a with
      | ⟨0, _⟩ => show win3_9.index t (0 : Fin 2) * 2000 + 1 * p.val = t.val * 2000 + p.val; omega
      | ⟨1, _⟩ => show win3_9.index t (1 : Fin 2) * 1 + 1 * z.val = z.val; omega)
  rw [View.read_apply, hemb]

  exact score_row (iblk3 (F := Ideal) V c 0 t) (iblk3 (F := Ideal) V c 2 t) (iblk3 (F := Ideal) V c 3 t) (iblk3 (F := Ideal) V c 4 t)
    (iblk3 (F := Ideal) V c 5 t) (iblk3 (F := Ideal) V c 6 t) (iblk3 (F := Ideal) V c 7 t)
    (V c main_v141) (V c main_v155) (V c main_v156) (V c main_v157) (V c main_arg15) (V c main_arg16) (V c main_arg17)
    p ⟨t.val * 2000 + p.val, by omega⟩ z
    (fun k => src_read V c t p _ rfl k) (fun k => neg_read V c t p _ rfl k)
    (wtop_read V c t) (wbot_read V c t) (bias1_read V c t) (wout_read V c t) (bias2_read V c t)

/-- An index of the neg scores' array is in point t's block iff each coordinate is in the block's range. -/
theorem mem_neg_block (t : Fin cfg3.N) (i : S300000x1.Idx) :
    i ∈ ((cfg3.win 9).blk t).view.set ↔ ∀ a : Fin 2, win3_9.index t a * S2000x1.size a ≤ (i a).val ∧ (i a).val < win3_9.index t a * S2000x1.size a + S2000x1.size a := by
  show i ∈ ((View.whole main_v158_1).slice (win3_9.rect t)).set ↔ _
  rw [View.set_slice_whole, Rect.mem_set_unit]
  exact Iff.rfl

/-- Row r of the neg scores is written back by point r / 2000. -/
theorem neg_cover (i : S300000x1.Idx) : ∃ t : Fin cfg3.N, (cfg3.win 9).flush t = true ∧ i ∈ ((cfg3.win 9).blk t).view.set := by
  have hi0 : (i 0).val < 300000 := (i 0).isLt
  have hi1 : (i 1).val < 1 := (i 1).isLt
  obtain ⟨t, ht⟩ : ∃ t : Fin cfg3.N, t.val = (i 0).val / 2000 := ⟨⟨(i 0).val / 2000, by rw [show cfg3.N = 150 from N_3]; omega⟩, rfl⟩
  have e := block_index t
  refine ⟨t, flush3_9 t, ?_⟩
  rw [mem_neg_block]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 1 ≤ (i 1).val ∧ (i 1).val < win3_9.index t (1 : Fin 2) * 1 + 1; omega

/-! ## The two result arrays after the region -/

/-- The positive scores: the scorer of the source and destination rows. -/
theorem arr_pos (c : Dev nD) : (dat3 (F := Ideal) V c).arrAt 8 cfg3.N
    = Cert.SumSpec.scorer (n := 300000) (V c main_v141) (V c main_v148) (V c main_v156) (V c main_v157) (V c main_arg15) (V c main_arg16) (V c main_arg17) :=
  (dat3 (F := Ideal) V c).arrAt_eq_of_cover 8 _ (fun t _ => pos_flushed V c t) pos_cover

/-- The negative scores: the scorer of the source and negative-sample rows. -/
theorem arr_neg (c : Dev nD) : (dat3 (F := Ideal) V c).arrAt 9 cfg3.N
    = Cert.SumSpec.scorer (n := 300000) (V c main_v141) (V c main_v155) (V c main_v156) (V c main_v157) (V c main_arg15) (V c main_arg16) (V c main_arg17) :=
  (dat3 (F := Ideal) V c).arrAt_eq_of_cover 9 _ (fun t _ => neg_flushed V c t) neg_cover

end Cert.KernelIdeal.ScorerValue

end
-- ==== Proof.ScorerLaw.lean ====
/- The reference's two matrix-product stages on the extended reals, entry by entry. A product of an [n, d] array with a
   [d, e] array is, at (r, c), the sum over the d contracted coordinates k of x (r, k) · w (k, c); so the node-feature
   product is the specification's matrix product. The reference's edge scorer joins the two endpoint embeddings
   [300000, 256] side by side into [300000, 512] and multiplies by the whole first weight matrix [512, 256]; the
   specification multiplies each embedding by its own half of that matrix (rows 0–255 and rows 256–511) and adds. The two
   agree because a sum over 512 coordinates is the sum over the first 256 plus the sum over the last 256 — only the
   associativity and commutativity of + on the extended reals, no finiteness. Around that: the bias vector [256] read as a
   row repeated down the rows, the rectifier as a maximum with zero, the second product over the 256 hidden units, the
   one-entry bias repeated down the rows, and 1 / (1 + e^(-y)), which is the logistic function by definition. -/
import proofs.«148771_j31576599560908_2_alg».proof.Proof.Stages
import proofs.«148771_j31576599560908_2_alg».proof.Proof.SumSpec
import proofs.«148771_j31576599560908_2_alg».proof.Proof.Gen.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ScorerLaw

open Idealize.ShloMosaic Idealize.ShloMosaic.ValueIdx Idealize.SL.Sem Cert.ReferenceIdeal Cert.ReferenceIdeal.Facts₀ Cert.Stages Cert.SumSpec

/-! ### The product of the node features [100000, 256] with a weight matrix [256, 256] -/

theorem dotNode_lhs0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide),
    dif_pos (show (0 : Fin S100000x256.rank) ∈ dot_S100000x256_S256x256_S100000x256_1_0_0_1_n_n.lhsNonContracting by decide)]
  rfl
theorem dotNode_lhs1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
theorem dotNode_rhs0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
theorem dotNode_rhs1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide),
    dif_pos (show (1 : Fin S256x256.rank) ∈ dot_S100000x256_S256x256_S100000x256_1_0_0_1_n_n.rhsNonContracting by decide)]
  rfl

/-- At entry `(r, c)` the product is the sum over the 256 contracted coordinates `k` of `x (r, k) · w (k, c)`. -/
theorem dotNode_apply (x : FVec Ideal S100000x256 .f32) (w : FVec Ideal S256x256 .f32) (r : Fin 100000) (c : Fin 256) :
    Host.dotGeneral (F := Ideal) dot_S100000x256_S256x256_S100000x256_1_0_0_1_n_n none x w (ix2 r c)
      = ∑ k : Fin 256, x (ix2 r k) * w (ix2 k c) := by
  simp only [Host.dotGeneral]
  rw [Ideal.dotGeneral_apply, ← Equiv.sum_comp (contrEquiv1 dot_S100000x256_S256x256_S100000x256_1_0_0_1_n_n 256 rfl rfl).symm]
  refine Finset.sum_congr rfl fun k _ => ?_
  have hk := contrEquiv1_symm_val dot_S100000x256_S256x256_S100000x256_1_0_0_1_n_n 256 rfl rfl k
  have el : dot_S100000x256_S256x256_S100000x256_1_0_0_1_n_n.lhsIdx (ix2 r c) ((contrEquiv1 dot_S100000x256_S256x256_S100000x256_1_0_0_1_n_n 256 rfl rfl).symm k) = ix2 r k :=
    funext fun a => Fin.ext (by
      match a with
      | ⟨0, _⟩ => exact dotNode_lhs0 _ _
      | ⟨1, _⟩ => exact (dotNode_lhs1 _ _).trans hk)
  have er : dot_S100000x256_S256x256_S100000x256_1_0_0_1_n_n.rhsIdx (ix2 r c) ((contrEquiv1 dot_S100000x256_S256x256_S100000x256_1_0_0_1_n_n 256 rfl rfl).symm k) = ix2 k c :=
    funext fun a => Fin.ext (by
      match a with
      | ⟨0, _⟩ => exact (dotNode_rhs0 _ _).trans hk
      | ⟨1, _⟩ => exact dotNode_rhs1 _ _)
  rw [el, er]

/-- The node-feature product is the specification's matrix product. -/
theorem dot_eq_mm (x : Cert.Stages.FArr Ideal Cert.ReferenceIdeal.S100000x256) (w : Cert.Stages.FArr Ideal Cert.ReferenceIdeal.S256x256) :
    Host.dotGeneral (F := Ideal) (φ₁ := .f32) (φ₂ := .f32) Cert.ReferenceIdeal.dot_S100000x256_S256x256_S100000x256_1_0_0_1_n_n none x w
      = Cert.SumSpec.mm (n := 100000) (d := 256) (e := 256) x w := by
  funext i
  obtain ⟨r, c, rfl⟩ : ∃ (r : Fin 100000) (c : Fin 256), i = ix2 r c := ⟨i 0, i 1, eq_ix2 i⟩
  exact dotNode_apply x w r c

/-! ### The product of the paired endpoint embeddings [300000, 512] with the first weight matrix [512, 256] -/

theorem dotEdge_lhs0 (i : S300000x256.Idx) (q : dot_S300000x512_S512x256_S300000x256_1_0_0_1_n_n.contr.Idx) :
    (dot_S300000x512_S512x256_S300000x256_1_0_0_1_n_n.lhsIdx i q 0).val = (i 0).val := by
  unfold DotDims.lhsIdx
  rw [dif_neg (show ¬(0 : Fin S300000x512.rank) ∈ dot_S300000x512_S512x256_S300000x256_1_0_0_1_n_n.lhsBatch by decide),
    dif_pos (show (0 : Fin S300000x512.rank) ∈ dot_S300000x512_S512x256_S300000x256_1_0_0_1_n_n.lhsNonContracting by decide)]
  rfl
theorem dotEdge_lhs1 (i : S300000x256.Idx) (q : dot_S300000x512_S512x256_S300000x256_1_0_0_1_n_n.contr.Idx) :
    (dot_S300000x512_S512x256_S300000x256_1_0_0_1_n_n.lhsIdx i q 1).val = (q ⟨0, by decide⟩).val :=
  dot_S300000x512_S512x256_S300000x256_1_0_0_1_n_n.lhsIdx_val_of_single rfl i q
theorem dotEdge_rhs0 (i : S300000x256.Idx) (q : dot_S300000x512_S512x256_S300000x256_1_0_0_1_n_n.contr.Idx) :
    (dot_S300000x512_S512x256_S300000x256_1_0_0_1_n_n.rhsIdx i q 0).val = (q ⟨0, by decide⟩).val :=
  dot_S300000x512_S512x256_S300000x256_1_0_0_1_n_n.rhsIdx_val_of_single rfl i q
theorem dotEdge_rhs1 (i : S300000x256.Idx) (q : dot_S300000x512_S512x256_S300000x256_1_0_0_1_n_n.contr.Idx) :
    (dot_S300000x512_S512x256_S300000x256_1_0_0_1_n_n.rhsIdx i q 1).val = (i 1).val := by
  unfold DotDims.rhsIdx
  rw [dif_neg (show ¬(1 : Fin S512x256.rank) ∈ dot_S300000x512_S512x256_S300000x256_1_0_0_1_n_n.rhsBatch by decide),
    dif_pos (show (1 : Fin S512x256.rank) ∈ dot_S300000x512_S512x256_S300000x256_1_0_0_1_n_n.rhsNonContracting by decide)]
  rfl

/-- At entry `(r, c)` the product is the sum over the 512 contracted coordinates `k` of `x (r, k) · w (k, c)`. -/
theorem dotEdge_apply (x : FVec Ideal S300000x512 .f32) (w : FVec Ideal S512x256 .f32) (r : Fin 300000) (c : Fin 256) :
    Host.dotGeneral (F := Ideal) dot_S300000x512_S512x256_S300000x256_1_0_0_1_n_n none x w (ix2 r c)
      = ∑ k : Fin 512, x (ix2 r k) * w (ix2 k c) := by
  simp only [Host.dotGeneral]
  rw [Ideal.dotGeneral_apply, ← Equiv.sum_comp (contrEquiv1 dot_S300000x512_S512x256_S300000x256_1_0_0_1_n_n 512 rfl rfl).symm]
  refine Finset.sum_congr rfl fun k _ => ?_
  have hk := contrEquiv1_symm_val dot_S300000x512_S512x256_S300000x256_1_0_0_1_n_n 512 rfl rfl k
  have el : dot_S300000x512_S512x256_S300000x256_1_0_0_1_n_n.lhsIdx (ix2 r c) ((contrEquiv1 dot_S300000x512_S512x256_S300000x256_1_0_0_1_n_n 512 rfl rfl).symm k) = ix2 r k :=
    funext fun a => Fin.ext (by
      match a with
      | ⟨0, _⟩ => exact dotEdge_lhs0 _ _
      | ⟨1, _⟩ => exact (dotEdge_lhs1 _ _).trans hk)
  have er : dot_S300000x512_S512x256_S300000x256_1_0_0_1_n_n.rhsIdx (ix2 r c) ((contrEquiv1 dot_S300000x512_S512x256_S300000x256_1_0_0_1_n_n 512 rfl rfl).symm k) = ix2 k c :=
    funext fun a => Fin.ext (by
      match a with
      | ⟨0, _⟩ => exact (dotEdge_rhs0 _ _).trans hk
      | ⟨1, _⟩ => exact dotEdge_rhs1 _ _)
  rw [el, er]

/-! ### The product of the hidden layer [300000, 256] with the second weight matrix [256, 1] -/

theorem dotOut_lhs0 (i : S300000x1.Idx) (q : dot_S300000x256_S256x1_S300000x1_1_0_0_1_n_n.contr.Idx) :
    (dot_S300000x256_S256x1_S300000x1_1_0_0_1_n_n.lhsIdx i q 0).val = (i 0).val := by
  unfold DotDims.lhsIdx
  rw [dif_neg (show ¬(0 : Fin S300000x256.rank) ∈ dot_S300000x256_S256x1_S300000x1_1_0_0_1_n_n.lhsBatch by decide),
    dif_pos (show (0 : Fin S300000x256.rank) ∈ dot_S300000x256_S256x1_S300000x1_1_0_0_1_n_n.lhsNonContracting by decide)]
  rfl
theorem dotOut_lhs1 (i : S300000x1.Idx) (q : dot_S300000x256_S256x1_S300000x1_1_0_0_1_n_n.contr.Idx) :
    (dot_S300000x256_S256x1_S300000x1_1_0_0_1_n_n.lhsIdx i q 1).val = (q ⟨0, by decide⟩).val :=
  dot_S300000x256_S256x1_S300000x1_1_0_0_1_n_n.lhsIdx_val_of_single rfl i q
theorem dotOut_rhs0 (i : S300000x1.Idx) (q : dot_S300000x256_S256x1_S300000x1_1_0_0_1_n_n.contr.Idx) :
    (dot_S300000x256_S256x1_S300000x1_1_0_0_1_n_n.rhsIdx i q 0).val = (q ⟨0, by decide⟩).val :=
  dot_S300000x256_S256x1_S300000x1_1_0_0_1_n_n.rhsIdx_val_of_single rfl i q
theorem dotOut_rhs1 (i : S300000x1.Idx) (q : dot_S300000x256_S256x1_S300000x1_1_0_0_1_n_n.contr.Idx) :
    (dot_S300000x256_S256x1_S300000x1_1_0_0_1_n_n.rhsIdx i q 1).val = (i 1).val := by
  unfold DotDims.rhsIdx
  rw [dif_neg (show ¬(1 : Fin S256x1.rank) ∈ dot_S300000x256_S256x1_S300000x1_1_0_0_1_n_n.rhsBatch by decide),
    dif_pos (show (1 : Fin S256x1.rank) ∈ dot_S300000x256_S256x1_S300000x1_1_0_0_1_n_n.rhsNonContracting by decide)]
  rfl

/-- At entry `(r, c)` the product is the sum over the 256 contracted coordinates `k` of `x (r, k) · w (k, c)`. -/
theorem dotOut_apply (x : FVec Ideal S300000x256 .f32) (w : FVec Ideal S256x1 .f32) (r : Fin 300000) (c : Fin 1) :
    Host.dotGeneral (F := Ideal) dot_S300000x256_S256x1_S300000x1_1_0_0_1_n_n none x w (ix2 r c)
      = ∑ k : Fin 256, x (ix2 r k) * w (ix2 k c) := by
  simp only [Host.dotGeneral]
  rw [Ideal.dotGeneral_apply, ← Equiv.sum_comp (contrEquiv1 dot_S300000x256_S256x1_S300000x1_1_0_0_1_n_n 256 rfl rfl).symm]
  refine Finset.sum_congr rfl fun k _ => ?_
  have hk := contrEquiv1_symm_val dot_S300000x256_S256x1_S300000x1_1_0_0_1_n_n 256 rfl rfl k
  have el : dot_S300000x256_S256x1_S300000x1_1_0_0_1_n_n.lhsIdx (ix2 r c) ((contrEquiv1 dot_S300000x256_S256x1_S300000x1_1_0_0_1_n_n 256 rfl rfl).symm k) = ix2 r k :=
    funext fun a => Fin.ext (by
      match a with
      | ⟨0, _⟩ => exact dotOut_lhs0 _ _
      | ⟨1, _⟩ => exact (dotOut_lhs1 _ _).trans hk)
  have er : dot_S300000x256_S256x1_S300000x1_1_0_0_1_n_n.rhsIdx (ix2 r c) ((contrEquiv1 dot_S300000x256_S256x1_S300000x1_1_0_0_1_n_n 256 rfl rfl).symm k) = ix2 k c :=
    funext fun a => Fin.ext (by
      match a with
      | ⟨0, _⟩ => exact (dotOut_rhs0 _ _).trans hk
      | ⟨1, _⟩ => exact dotOut_rhs1 _ _)
  rw [el, er]

/-! ### The layout operations of the scorer, read at an entry -/

/-- The two endpoint arrays side by side: among the 512 columns the first 256 are the first array's … -/
theorem concat_left {α : Type} (za zb : S300000x256.Idx → α) (r : Fin 300000) (k : Fin 256) :
    concatenate S300000x512 1 [⟨S300000x256, za⟩, ⟨S300000x256, zb⟩] concatenates_S300000x256_S300000x256_S300000x512_d1
      (ix2 r (⟨k.val, by omega⟩ : Fin 512)) = za (ix2 r k) :=
  concatenate_pair_apply_left (t := S300000x512) 1 za zb concatenates_S300000x256_S300000x256_S300000x512_d1
    (ix2 r (⟨k.val, by omega⟩ : Fin 512)) rfl (ix2 r k) (fun b => by
    match b with
    | ⟨0, _⟩ => rfl
    | ⟨1, _⟩ => rfl)

/-- … and the last 256 the second array's. -/
theorem concat_right {α : Type} (za zb : S300000x256.Idx → α) (r : Fin 300000) (k : Fin 256) :
    concatenate S300000x512 1 [⟨S300000x256, za⟩, ⟨S300000x256, zb⟩] concatenates_S300000x256_S300000x256_S300000x512_d1
      (ix2 r (⟨256 + k.val, by omega⟩ : Fin 512)) = zb (ix2 r k) :=
  concatenate_pair_apply_right (t := S300000x512) 1 za zb concatenates_S300000x256_S300000x256_S300000x512_d1
    (ix2 r (⟨256 + k.val, by omega⟩ : Fin 512)) rfl rfl (ix2 r k) (fun b hb => by
    match b, hb with
    | ⟨0, _⟩, _ => rfl
    | ⟨1, _⟩, hb => exact absurd rfl hb)
    (by show k.val + 256 = 256 + k.val; omega)

/-- A length-256 vector laid out as one row and repeated down the 300000 rows reads, at `(r, j)`, its entry `j`. -/
theorem biasRow_apply {α : Type} (c : S256.Idx → α) (r : Fin 300000) (j : Fin 256) :
    broadcastInDim S300000x256 ![0, 1] bcast_S1x256_S300000x256_0_1 (broadcastInDim S1x256 ![1] bcast_S256_S1x256_1 c) (ix2 r j)
      = c (ix1 j) := by
  refine (broadcastInDim_apply _ _ _ (ix2 r j) (ix2 (0 : Fin 1) j) fun a => ?_).trans
    (broadcastInDim_apply _ _ c (ix2 (0 : Fin 1) j) (ix1 j) fun a => ?_)
  · match a with
    | ⟨0, _⟩ => rfl
    | ⟨1, _⟩ => rfl
  · match a with
    | ⟨0, _⟩ => rfl

/-- A one-entry vector laid out as a 1 × 1 matrix and repeated down the 300000 rows reads its one entry everywhere. -/
theorem biasOne_apply {α : Type} (c : S1.Idx → α) (r : Fin 300000) (z : Fin 1) :
    broadcastInDim S300000x1 ![0, 1] bcast_S1x1_S300000x1_0_1 (broadcastInDim S1x1 ![1] bcast_S1_S1x1_1 c) (ix2 r z)
      = c (ix1 (0 : Fin 1)) := by
  refine (broadcastInDim_apply _ _ _ (ix2 r z) (ix2 (0 : Fin 1) (0 : Fin 1)) fun a => ?_).trans
    (broadcastInDim_apply _ _ c (ix2 (0 : Fin 1) (0 : Fin 1)) (ix1 (0 : Fin 1)) fun a => ?_)
  · match a with
    | ⟨0, _⟩ => rfl
    | ⟨1, _⟩ => rfl
  · match a with
    | ⟨0, _⟩ => rfl

/-- A scalar constant repeated over any shape reads, everywhere, the extended real its word denotes. -/
theorem splat_apply {T : Shape} (h : S_.BroadcastsInDim T ![]) (b : BitVec FTy.f32.bits) (j : T.Idx) :
    broadcastInDim T ![] h (constant (F := Ideal) S_ .f32 b) j = Ideal.ofBits .f32 b :=
  broadcastInDim_scalar_apply h _ j

/-- A sum over 512 coordinates is the sum over the first 256 plus the sum over the last 256. -/
theorem sum_halves (f : Fin 512 → EReal) :
    ∑ k : Fin 512, f k = ∑ k : Fin 256, f ⟨k.val, by omega⟩ + ∑ k : Fin 256, f ⟨256 + k.val, by omega⟩ :=
  Fin.sum_univ_add (a := 256) (b := 256) f

/-! ### The host's exponential and negation at an entry -/

/-- The host's exponential at an entry is the exponential of the entry. -/
theorem hostExp_apply {s : Shape} {φ : FTy} (a : FVec Ideal s φ) (i : s.Idx) : Host.exp a i = Ideal.exp (a i) := rfl
/-- The host's negation at an entry is the negation of the entry. -/
theorem hostNegf_apply {s : Shape} {φ : FTy} (a : FVec Ideal s φ) (i : s.Idx) : Host.negf a i = -(a i) := rfl

/-! ### The reference's scorer is the specification's -/

/-- The reference's scorer over whole arrays is the specification's scorer, flattened: at row `r` both are the logistic
    function of `Σⱼ max (Σₖ za (r,k)·wt (k,j) + Σₖ zb (r,k)·wb (k,j) + c1 j) 0 · w2 (j,0) + c2 0`, where `wt` and `wb` are the
    first and the last 256 rows of `w1`. -/
theorem scoreRef_eq (za zb : FArr Ideal S300000x256) (w1 : FArr Ideal S512x256) (c1 : FArr Ideal S256) (w2 : FArr Ideal S256x1)
    (c2 : FArr Ideal S1) (wt wb : FArr Ideal S256x256)
    (hwt : ∀ (k j : Fin 256), wt (ix2 k j) = w1 (ix2 ⟨k.val, by omega⟩ j))
    (hwb : ∀ (k j : Fin 256), wb (ix2 k j) = w1 (ix2 ⟨256 + k.val, by omega⟩ j)) :
    Cert.Stages.scoreRef (F := Ideal) za zb w1 c1 w2 c2
      = shapeCast S300000 (Cert.SumSpec.scorer (n := 300000) za zb wt wb c1 w2 c2) shapeCasts_S300000x1_S300000 := by
  unfold Cert.Stages.scoreRef
  refine congrArg (fun v => shapeCast S300000 v shapeCasts_S300000x1_S300000) (funext fun i => ?_)
  obtain ⟨r, z, rfl⟩ : ∃ (r : Fin 300000) (z : Fin 1), i = ix2 r z := ⟨i 0, i 1, eq_ix2 i⟩
  obtain rfl : z = 0 := Subsingleton.elim _ _
  rw [scorer_apply]
  simp only [hostDivf_apply, addf_apply, hostExp_apply, hostNegf_apply, splat_apply, Ideal.ofBits_one_f32, dotOut_apply, biasOne_apply]
  rw [splat_apply, biasOne_apply, Ideal.ofBits_one_f32]
  unfold Ideal.logistic
  refine congrArg (fun y => Ideal.div 1 (1 + Ideal.exp (-(y + c2 (ix1 (0 : Fin 1)))))) (Finset.sum_congr rfl fun j _ => ?_)
  refine congrArg (fun y => y * w2 (ix2 j (0 : Fin 1))) ?_
  rw [maximumf_apply, addf_apply, dotEdge_apply, biasRow_apply, splat_apply, Ideal.ofBits_zero_f32, sum_halves, mm_apply, mm_apply]
  refine congrArg (fun y : EReal => max (y + (c1 (ix1 j) : EReal)) 0) ?_
  refine congrArg₂ (fun a b : EReal => a + b) (Finset.sum_congr rfl fun k _ => ?_) (Finset.sum_congr rfl fun k _ => ?_)
  · rw [concat_left, hwt]
  · rw [concat_right, hwb]

end Cert.ScorerLaw

end
-- ==== Proof.SliceLaw.lean ====
/- The two halves of a [512, 256] matrix: its unit-stride slice at rows 0 … 255 reads the matrix at (k, j), its slice at
   rows 256 … 511 reads it at (256 + k, j) — each for any witness of the slice's shape condition. -/
import proofs.«148771_j31576599560908_2_alg».proof.Proof.Gen.KernelIdeal
import Idealize.ShloMosaic.Lib.Pipeline.Value
import Idealize.ShloMosaic.Lib.ValueIdx

noncomputable section

namespace Cert.KernelIdeal.SliceLaw

open Cert.KernelIdeal Idealize.ShloMosaic Idealize.ShloMosaic.ValueIdx

variable {F : FTy → Type}

/-- The top half at (k, j) is the matrix at (k, j). -/
theorem top_apply (w : (⟨S512x256, .f32⟩ : BufTy).Contents (Elt F)) (h : S512x256.Slices ![0, 0] S256x256) (k j : Fin 256) :
    extractStridedSlice S256x256 ![0, 0] w h (ix2 k j) = w (ix2 (⟨k.val, by omega⟩ : Fin 512) j) :=
  extractStridedSlice_apply ![0, 0] w h (ix2 k j) (ix2 (⟨k.val, by omega⟩ : Fin 512) j) fun a => by
    match a with
    | ⟨0, _⟩ => show k.val = 0 + k.val; omega
    | ⟨1, _⟩ => show j.val = 0 + j.val; omega

/-- The bottom half at (k, j) is the matrix at (256 + k, j). -/
theorem bot_apply (w : (⟨S512x256, .f32⟩ : BufTy).Contents (Elt F)) (h : S512x256.Slices ![256, 0] S256x256) (k j : Fin 256) :
    extractStridedSlice S256x256 ![256, 0] w h (ix2 k j) = w (ix2 (⟨256 + k.val, by omega⟩ : Fin 512) j) :=
  extractStridedSlice_apply ![256, 0] w h (ix2 k j) (ix2 (⟨256 + k.val, by omega⟩ : Fin 512) j) fun a => by
    match a with
    | ⟨0, _⟩ => show 256 + k.val = 256 + k.val; rfl
    | ⟨1, _⟩ => show j.val = 0 + j.val; omega

end Cert.KernelIdeal.SliceLaw

end
-- ==== Proof.LibAfterAppend.lean ====
/-
  A straight line of host operations acts on the buffers' contents by a fold: each operation rewrites the buffers it
  writes and leaves the rest. This file has the one general fact that lets such a line be read in stages: the fold over
  two lines run one after the other is the fold over the second line, started from the fold over the first. With it a long
  program's final contents are computed stage by stage — name the contents at each cut, read each stage's result buffer
  from the contents before the stage, carry the buffers the stage does not write — instead of as one composed term.
-/
import Idealize.ShloMosaic.Lib.StableHlo.Run

noncomputable section

namespace Cert.LibAfterAppend

open Idealize.ShloMosaic Idealize.ShloMosaic.StableHlo

variable {nD : Nat} {τ : Topo} {sig : RefSig} {Val : EltTy → Type}

/-- The fold over two lines of operations one after the other is the fold over the second from the fold over the
    first, for any operations and any contents. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend

end
-- ==== Proof.RefStages.lean ====
/- The reference program read in four stages, for any float instance: its 303 host operations cut after the first
   hidden layer, after the second, and after the last layer's embeddings; what each stage leaves as ONE function (the stages
   of Stages.lean) of the contents it starts from; the buffers each stage leaves alone; the two results as the composed
   function of the argument arrays; and the run: every weakly fair execution terminates with the two results at that
   function of the launch contents and the arguments unchanged. -/
import proofs.«148771_j31576599560908_2_alg».proof.Proof.RefOps
import proofs.«148771_j31576599560908_2_alg».proof.Proof.Stages
import proofs.«148771_j31576599560908_2_alg».proof.Proof.LibAfterAppend

set_option maxRecDepth 16384

noncomputable section

namespace Cert.ReferenceIdeal.RefStages

open Cert.ReferenceIdeal Cert.ReferenceIdeal.Gen Cert.ReferenceIdeal.RunP
open Idealize.ShloMosaic Idealize.ShloMosaic.TcCoe Idealize.SL.Sem Idealize.ShloMosaic.StableHlo
open Cert.Stages Cert.LibAfterAppend

variable {F : FTy → Type} [FloatOps F]

/-- The eighteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The edge rows of a node table: row `src e` (self loops appended, wrapped) for each of the 400000 edges. -/
def edgeRows (tbl : FArr F S100000x256) (src : IArr F S300000) : FArr F S400000x256 :=
  Host.gather gather_S100000x256_S400000x1_S400000x256_1_0_n_n_0_1_1256 tbl (wrapLoops (withLoops src))

/-- One graph convolution: the features times the weight matrix, its edge rows aggregated with the edge weights. -/
def conv (x : FArr F S100000x256) (w : FArr F S256x256) (src dst : IArr F S300000) (b : FArr F S256) : FArr F S100000x256 :=
  aggregate (edgeRows (Host.dotGeneral dot_S100000x256_S256x256_S100000x256_1_0_0_1_n_n none x w) src)
    (edgeNorm (withLoops src) (withLoops dst)) (withLoops dst) b

/-- The embedding rows at one endpoint of each of the 300000 scored edges. -/
def endpointRows (z : FArr F S100000x256) (e : IArr F S300000) : FArr F S300000x256 :=
  Host.gather gather_S100000x256_S300000x1_S300000x256_1_0_n_n_0_1_1256 z (wrapEdges e)

/-- The three-layer encoder: two convolutions each followed by normalisation and the rectifier, then a third. -/
def encode (x : FArr F S100000x256) (src dst : IArr F S300000) (w1 : FArr F S256x256) (b1 : FArr F S256)
    (w2 : FArr F S256x256) (b2 : FArr F S256) (w3 : FArr F S256x256) (b3 g1 be1 g2 be2 : FArr F S256) : FArr F S100000x256 :=
  conv (normRelu (conv (normRelu (conv x w1 src dst b1) g1 be1) w2 src dst b2) g2 be2) w3 src dst b3

variable (V : Valuation τ sig (Elt F))

/-! ## The stages -/

theorem stage1 : (after ((ops (F := F)).take 89) V) (Proc.devRef .tc main_v68)
    = normRelu (conv (V (Proc.devRef .tc main_arg0)) (V (Proc.devRef .tc main_arg4)) (V (Proc.devRef .tc main_arg1)) (V (Proc.devRef .tc main_arg2)) (V (Proc.devRef .tc main_arg5)))
        (V (Proc.devRef .tc main_arg10)) (V (Proc.devRef .tc main_arg11)) := by
  simp only [ops, List.take_succ_cons, List.take_zero, List.drop_succ_cons, List.drop_zero]
  after_results_simp <;> rfl
set_option maxHeartbeats 16000000 in
theorem stage1_keeps : ∀ r ∈ (argRefs : List (Ref sig .tc)), (after ((ops (F := F)).take 89) V) (Proc.devRef .tc r) = V (Proc.devRef .tc r) := by
  intro r hr
  simp only [List.mem_cons, List.not_mem_nil, or_false] at hr
  simp only [ops, List.take_succ_cons, List.take_zero, List.drop_succ_cons, List.drop_zero]
  rcases hr with rfl | rfl | rfl | rfl | rfl | rfl | rfl | rfl | rfl | rfl | rfl | rfl | rfl | rfl | rfl | rfl | rfl | rfl <;> (after_results_simp <;> rfl)

theorem stage2 : (after (((ops (F := F)).drop 89).take 89) V) (Proc.devRef .tc main_v137)
    = normRelu (conv (V (Proc.devRef .tc main_v68)) (V (Proc.devRef .tc main_arg6)) (V (Proc.devRef .tc main_arg1)) (V (Proc.devRef .tc main_arg2)) (V (Proc.devRef .tc main_arg7)))
        (V (Proc.devRef .tc main_arg12)) (V (Proc.devRef .tc main_arg13)) := by
  simp only [ops, List.take_succ_cons, List.take_zero, List.drop_succ_cons, List.drop_zero]
  after_results_simp <;> rfl
set_option maxHeartbeats 16000000 in
theorem stage2_keeps : ∀ r ∈ (argRefs : List (Ref sig .tc)), (after (((ops (F := F)).drop 89).take 89) V) (Proc.devRef .tc r) = V (Proc.devRef .tc r) := by
  intro r hr
  simp only [List.mem_cons, List.not_mem_nil, or_false] at hr
  simp only [ops, List.take_succ_cons, List.take_zero, List.drop_succ_cons, List.drop_zero]
  rcases hr with rfl | rfl | rfl | rfl | rfl | rfl | rfl | rfl | rfl | rfl | rfl | rfl | rfl | rfl | rfl | rfl | rfl | rfl <;> (after_results_simp <;> rfl)

theorem stage3 : (after ((((ops (F := F)).drop 89).drop 89).take 56) V) (Proc.devRef .tc main_v180)
    = conv (V (Proc.devRef .tc main_v137)) (V (Proc.devRef .tc main_arg8)) (V (Proc.devRef .tc main_arg1)) (V (Proc.devRef .tc main_arg2)) (V (Proc.devRef .tc main_arg9)) := by
  simp only [ops, List.take_succ_cons, List.take_zero, List.drop_succ_cons, List.drop_zero]
  after_results_simp <;> rfl
set_option maxHeartbeats 16000000 in
theorem stage3_keeps : ∀ r ∈ (argRefs : List (Ref sig .tc)), (after ((((ops (F := F)).drop 89).drop 89).take 56) V) (Proc.devRef .tc r) = V (Proc.devRef .tc r) := by
  intro r hr
  simp only [List.mem_cons, List.not_mem_nil, or_false] at hr
  simp only [ops, List.take_succ_cons, List.take_zero, List.drop_succ_cons, List.drop_zero]
  rcases hr with rfl | rfl | rfl | rfl | rfl | rfl | rfl | rfl | rfl | rfl | rfl | rfl | rfl | rfl | rfl | rfl | rfl | rfl <;> (after_results_simp <;> rfl)

theorem stage4_pos : (after ((((ops (F := F)).drop 89).drop 89).drop 56) V) (Proc.devRef .tc main_v218)
    = scoreRef (endpointRows (V (Proc.devRef .tc main_v180)) (V (Proc.devRef .tc main_arg1))) (endpointRows (V (Proc.devRef .tc main_v180)) (V (Proc.devRef .tc main_arg2)))
        (V (Proc.devRef .tc main_arg14)) (V (Proc.devRef .tc main_arg15)) (V (Proc.devRef .tc main_arg16)) (V (Proc.devRef .tc main_arg17)) := by
  simp only [ops, List.take_succ_cons, List.take_zero, List.drop_succ_cons, List.drop_zero]
  after_results_simp <;> rfl
theorem stage4_neg : (after ((((ops (F := F)).drop 89).drop 89).drop 56) V) (Proc.devRef .tc main_v235)
    = scoreRef (endpointRows (V (Proc.devRef .tc main_v180)) (V (Proc.devRef .tc main_arg1))) (endpointRows (V (Proc.devRef .tc main_v180)) (V (Proc.devRef .tc main_arg3)))
        (V (Proc.devRef .tc main_arg14)) (V (Proc.devRef .tc main_arg15)) (V (Proc.devRef .tc main_arg16)) (V (Proc.devRef .tc main_arg17)) := by
  simp only [ops, List.take_succ_cons, List.take_zero, List.drop_succ_cons, List.drop_zero]
  after_results_simp <;> rfl
set_option maxHeartbeats 16000000 in
theorem stage4_keeps : ∀ r ∈ (argRefs : List (Ref sig .tc)), (after ((((ops (F := F)).drop 89).drop 89).drop 56) V) (Proc.devRef .tc r) = V (Proc.devRef .tc r) := by
  intro r hr
  simp only [List.mem_cons, List.not_mem_nil, or_false] at hr
  simp only [ops, List.take_succ_cons, List.take_zero, List.drop_succ_cons, List.drop_zero]
  rcases hr with rfl | rfl | rfl | rfl | rfl | rfl | rfl | rfl | rfl | rfl | rfl | rfl | rfl | rfl | rfl | rfl | rfl | rfl <;> (after_results_simp <;> rfl)

/-! ## The whole line, cut -/

theorem ops_cut : (ops : List (HloOp τ sig (Elt F)))
    = ops.take 89 ++ (((ops.drop 89).take 89) ++ ((((ops.drop 89).drop 89).take 56) ++ (((ops.drop 89).drop 89).drop 56))) := by
  simp only [List.take_append_drop]

theorem after_cut : after (ops (F := F)) V
    = after ((((ops (F := F)).drop 89).drop 89).drop 56) (after ((((ops (F := F)).drop 89).drop 89).take 56)
        (after (((ops (F := F)).drop 89).take 89) (after ((ops (F := F)).take 89) V))) := by
  conv_lhs => rw [ops_cut]
  rw [after_append, after_append, after_append]

end Cert.ReferenceIdeal.RefStages

end
-- ==== Proof.LayerLaw.lean ====
/- At the ideal instance a layer of the kernel program IS the reference's layer. The kernel reads the rows of the product
   table `x · w` — the sum over the contracted coordinate — from a half-precision copy and widens them, and narrows the
   layer's result again: at this instance a change of float format is the identity, so what is left is the reference's
   convolution over the same product, aggregated with the same edge weights. -/
import proofs.«148771_j31576599560908_2_alg».proof.Proof.KerStages
import proofs.«148771_j31576599560908_2_alg».proof.Proof.RefStages
import proofs.«148771_j31576599560908_2_alg».proof.Proof.SumSpec
import proofs.«148771_j31576599560908_2_alg».proof.Proof.ScorerLaw

noncomputable section

namespace Cert.LayerLaw

open Idealize.ShloMosaic Cert.Stages Cert.ReferenceIdeal

variable (x : FArr Ideal S100000x256) (w : FArr Ideal S256x256) (s d : IArr Ideal S300000) (b g be : FArr Ideal S256)

/-- The widened rows of the half-precision product table are the rows of the reference's product. -/
theorem edgeRows_eq :
    Cert.KernelIdeal.HostStages.edgeRows (F := Ideal) (Cert.SumSpec.mm (n := 100000) (d := 256) (e := 256) x w) (withLoops s)
      = Cert.ReferenceIdeal.RefStages.edgeRows (F := Ideal) (Host.dotGeneral (F := Ideal) (φ₁ := .f32) (φ₂ := .f32) dot_S100000x256_S256x256_S100000x256_1_0_0_1_n_n none x w) s := by
  rw [Cert.ScorerLaw.dot_eq_mm]
  rfl

/-- A hidden layer of the kernel program is the reference's convolution, normalised and rectified. -/
theorem hidden_eq :
    Cert.KernelIdeal.HostStages.hiddenLayer (F := Ideal) (Cert.SumSpec.mm (n := 100000) (d := 256) (e := 256) x w) (withLoops s) (withLoops d)
        (edgeNorm (withLoops s) (withLoops d)) b g be
      = normRelu (Cert.ReferenceIdeal.RefStages.conv (F := Ideal) x w s d b) g be := by
  unfold Cert.KernelIdeal.HostStages.hiddenLayer Cert.ReferenceIdeal.RefStages.conv
  rw [edgeRows_eq]
  rfl

/-- The last layer of the kernel program is the reference's convolution. -/
theorem last_eq :
    Cert.KernelIdeal.HostStages.lastLayer (F := Ideal) (Cert.SumSpec.mm (n := 100000) (d := 256) (e := 256) x w) (withLoops s) (withLoops d)
        (edgeNorm (withLoops s) (withLoops d)) b
      = Cert.ReferenceIdeal.RefStages.conv (F := Ideal) x w s d b := by
  unfold Cert.KernelIdeal.HostStages.lastLayer Cert.ReferenceIdeal.RefStages.conv
  rw [edgeRows_eq]
  rfl

/-- The embedding rows at an edge endpoint are gathered the same way by both programs. -/
theorem rows_eq (z : FArr Ideal S100000x256) (e : IArr Ideal S300000) :
    Cert.KernelIdeal.HostStages.endpointRows (F := Ideal) z e = Cert.ReferenceIdeal.RefStages.endpointRows (F := Ideal) z e := rfl

end Cert.LayerLaw

end
-- ==== Proof.KerValue.lean ====
/- The kernel program's two results at the ideal instance, as the reference's functions of the launch contents. Each
   region's output array is the matrix product of its input arrays (the three linear regions) or the edge scorer of its
   input arrays (the last region); between the regions the host stretches apply the shared stages; a layer of the kernel
   program is the reference's layer; the scorer over the two halves of the first weight matrix, flattened, is the
   reference's scorer over the whole matrix. -/
import proofs.«148771_j31576599560908_2_alg».proof.Proof.KerChain
import proofs.«148771_j31576599560908_2_alg».proof.Proof.LinearValue0
import proofs.«148771_j31576599560908_2_alg».proof.Proof.LinearValue1
import proofs.«148771_j31576599560908_2_alg».proof.Proof.LinearValue2
import proofs.«148771_j31576599560908_2_alg».proof.Proof.ScorerValue
import proofs.«148771_j31576599560908_2_alg».proof.Proof.ScorerLaw
import proofs.«148771_j31576599560908_2_alg».proof.Proof.SliceLaw
import proofs.«148771_j31576599560908_2_alg».proof.Proof.LayerLaw
import proofs.«148771_j31576599560908_2_alg».proof.Proof.RefStages

set_option maxRecDepth 16384

noncomputable section

namespace Cert.KernelIdeal.NetValue

open Idealize.ShloMosaic Idealize.ShloMosaic.TcCoe Idealize.SL.Sem Idealize.ShloMosaic.ValueIdx
open Cert.KernelIdeal Cert.KernelIdeal.Gen Cert.KernelIdeal.Chain Cert.KernelIdeal.HostStages Cert.Stages

variable (m : (ℓ : Loc nD τ sig) → Buf (Elt Ideal) ℓ) (ρ : Dev nD → PrngReg) (c : Dev nD)

/-- The first hidden layer's activations, as the reference computes them. -/
def act1 : FArr Ideal S100000x256 :=
  normRelu (Cert.ReferenceIdeal.RefStages.conv (F := Ideal) (W0 m ρ c (Proc.devRef .tc main_arg0)) (W0 m ρ c (Proc.devRef .tc main_arg4)) (W0 m ρ c (Proc.devRef .tc main_arg1)) (W0 m ρ c (Proc.devRef .tc main_arg2)) (W0 m ρ c (Proc.devRef .tc main_arg5))) (W0 m ρ c (Proc.devRef .tc main_arg10)) (W0 m ρ c (Proc.devRef .tc main_arg11))
/-- The second hidden layer's activations. -/
def act2 : FArr Ideal S100000x256 :=
  normRelu (Cert.ReferenceIdeal.RefStages.conv (F := Ideal) (act1 m ρ c) (W0 m ρ c (Proc.devRef .tc main_arg6)) (W0 m ρ c (Proc.devRef .tc main_arg1)) (W0 m ρ c (Proc.devRef .tc main_arg2)) (W0 m ρ c (Proc.devRef .tc main_arg7))) (W0 m ρ c (Proc.devRef .tc main_arg12)) (W0 m ρ c (Proc.devRef .tc main_arg13))
/-- The node embeddings. -/
def embed : FArr Ideal S100000x256 :=
  Cert.ReferenceIdeal.RefStages.conv (F := Ideal) (act2 m ρ c) (W0 m ρ c (Proc.devRef .tc main_arg8)) (W0 m ρ c (Proc.devRef .tc main_arg1)) (W0 m ρ c (Proc.devRef .tc main_arg2)) (W0 m ρ c (Proc.devRef .tc main_arg9))

theorem embed_eq_encode : embed m ρ c = Cert.ReferenceIdeal.RefStages.encode (F := Ideal) (W0 m ρ c (Proc.devRef .tc main_arg0)) (W0 m ρ c (Proc.devRef .tc main_arg1)) (W0 m ρ c (Proc.devRef .tc main_arg2)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) := rfl

/-- The shared arrays at the entry of the second and third stretch and of the fourth. -/
theorem src4 : W4 m ρ c (Proc.devRef .tc main_v1) = withLoops (W0 m ρ c (Proc.devRef .tc main_arg1)) := (to4 m ρ c main_v1 (by decide)).trans (src3 m ρ c)
theorem dst4 : W4 m ρ c (Proc.devRef .tc main_v2) = withLoops (W0 m ρ c (Proc.devRef .tc main_arg2)) := (to4 m ρ c main_v2 (by decide)).trans (dst3 m ρ c)
theorem nrm4 : W4 m ρ c (Proc.devRef .tc main_v25) = edgeNorm (withLoops (W0 m ρ c (Proc.devRef .tc main_arg1))) (withLoops (W0 m ρ c (Proc.devRef .tc main_arg2))) :=
  (to4 m ρ c main_v25 (by decide)).trans (nrm3 m ρ c)
theorem src8 : W8 m ρ c (Proc.devRef .tc main_v1) = withLoops (W0 m ρ c (Proc.devRef .tc main_arg1)) := (shared8 m ρ c (r := main_v1) (by decide)).trans (src3 m ρ c)
theorem dst8 : W8 m ρ c (Proc.devRef .tc main_v2) = withLoops (W0 m ρ c (Proc.devRef .tc main_arg2)) := (shared8 m ρ c (r := main_v2) (by decide)).trans (dst3 m ρ c)
theorem nrm8 : W8 m ρ c (Proc.devRef .tc main_v25) = edgeNorm (withLoops (W0 m ρ c (Proc.devRef .tc main_arg1))) (withLoops (W0 m ρ c (Proc.devRef .tc main_arg2))) :=
  (shared8 m ρ c (r := main_v25) (by decide)).trans (nrm3 m ρ c)
theorem src12 : W12 m ρ c (Proc.devRef .tc main_v1) = withLoops (W0 m ρ c (Proc.devRef .tc main_arg1)) := (shared12 m ρ c (r := main_v1) (by decide)).trans (src3 m ρ c)
theorem dst12 : W12 m ρ c (Proc.devRef .tc main_v2) = withLoops (W0 m ρ c (Proc.devRef .tc main_arg2)) := (shared12 m ρ c (r := main_v2) (by decide)).trans (dst3 m ρ c)
theorem nrm12 : W12 m ρ c (Proc.devRef .tc main_v25) = edgeNorm (withLoops (W0 m ρ c (Proc.devRef .tc main_arg1))) (withLoops (W0 m ρ c (Proc.devRef .tc main_arg2))) :=
  (shared12 m ρ c (r := main_v25) (by decide)).trans (nrm3 m ρ c)

/-- The first region's output: the product of the node features and the first weight matrix. -/
theorem product1 : W4 m ρ c (Proc.devRef .tc main_v26)
    = Cert.SumSpec.mm (n := 100000) (d := 256) (e := 256) (W0 m ρ c (Proc.devRef .tc main_arg0)) (W0 m ρ c (Proc.devRef .tc main_arg4)) := by
  rw [table1, Cert.KernelIdeal.LinearValue0.arr (V3 m ρ) c]
  rw [show V3 m ρ c main_arg0 = (W0 m ρ c (Proc.devRef .tc main_arg0)) from arg3 m ρ c (by decide),
    show V3 m ρ c main_arg4 = (W0 m ρ c (Proc.devRef .tc main_arg4)) from arg3 m ρ c (by decide)]

/-- The first hidden layer. -/
theorem layer1 : W7 m ρ c (Proc.devRef .tc main_v70) = act1 m ρ c := by
  rw [hidden1, product1, src4, dst4, nrm4, arg4 m ρ c (r := main_arg5) (by decide), arg4 m ρ c (r := main_arg10) (by decide),
    arg4 m ρ c (r := main_arg11) (by decide)]
  exact Cert.LayerLaw.hidden_eq _ _ _ _ _ _ _

theorem product2 : W8 m ρ c (Proc.devRef .tc main_v71)
    = Cert.SumSpec.mm (n := 100000) (d := 256) (e := 256) (act1 m ρ c) (W0 m ρ c (Proc.devRef .tc main_arg6)) := by
  rw [table2, Cert.KernelIdeal.LinearValue1.arr (V7 m ρ) c]
  rw [show V7 m ρ c main_v70 = act1 m ρ c from layer1 m ρ c,
    show V7 m ρ c main_arg6 = (W0 m ρ c (Proc.devRef .tc main_arg6)) from arg7 m ρ c (by decide)]

/-- The second hidden layer. -/
theorem layer2 : W11 m ρ c (Proc.devRef .tc main_v115) = act2 m ρ c := by
  rw [hidden2, product2, src8, dst8, nrm8, arg8 m ρ c (r := main_arg7) (by decide), arg8 m ρ c (r := main_arg12) (by decide),
    arg8 m ρ c (r := main_arg13) (by decide)]
  exact Cert.LayerLaw.hidden_eq _ _ _ _ _ _ _

theorem product3 : W12 m ρ c (Proc.devRef .tc main_v116)
    = Cert.SumSpec.mm (n := 100000) (d := 256) (e := 256) (act2 m ρ c) (W0 m ρ c (Proc.devRef .tc main_arg8)) := by
  rw [table3, Cert.KernelIdeal.LinearValue2.arr (V11 m ρ) c]
  rw [show V11 m ρ c main_v115 = act2 m ρ c from layer2 m ρ c,
    show V11 m ρ c main_arg8 = (W0 m ρ c (Proc.devRef .tc main_arg8)) from arg11 m ρ c (by decide)]

/-- The embeddings the fourth stretch computes are the reference's. -/
theorem embedding : embedOf (W12 m ρ c) = embed m ρ c := by
  unfold HostStages.embedOf
  rw [product3, src12, dst12, nrm12, arg12 m ρ c (r := main_arg9) (by decide)]
  exact Cert.LayerLaw.last_eq _ _ _ _ _

/-- The last region's input arrays. -/
theorem rows_src : W13 m ρ c (Proc.devRef .tc main_v141) = Cert.ReferenceIdeal.RefStages.endpointRows (F := Ideal) (embed m ρ c) (W0 m ρ c (Proc.devRef .tc main_arg1)) := by
  rw [rowsSrc, embedding, arg12 m ρ c (r := main_arg1) (by decide)]; exact Cert.LayerLaw.rows_eq _ _
theorem rows_dst : W13 m ρ c (Proc.devRef .tc main_v148) = Cert.ReferenceIdeal.RefStages.endpointRows (F := Ideal) (embed m ρ c) (W0 m ρ c (Proc.devRef .tc main_arg2)) := by
  rw [rowsDst, embedding, arg12 m ρ c (r := main_arg2) (by decide)]; exact Cert.LayerLaw.rows_eq _ _
theorem rows_neg : W13 m ρ c (Proc.devRef .tc main_v155) = Cert.ReferenceIdeal.RefStages.endpointRows (F := Ideal) (embed m ρ c) (W0 m ρ c (Proc.devRef .tc main_arg3)) := by
  rw [rowsNeg, embedding, arg12 m ρ c (r := main_arg3) (by decide)]; exact Cert.LayerLaw.rows_eq _ _
theorem half_top : W13 m ρ c (Proc.devRef .tc main_v156)
    = extractStridedSlice S256x256 ![0, 0] (W0 m ρ c (Proc.devRef .tc main_arg14)) slices_S512x256_S256x256_0_0 := by
  rw [halfTop, arg12 m ρ c (r := main_arg14) (by decide)]
theorem half_bot : W13 m ρ c (Proc.devRef .tc main_v157)
    = extractStridedSlice S256x256 ![256, 0] (W0 m ρ c (Proc.devRef .tc main_arg14)) slices_S512x256_S256x256_256_0 := by
  rw [halfBot, arg12 m ρ c (r := main_arg14) (by decide)]

/-- The first result: the reference's scores of the edges `(src e, dst e)`. -/
theorem pos_value : W15 m ρ c (Proc.devRef .tc main_v159)
    = scoreRef (F := Ideal) (Cert.ReferenceIdeal.RefStages.endpointRows (F := Ideal) (embed m ρ c) (W0 m ρ c (Proc.devRef .tc main_arg1)))
        (Cert.ReferenceIdeal.RefStages.endpointRows (F := Ideal) (embed m ρ c) (W0 m ρ c (Proc.devRef .tc main_arg2))) (W0 m ρ c (Proc.devRef .tc main_arg14)) (W0 m ρ c (Proc.devRef .tc main_arg15)) (W0 m ρ c (Proc.devRef .tc main_arg16)) (W0 m ρ c (Proc.devRef .tc main_arg17)) := by
  rw [flatPos, scoresPos, Cert.KernelIdeal.ScorerValue.arr_pos (V13 m ρ) c]
  rw [show V13 m ρ c main_v141 = _ from rows_src m ρ c, show V13 m ρ c main_v148 = _ from rows_dst m ρ c,
    show V13 m ρ c main_v156 = _ from half_top m ρ c, show V13 m ρ c main_v157 = _ from half_bot m ρ c,
    show V13 m ρ c main_arg15 = (W0 m ρ c (Proc.devRef .tc main_arg15)) from arg13 m ρ c (by decide),
    show V13 m ρ c main_arg16 = (W0 m ρ c (Proc.devRef .tc main_arg16)) from arg13 m ρ c (by decide),
    show V13 m ρ c main_arg17 = (W0 m ρ c (Proc.devRef .tc main_arg17)) from arg13 m ρ c (by decide)]
  exact (Cert.ScorerLaw.scoreRef_eq _ _ _ _ _ _ _ _
    (fun k j => Cert.KernelIdeal.SliceLaw.top_apply _ _ k j) (fun k j => Cert.KernelIdeal.SliceLaw.bot_apply _ _ k j)).symm

/-- The second result: the reference's scores of the edges `(src e, neg e)`. -/
theorem neg_value : W15 m ρ c (Proc.devRef .tc main_v160)
    = scoreRef (F := Ideal) (Cert.ReferenceIdeal.RefStages.endpointRows (F := Ideal) (embed m ρ c) (W0 m ρ c (Proc.devRef .tc main_arg1)))
        (Cert.ReferenceIdeal.RefStages.endpointRows (F := Ideal) (embed m ρ c) (W0 m ρ c (Proc.devRef .tc main_arg3))) (W0 m ρ c (Proc.devRef .tc main_arg14)) (W0 m ρ c (Proc.devRef .tc main_arg15)) (W0 m ρ c (Proc.devRef .tc main_arg16)) (W0 m ρ c (Proc.devRef .tc main_arg17)) := by
  rw [flatNeg, scoresNeg, Cert.KernelIdeal.ScorerValue.arr_neg (V13 m ρ) c]
  rw [show V13 m ρ c main_v141 = _ from rows_src m ρ c, show V13 m ρ c main_v155 = _ from rows_neg m ρ c,
    show V13 m ρ c main_v156 = _ from half_top m ρ c, show V13 m ρ c main_v157 = _ from half_bot m ρ c,
    show V13 m ρ c main_arg15 = (W0 m ρ c (Proc.devRef .tc main_arg15)) from arg13 m ρ c (by decide),
    show V13 m ρ c main_arg16 = (W0 m ρ c (Proc.devRef .tc main_arg16)) from arg13 m ρ c (by decide),
    show V13 m ρ c main_arg17 = (W0 m ρ c (Proc.devRef .tc main_arg17)) from arg13 m ρ c (by decide)]
  exact (Cert.ScorerLaw.scoreRef_eq _ _ _ _ _ _ _ _
    (fun k j => Cert.KernelIdeal.SliceLaw.top_apply _ _ k j) (fun k j => Cert.KernelIdeal.SliceLaw.bot_apply _ _ k j)).symm

end Cert.KernelIdeal.NetValue

end
-- ==== Proof.RefRun.lean ====
/- The reference program's two results as ONE function each of the contents at the argument buffers (the encoder's three
   convolutions, the endpoint rows, the edge scorer), obtained by composing the four stages; and its run: every weakly fair
   execution terminates with the two results at that function of the launch contents and the arguments unchanged. -/
import proofs.«148771_j31576599560908_2_alg».proof.Proof.RefStages

set_option maxRecDepth 16384

noncomputable section

namespace Cert.ReferenceIdeal.RefStages

open Cert.ReferenceIdeal Cert.ReferenceIdeal.Gen Cert.ReferenceIdeal.RunP
open Idealize.ShloMosaic Idealize.ShloMosaic.TcCoe Idealize.SL.Sem Idealize.ShloMosaic.StableHlo
open Cert.Stages Cert.LibAfterAppend

variable {F : FTy → Type} [FloatOps F]
variable (V : Valuation τ sig (Elt F))

/-! ## An argument buffer after the first one, two, three stages -/

theorem keep1 {r : Ref sig .tc} (h : r ∈ (argRefs : List (Ref sig .tc))) :
    after ((ops (F := F)).take 89) V (Proc.devRef .tc r) = V (Proc.devRef .tc r) := stage1_keeps V r h
theorem keep2 {r : Ref sig .tc} (h : r ∈ (argRefs : List (Ref sig .tc))) :
    after (((ops (F := F)).drop 89).take 89) (after ((ops (F := F)).take 89) V) (Proc.devRef .tc r) = V (Proc.devRef .tc r) :=
  (stage2_keeps _ r h).trans (keep1 V h)
theorem keep3 {r : Ref sig .tc} (h : r ∈ (argRefs : List (Ref sig .tc))) :
    after ((((ops (F := F)).drop 89).drop 89).take 56) (after (((ops (F := F)).drop 89).take 89) (after ((ops (F := F)).take 89) V)) (Proc.devRef .tc r) = V (Proc.devRef .tc r) :=
  (stage3_keeps _ r h).trans (keep2 V h)

/-! ## The two results as functions of the contents at the argument buffers -/

/-- The node embeddings the reference computes from contents `V`. -/
def embedOf : FArr F S100000x256 := encode (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))

/-- The scores of the 300000 edges `(src e, dst e)`. -/
def posOf : FArr F S300000 :=
  scoreRef (endpointRows (embedOf V) (V (Proc.devRef .tc main_arg1))) (endpointRows (embedOf V) (V (Proc.devRef .tc main_arg2)))
    (V (Proc.devRef .tc main_arg14)) (V (Proc.devRef .tc main_arg15)) (V (Proc.devRef .tc main_arg16)) (V (Proc.devRef .tc main_arg17))

/-- The scores of the 300000 edges `(src e, neg e)`. -/
def negOf : FArr F S300000 :=
  scoreRef (endpointRows (embedOf V) (V (Proc.devRef .tc main_arg1))) (endpointRows (embedOf V) (V (Proc.devRef .tc main_arg3)))
    (V (Proc.devRef .tc main_arg14)) (V (Proc.devRef .tc main_arg15)) (V (Proc.devRef .tc main_arg16)) (V (Proc.devRef .tc main_arg17))

theorem pos_value : after (ops (F := F)) V (Proc.devRef .tc main_v218) = posOf V := by
  rw [after_cut, stage4_pos, stage3, stage2, stage1]
  rw [keep3 V (r := main_arg1) (by decide), keep3 V (r := main_arg2) (by decide), keep3 V (r := main_arg14) (by decide), keep3 V (r := main_arg15) (by decide), keep3 V (r := main_arg16) (by decide), keep3 V (r := main_arg17) (by decide)]
  rw [keep2 V (r := main_arg8) (by decide), keep2 V (r := main_arg1) (by decide), keep2 V (r := main_arg2) (by decide), keep2 V (r := main_arg9) (by decide)]
  rw [keep1 V (r := main_arg6) (by decide), keep1 V (r := main_arg1) (by decide), keep1 V (r := main_arg2) (by decide), keep1 V (r := main_arg7) (by decide), keep1 V (r := main_arg12) (by decide), keep1 V (r := main_arg13) (by decide)]
  rfl

theorem neg_value : after (ops (F := F)) V (Proc.devRef .tc main_v235) = negOf V := by
  rw [after_cut, stage4_neg, stage3, stage2, stage1]
  rw [keep3 V (r := main_arg1) (by decide), keep3 V (r := main_arg3) (by decide), keep3 V (r := main_arg14) (by decide), keep3 V (r := main_arg15) (by decide), keep3 V (r := main_arg16) (by decide), keep3 V (r := main_arg17) (by decide)]
  rw [keep2 V (r := main_arg8) (by decide), keep2 V (r := main_arg1) (by decide), keep2 V (r := main_arg2) (by decide), keep2 V (r := main_arg9) (by decide)]
  rw [keep1 V (r := main_arg6) (by decide), keep1 V (r := main_arg1) (by decide), keep1 V (r := main_arg2) (by decide), keep1 V (r := main_arg7) (by decide), keep1 V (r := main_arg12) (by decide), keep1 V (r := main_arg13) (by decide)]
  rfl

theorem args_kept : ∀ r ∈ (argRefs : List (Ref sig .tc)), after (ops (F := F)) V (Proc.devRef .tc r) = V (Proc.devRef .tc r) := by
  intro r hr
  rw [after_cut, stage4_keeps _ r hr, stage3_keeps _ r hr, stage2_keeps _ r hr, stage1_keeps _ r hr]

/-! ## The run -/

/-- From any memory with zero counters every weakly fair execution of the reference terminates, with the two results at
    the composed function of the launch contents and every argument as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v218) = posOf (launchContents m c)
      ∧ r.2.mem ((c.tc : Thread nD τ).loc main_v235) = negOf (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v218).trans (pos_value _), (h c main_v235).trans (neg_value _),
      (h c main_arg0).trans (args_kept _ main_arg0 (by decide)),
      (h c main_arg1).trans (args_kept _ main_arg1 (by decide)),
      (h c main_arg2).trans (args_kept _ main_arg2 (by decide)),
      (h c main_arg3).trans (args_kept _ main_arg3 (by decide)),
      (h c main_arg4).trans (args_kept _ main_arg4 (by decide)),
      (h c main_arg5).trans (args_kept _ main_arg5 (by decide)),
      (h c main_arg6).trans (args_kept _ main_arg6 (by decide)),
      (h c main_arg7).trans (args_kept _ main_arg7 (by decide)),
      (h c main_arg8).trans (args_kept _ main_arg8 (by decide)),
      (h c main_arg9).trans (args_kept _ main_arg9 (by decide)),
      (h c main_arg10).trans (args_kept _ main_arg10 (by decide)),
      (h c main_arg11).trans (args_kept _ main_arg11 (by decide)),
      (h c main_arg12).trans (args_kept _ main_arg12 (by decide)),
      (h c main_arg13).trans (args_kept _ main_arg13 (by decide)),
      (h c main_arg14).trans (args_kept _ main_arg14 (by decide)),
      (h c main_arg15).trans (args_kept _ main_arg15 (by decide)),
      (h c main_arg16).trans (args_kept _ main_arg16 (by decide)),
      (h c main_arg17).trans (args_kept _ main_arg17 (by decide))⟩)
    (run_seq scopedRefs_eq scopedSems_eq defs main (fun _ => ops) main_eq (fun _ => ops_sub) m ρ)

end Cert.ReferenceIdeal.RefStages

end
-- ==== Proof.lean ====
/- The proof of `Cert.Claim`: a three-layer graph convolution network with batch normalisation, whose three feature
   transforms and whose two-layer edge scorer run as four pipelined kernels, against the same network written with plain
   array operations. The frames of the two kernel programs are the generated frame certificates; the reference's frame is
   its run with the results dropped. No operation was rewritten by the idealisation, so there is nothing to preserve. At the
   ideal instance (floats are extended reals, a change of float format is the identity) each linear kernel's output array
   is the matrix product of its inputs, the scorer kernel's output is, row by row, the logistic function of the second
   layer over the rectified first layer computed from the two halves of the first weight matrix, and a sum over the 512
   concatenated coordinates is the sum over its two halves: so both programs end with the same two score vectors. The law
   uses only that addition on the extended reals is commutative and associative; the finiteness of the inputs is never opened. -/
import proofs.«148771_j31576599560908_2_alg».proof.Defs
import proofs.«148771_j31576599560908_2_alg».proof.Proof.Gen.Kernel
import proofs.«148771_j31576599560908_2_alg».proof.Proof.Gen.Kernel.Skeleton
import proofs.«148771_j31576599560908_2_alg».proof.Proof.Gen.Kernel.Launch
import proofs.«148771_j31576599560908_2_alg».proof.Proof.Gen.Kernel.Points
import proofs.«148771_j31576599560908_2_alg».proof.Proof.Gen.Kernel.Frame
import proofs.«148771_j31576599560908_2_alg».proof.Proof.Gen.KernelIdeal
import proofs.«148771_j31576599560908_2_alg».proof.Proof.Gen.KernelIdeal.Skeleton
import proofs.«148771_j31576599560908_2_alg».proof.Proof.Gen.KernelIdeal.Launch
import proofs.«148771_j31576599560908_2_alg».proof.Proof.Gen.KernelIdeal.Points
import proofs.«148771_j31576599560908_2_alg».proof.Proof.Gen.KernelIdeal.Frame
import proofs.«148771_j31576599560908_2_alg».proof.Proof.Gen.ReferenceIdeal
import proofs.«148771_j31576599560908_2_alg».proof.Proof.Gen.Pre_finite_inputs
import proofs.«148771_j31576599560908_2_alg».proof.Proof.KerRun
import proofs.«148771_j31576599560908_2_alg».proof.Proof.KerValue
import proofs.«148771_j31576599560908_2_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.RefStages.run (F := Ideal) m ρ)

theorem preserves : Cert.preserves_Kernel_KernelIdeal := trivial

/-- From memories agreeing on the arguments both programs run, and end with the same two score vectors: the kernel
    program's two results are the reference's functions of its launch contents, the reference's are those functions of its
    own, and the launch contents agree. -/
theorem algebraic : Cert.algebraic_KernelIdeal_ReferenceIdeal := by
  intro m ρ m' ρ' _ hagree
  refine ⟨fun c => Cert.KernelIdeal.Gen.W15 m ρ c (Proc.devRef .tc Cert.KernelIdeal.main_v159),
    fun c => Cert.KernelIdeal.Gen.W15 m ρ c (Proc.devRef .tc Cert.KernelIdeal.main_v160),
    Cert.KernelIdeal.RunValues.run (F := Ideal) m ρ, ?_⟩
  refine (θ_run Cert.ReferenceIdeal.defs _ _).mono (fun _ h c => ⟨(h c).1.trans ?_, (h c).2.1.trans ?_, (h c).2.2⟩)
    (Cert.ReferenceIdeal.RefStages.run (F := Ideal) m' ρ')
  all_goals
    have e0 : launchContents m' c (Proc.devRef .tc Cert.ReferenceIdeal.main_arg0) = Cert.KernelIdeal.Gen.W0 m ρ c (Proc.devRef .tc Cert.KernelIdeal.main_arg0) := (hagree c).1
    have e1 : launchContents m' c (Proc.devRef .tc Cert.ReferenceIdeal.main_arg1) = Cert.KernelIdeal.Gen.W0 m ρ c (Proc.devRef .tc Cert.KernelIdeal.main_arg1) := (hagree c).2.1
    have e2 : launchContents m' c (Proc.devRef .tc Cert.ReferenceIdeal.main_arg2) = Cert.KernelIdeal.Gen.W0 m ρ c (Proc.devRef .tc Cert.KernelIdeal.main_arg2) := (hagree c).2.2.1
    have e3 : launchContents m' c (Proc.devRef .tc Cert.ReferenceIdeal.main_arg3) = Cert.KernelIdeal.Gen.W0 m ρ c (Proc.devRef .tc Cert.KernelIdeal.main_arg3) := (hagree c).2.2.2.1
    have e4 : launchContents m' c (Proc.devRef .tc Cert.ReferenceIdeal.main_arg4) = Cert.KernelIdeal.Gen.W0 m ρ c (Proc.devRef .tc Cert.KernelIdeal.main_arg4) := (hagree c).2.2.2.2.1
    have e5 : launchContents m' c (Proc.devRef .tc Cert.ReferenceIdeal.main_arg5) = Cert.KernelIdeal.Gen.W0 m ρ c (Proc.devRef .tc Cert.KernelIdeal.main_arg5) := (hagree c).2.2.2.2.2.1
    have e6 : launchContents m' c (Proc.devRef .tc Cert.ReferenceIdeal.main_arg6) = Cert.KernelIdeal.Gen.W0 m ρ c (Proc.devRef .tc Cert.KernelIdeal.main_arg6) := (hagree c).2.2.2.2.2.2.1
    have e7 : launchContents m' c (Proc.devRef .tc Cert.ReferenceIdeal.main_arg7) = Cert.KernelIdeal.Gen.W0 m ρ c (Proc.devRef .tc Cert.KernelIdeal.main_arg7) := (hagree c).2.2.2.2.2.2.2.1
    have e8 : launchContents m' c (Proc.devRef .tc Cert.ReferenceIdeal.main_arg8) = Cert.KernelIdeal.Gen.W0 m ρ c (Proc.devRef .tc Cert.KernelIdeal.main_arg8) := (hagree c).2.2.2.2.2.2.2.2.1
    have e9 : launchContents m' c (Proc.devRef .tc Cert.ReferenceIdeal.main_arg9) = Cert.KernelIdeal.Gen.W0 m ρ c (Proc.devRef .tc Cert.KernelIdeal.main_arg9) := (hagree c).2.2.2.2.2.2.2.2.2.1
    have e10 : launchContents m' c (Proc.devRef .tc Cert.ReferenceIdeal.main_arg10) = Cert.KernelIdeal.Gen.W0 m ρ c (Proc.devRef .tc Cert.KernelIdeal.main_arg10) := (hagree c).2.2.2.2.2.2.2.2.2.2.1
    have e11 : launchContents m' c (Proc.devRef .tc Cert.ReferenceIdeal.main_arg11) = Cert.KernelIdeal.Gen.W0 m ρ c (Proc.devRef .tc Cert.KernelIdeal.main_arg11) := (hagree c).2.2.2.2.2.2.2.2.2.2.2.1
    have e12 : launchContents m' c (Proc.devRef .tc Cert.ReferenceIdeal.main_arg12) = Cert.KernelIdeal.Gen.W0 m ρ c (Proc.devRef .tc Cert.KernelIdeal.main_arg12) := (hagree c).2.2.2.2.2.2.2.2.2.2.2.2.1
    have e13 : launchContents m' c (Proc.devRef .tc Cert.ReferenceIdeal.main_arg13) = Cert.KernelIdeal.Gen.W0 m ρ c (Proc.devRef .tc Cert.KernelIdeal.main_arg13) := (hagree c).2.2.2.2.2.2.2.2.2.2.2.2.2.1
    have e14 : launchContents m' c (Proc.devRef .tc Cert.ReferenceIdeal.main_arg14) = Cert.KernelIdeal.Gen.W0 m ρ c (Proc.devRef .tc Cert.KernelIdeal.main_arg14) := (hagree c).2.2.2.2.2.2.2.2.2.2.2.2.2.2.1
    have e15 : launchContents m' c (Proc.devRef .tc Cert.ReferenceIdeal.main_arg15) = Cert.KernelIdeal.Gen.W0 m ρ c (Proc.devRef .tc Cert.KernelIdeal.main_arg15) := (hagree c).2.2.2.2.2.2.2.2.2.2.2.2.2.2.2.1
    have e16 : launchContents m' c (Proc.devRef .tc Cert.ReferenceIdeal.main_arg16) = Cert.KernelIdeal.Gen.W0 m ρ c (Proc.devRef .tc Cert.KernelIdeal.main_arg16) := (hagree c).2.2.2.2.2.2.2.2.2.2.2.2.2.2.2.2.1
    have e17 : launchContents m' c (Proc.devRef .tc Cert.ReferenceIdeal.main_arg17) = Cert.KernelIdeal.Gen.W0 m ρ c (Proc.devRef .tc Cert.KernelIdeal.main_arg17) := (hagree c).2.2.2.2.2.2.2.2.2.2.2.2.2.2.2.2.2
  · unfold Cert.ReferenceIdeal.RefStages.posOf Cert.ReferenceIdeal.RefStages.embedOf
    rw [e0, e1, e2, e4, e5, e6, e7, e8, e9, e10, e11, e12, e13, e14, e15, e16, e17]
    exact (Cert.KernelIdeal.NetValue.pos_value m ρ c).symm
  · unfold Cert.ReferenceIdeal.RefStages.negOf Cert.ReferenceIdeal.RefStages.embedOf
    rw [e0, e1, e2, e3, e4, e5, e6, e7, e8, e9, e10, e11, e12, e13, e14, e15, e16, e17]
    exact (Cert.KernelIdeal.NetValue.neg_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
